-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S1x128 : Shape := ⟨2, ![1, 128]⟩
abbrev S1x64 : Shape := ⟨2, ![1, 64]⟩
abbrev S10000x128 : Shape := ⟨2, ![10000, 128]⟩
abbrev S10000x1 : Shape := ⟨2, ![10000, 1]⟩
abbrev S850000x128 : Shape := ⟨2, ![850000, 128]⟩
abbrev S50000x64 : Shape := ⟨2, ![50000, 64]⟩
abbrev S10000x64 : Shape := ⟨2, ![10000, 64]⟩
abbrev S850000x64 : Shape := ⟨2, ![850000, 64]⟩
abbrev S10000 : Shape := ⟨1, ![10000]⟩

abbrev nBuf : Space → Nat
  | .hbm => 73
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S1x128, .f32⟩
  | .hbm, ⟨29, _⟩ => ⟨S1x64, .f32⟩
  | .hbm, ⟨30, _⟩ => ⟨S50000x128, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000x128, .f32⟩
  | .hbm, ⟨40, _⟩ => ⟨S_, .f32⟩
  | .hbm, ⟨41, _⟩ => ⟨S50000x128, .f32⟩
  | .hbm, ⟨42, _⟩ => ⟨S850000x1, .i32⟩
  | .hbm, ⟨43, _⟩ => ⟨S50000x128, .f32⟩
  | .hbm, ⟨44, _⟩ => ⟨S50000x128, .f32⟩
  | .hbm, ⟨45, _⟩ => ⟨S_, .i32⟩
  | .hbm, ⟨46, _⟩ => ⟨S850000, .i32⟩
  | .hbm, ⟨47, _⟩ => ⟨S850000, .i1⟩
  | .hbm, ⟨48, _⟩ => ⟨S_, .i32⟩
  | .hbm, ⟨49, _⟩ => ⟨S850000, .i32⟩
  | .hbm, ⟨50, _⟩ => ⟨S850000, .i32⟩
  | .hbm, ⟨51, _⟩ => ⟨S850000, .i32⟩
  | .hbm, ⟨52, _⟩ => ⟨S850000x1, .i32⟩
  | .hbm, ⟨53, _⟩ => ⟨S850000x128, .f32⟩
  | .hbm, ⟨54, _⟩ => ⟨S_, .f32⟩
  | .hbm, ⟨55, _⟩ => ⟨S50000x128, .f32⟩
  | .hbm, ⟨56, _⟩ => ⟨S850000x1, .i32⟩
  | .hbm, ⟨57, _⟩ => ⟨S50000x128, .f32⟩
  | .hbm, ⟨58, _⟩ => ⟨S50000x64, .f32⟩
  | .hbm, ⟨59, _⟩ => ⟨S_, .i32⟩
  | .hbm, ⟨60, _⟩ => ⟨S850000, .i32⟩
  | .hbm, ⟨61, _⟩ => ⟨S850000, .i1⟩
  | .hbm, ⟨62, _⟩ => ⟨S_, .i32⟩
  | .hbm, ⟨63, _⟩ => ⟨S850000, .i32⟩
  | .hbm, ⟨64, _⟩ => ⟨S850000, .i32⟩
  | .hbm, ⟨65, _⟩ => ⟨S850000, .i32⟩
  | .hbm, ⟨66, _⟩ => ⟨S850000x1, .i32⟩
  | .hbm, ⟨67, _⟩ => ⟨S850000x64, .f32⟩
  | .hbm, ⟨68, _⟩ => ⟨S_, .f32⟩
  | .hbm, ⟨69, _⟩ => ⟨S50000x64, .f32⟩
  | .hbm, ⟨70, _⟩ => ⟨S850000x1, .i32⟩
  | .hbm, ⟨71, _⟩ => ⟨S50000x64, .f32⟩
  | .hbm, ⟨72, _⟩ => ⟨S50000x64, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x1, .f32⟩
  | .local _ .vmem, ⟨4, _⟩ => ⟨S10000x1, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S10000x128, .f32⟩
  | .local _ .vmem, ⟨9, _⟩ => ⟨S10000x1, .f32⟩
  | .local _ .vmem, ⟨10, _⟩ => ⟨S10000x1, .f32⟩
  | .local _ .vmem, ⟨11, _⟩ => ⟨S1x128, .f32⟩
  | .local _ .vmem, ⟨12, _⟩ => ⟨S128x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S10000x1, .f32⟩
  | .local _ .vmem, ⟨18, _⟩ => ⟨S10000x1, .f32⟩
  | .local _ .vmem, ⟨19, _⟩ => ⟨S1x128, .f32⟩
  | .local _ .vmem, ⟨20, _⟩ => ⟨S128x64, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S10000x64, .f32⟩
  | .local _ .vmem, ⟨25, _⟩ => ⟨S10000x1, .f32⟩
  | .local _ .vmem, ⟨26, _⟩ => ⟨S10000x1, .f32⟩
  | .local _ .vmem, ⟨27, _⟩ => ⟨S1x64, .f32⟩
  | .local _ .vmem, ⟨28, _⟩ => ⟨S10000x64, .f32⟩
  | .local _ .vmem, ⟨29, _⟩ => ⟨S10000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_c_8 : Ref sig .tc := ⟨.hbm, 59, rfl⟩
abbrev main_v41 : Ref sig .tc := ⟨.hbm, 60, rfl⟩
abbrev main_v42 : Ref sig .tc := ⟨.hbm, 61, rfl⟩
abbrev main_c_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem4_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem3_1 : DmaSem sig := 29

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S50000_S50000x1_0 : S50000.BroadcastsInDim S50000x1 (![0] : Fin 1 → Fin S50000x1.rank)
  shapeCasts_S128_S1x128 : S128.ShapeCasts S1x128
  shapeCasts_S64_S1x64 : S64.ShapeCasts S1x64
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  bcast_S_S50000x128 : S_.BroadcastsInDim S50000x128 (![] : Fin 0 → Fin S50000x128.rank)
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x64_S128x64_0_0 : ∀ a, (![0, 0] : Fin 2 → Nat) a + S128x64.size a ≤ S128x64.size a
  h_S128x64 : 0 < S128x64.numel
  broadcasts_S10000x1_S10000x64 : S10000x1.Broadcasts S10000x64
  inb_S10000x64_S10000x64_0_0 : ∀ a, (![0, 0] : Fin 2 → Nat) a + S10000x64.size a ≤ S10000x64.size a
  h_S10000x64 : 0 < S10000x64.numel
  bcast_S_S50000x64 : S_.BroadcastsInDim S50000x64 (![] : Fin 0 → Fin S50000x64.rank)
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  reduces_S10000x64_S10000 : S10000x64.Reduces [1] S10000
  shapeCasts_S10000_S10000x1 : S10000.ShapeCasts S10000x1
  scatter_S50000_S850000x1_S850000_n_0_0_1_wf : ScatterDims.WF S50000 S850000x1 S850000 [] [0] [0] 1
  dot_S10000x128_S128x128_S10000x128_1_0_0_1_n_n_wf : DotDims.WF S10000x128 S128x128 S10000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S10000x128_S128x64_S10000x64_1_0_0_1_n_n_wf : DotDims.WF S10000x128 S128x64 S10000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S50000x1.size a
  hwx0_2 : ∀ i : grid0.Coords, EltTy.bits .f32 = 32 ∨ (Rect.block (s := S50000x1) S10000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S50000x128.size a
  hwx0_3 : ∀ i : grid0.Coords, EltTy.bits .f32 = 32 ∨ (Rect.block (s := S50000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S50000x1.size a
  hwx1_1 : ∀ i : grid1.Coords, EltTy.bits .f32 = 32 ∨ (Rect.block (s := S50000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x128.size a ≤ S50000x128.size a
  hwx1_4 : ∀ i : grid1.Coords, EltTy.bits .f32 = 32 ∨ (Rect.block (s := S50000x128) S10000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S50000x128.size a
  hwx2_0 : ∀ i : grid2.Coords, EltTy.bits .f32 = 32 ∨ (Rect.block (s := S50000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S50000x1.size a
  hwx2_1 : ∀ i : grid2.Coords, EltTy.bits .f32 = 32 ∨ (Rect.block (s := S50000x1) S10000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x64.size a ≤ S50000x64.size a
  hwx2_4 : ∀ i : grid2.Coords, EltTy.bits .f32 = 32 ∨ (Rect.block (s := S50000x64) S10000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S50000x64.size a
  hwx3_0 : ∀ i : grid3.Coords, EltTy.bits .f32 = 32 ∨ (Rect.block (s := S50000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x1.size a ≤ S50000x1.size a
  hwx3_1 : ∀ i : grid3.Coords, EltTy.bits .f32 = 32 ∨ (Rect.block (s := S50000x1) S10000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x64.size a ≤ S50000x64.size a
  hwx3_3 : ∀ i : grid3.Coords, EltTy.bits .f32 = 32 ∨ (Rect.block (s := S50000x64) S10000x64.size (cc3_transform_3 i) (hinb3_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S10000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v39) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v16) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg4) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v40) S10000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v50) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S10000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v17) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v51) S10000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩
abbrev S50000x1 : Shape := ⟨2, ![50000, 1]⟩

abbrev nBuf : Space → Nat
  | .hbm => 162
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x64, .f32⟩
  | 5 => ⟨S64, .f32⟩
  | 6 => ⟨S50000, .i32⟩
  | 7 => ⟨S1x800000, .i32⟩
  | 8 => ⟨S800000, .i32⟩
  | 9 => ⟨S850000, .i32⟩
  | 10 => ⟨S1x800000, .i32⟩
  | 11 => ⟨S800000, .i32⟩
  | 12 => ⟨S850000, .i32⟩
  | 13 => ⟨S_, .f32⟩
  | 14 => ⟨S850000, .f32⟩
  | 15 => ⟨S_, .f32⟩
  | 16 => ⟨S50000, .f32⟩
  | 17 => ⟨S850000x1, .i32⟩
  | 18 => ⟨S50000, .f32⟩
  | 19 => ⟨S_, .f32⟩
  | 20 => ⟨S50000, .f32⟩
  | 21 => ⟨S50000, .i1⟩
  | 22 => ⟨S50000, .f32⟩
  | 23 => ⟨S_, .f32⟩
  | 24 => ⟨S_, .f32⟩
  | 25 => ⟨S50000, .f32⟩
  | 26 => ⟨S50000, .f32⟩
  | 27 => ⟨S50000x128, .f32⟩
  | 28 => ⟨S_, .i32⟩
  | 29 => ⟨S850000, .i32⟩
  | 30 => ⟨S850000, .i1⟩
  | 31 => ⟨S_, .i32⟩
  | 32 => ⟨S850000, .i32⟩
  | 33 => ⟨S850000, .i32⟩
  | 34 => ⟨S850000, .i32⟩
  | 35 => ⟨S850000x1, .i32⟩
  | 36 => ⟨S850000, .f32⟩
  | 37 => ⟨S_, .i32⟩
  | 38 => ⟨S850000, .i32⟩
  | 39 => ⟨S850000, .i1⟩
  | 40 => ⟨S_, .i32⟩
  | 41 => ⟨S850000, .i32⟩
  | 42 => ⟨S850000, .i32⟩
  | 43 => ⟨S850000, .i32⟩
  | 44 => ⟨S850000x1, .i32⟩
  | 45 => ⟨S850000, .f32⟩
  | 46 => ⟨S850000, .f32⟩
  | 47 => ⟨S_, .i32⟩
  | 48 => ⟨S850000, .i32⟩
  | 49 => ⟨S850000, .i1⟩
  | 50 => ⟨S_, .i32⟩
  | 51 => ⟨S850000, .i32⟩
  | 52 => ⟨S850000, .i32⟩
  | 53 => ⟨S850000, .i32⟩
  | 54 => ⟨S850000x1, .i32⟩
  | 55 => ⟨S850000x128, .f32⟩
  | 56 => ⟨S850000x1, .f32⟩
  | 57 => ⟨S850000x128, .f32⟩
  | 58 => ⟨S850000x128, .f32⟩
  | 59 => ⟨S_, .f32⟩
  | 60 => ⟨S50000x128, .f32⟩
  | 61 => ⟨S850000x1, .i32⟩
  | 62 => ⟨S50000x128, .f32⟩
  | 63 => ⟨S1x128, .f32⟩
  | 64 => ⟨S50000x128, .f32⟩
  | 65 => ⟨S50000x128, .f32⟩
  | 66 => ⟨S50000x128, .f32⟩
  | 67 => ⟨S_, .i32⟩
  | 68 => ⟨S850000, .i32⟩
  | 69 => ⟨S850000, .i1⟩
  | 70 => ⟨S_, .i32⟩
  | 71 => ⟨S850000, .i32⟩
  | 72 => ⟨S850000, .i32⟩
  | 73 => ⟨S850000, .i32⟩
  | 74 => ⟨S850000x1, .i32⟩
  | 75 => ⟨S850000, .f32⟩
  | 76 => ⟨S_, .i32⟩
  | 77 => ⟨S850000, .i32⟩
  | 78 => ⟨S850000, .i1⟩
  | 79 => ⟨S_, .i32⟩
  | 80 => ⟨S850000, .i32⟩
  | 81 => ⟨S850000, .i32⟩
  | 82 => ⟨S850000, .i32⟩
  | 83 => ⟨S850000x1, .i32⟩
  | 84 => ⟨S850000, .f32⟩
  | 85 => ⟨S850000, .f32⟩
  | 86 => ⟨S_, .i32⟩
  | 87 => ⟨S850000, .i32⟩
  | 88 => ⟨S850000, .i1⟩
  | 89 => ⟨S_, .i32⟩
  | 90 => ⟨S850000, .i32⟩
  | 91 => ⟨S850000, .i32⟩
  | 92 => ⟨S850000, .i32⟩
  | 93 => ⟨S850000x1, .i32⟩
  | 94 => ⟨S850000x128, .f32⟩
  | 95 => ⟨S850000x1, .f32⟩
  | 96 => ⟨S850000x128, .f32⟩
  | 97 => ⟨S850000x128, .f32⟩
  | 98 => ⟨S_, .f32⟩
  | 99 => ⟨S50000x128, .f32⟩
  | 100 => ⟨S850000x1, .i32⟩
  | 101 => ⟨S50000x128, .f32⟩
  | 102 => ⟨S1x128, .f32⟩
  | 103 => ⟨S50000x128, .f32⟩
  | 104 => ⟨S50000x128, .f32⟩
  | 105 => ⟨S_, .f32⟩
  | 106 => ⟨S50000x128, .f32⟩
  | 107 => ⟨S50000x128, .f32⟩
  | 108 => ⟨S50000x64, .f32⟩
  | 109 => ⟨S_, .i32⟩
  | 110 => ⟨S850000, .i32⟩
  | 111 => ⟨S850000, .i1⟩
  | 112 => ⟨S_, .i32⟩
  | 113 => ⟨S850000, .i32⟩
  | 114 => ⟨S850000, .i32⟩
  | 115 => ⟨S850000, .i32⟩
  | 116 => ⟨S850000x1, .i32⟩
  | 117 => ⟨S850000, .f32⟩
  | 118 => ⟨S_, .i32⟩
  | 119 => ⟨S850000, .i32⟩
  | 120 => ⟨S850000, .i1⟩
  | 121 => ⟨S_, .i32⟩
  | 122 => ⟨S850000, .i32⟩
  | 123 => ⟨S850000, .i32⟩
  | 124 => ⟨S850000, .i32⟩
  | 125 => ⟨S850000x1, .i32⟩
  | 126 => ⟨S850000, .f32⟩
  | 127 => ⟨S850000, .f32⟩
  | _ => ⟨S50000x128, .f32⟩

abbrev hbmTy0_1 (i : Nat) : BufTy := match i % 128 with
  | 0 => ⟨S_, .i32⟩
  | 1 => ⟨S850000, .i32⟩
  | 2 => ⟨S850000, .i1⟩
  | 3 => ⟨S_, .i32⟩
  | 4 => ⟨S850000, .i32⟩
  | 5 => ⟨S850000, .i32⟩
  | 6 => ⟨S850000, .i32⟩
  | 7 => ⟨S850000x1, .i32⟩
  | 8 => ⟨S850000x64, .f32⟩
  | 9 => ⟨S850000x1, .f32⟩
  | 10 => ⟨S850000x64, .f32⟩
  | 11 => ⟨S850000x64, .f32⟩
  | 12 => ⟨S_, .f32⟩
  | 13 => ⟨S50000x64, .f32⟩
  | 14 => ⟨S850000x1, .i32⟩
  | 15 => ⟨S50000x64, .f32⟩
  | 16 => ⟨S1x64, .f32⟩
  | 17 => ⟨S50000x64, .f32⟩
  | 18 => ⟨S50000x64, .f32⟩
  | 19 => ⟨S_, .f32⟩
  | 20 => ⟨S50000, .f32⟩
  | 21 => ⟨S_, .f32⟩
  | 22 => ⟨S50000, .f32⟩
  | 23 => ⟨S50000, .f32⟩
  | 24 => ⟨S50000x1, .f32⟩
  | 25 => ⟨S50000x64, .f32⟩
  | 26 => ⟨S50000x64, .f32⟩
  | 27 => ⟨S50000x64, .f32⟩
  | 28 => ⟨S_, .f32⟩
  | 29 => ⟨S50000, .f32⟩
  | 30 => ⟨S50000x1, .f32⟩
  | 31 => ⟨S50000x1, .f32⟩
  | 32 => ⟨S50000x64, .f32⟩
  | 33 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_9 : Ref sig .tc := ⟨.hbm, 67, rfl⟩
abbrev main_v48 : Ref sig .tc := ⟨.hbm, 68, rfl⟩
abbrev main_v49 : Ref sig .tc := ⟨.hbm, 69, rfl⟩
abbrev main_c_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_c_11 : Ref sig .tc := ⟨.hbm, 76, rfl⟩
abbrev main_v55 : Ref sig .tc := ⟨.hbm, 77, rfl⟩
abbrev main_v56 : Ref sig .tc := ⟨.hbm, 78, rfl⟩
abbrev main_c_12 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_c_13 : Ref sig .tc := ⟨.hbm, 86, rfl⟩
abbrev main_v63 : Ref sig .tc := ⟨.hbm, 87, rfl⟩
abbrev main_v64 : Ref sig .tc := ⟨.hbm, 88, rfl⟩
abbrev main_c_14 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_15 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_call1_cst : Ref sig .tc := ⟨.hbm, 105, rfl⟩
abbrev main_call1_v0 : Ref sig .tc := ⟨.hbm, 106, rfl⟩
abbrev main_v79 : Ref sig .tc := ⟨.hbm, 107, rfl⟩
abbrev main_v80 : Ref sig .tc := ⟨.hbm, 108, rfl⟩
abbrev main_c_16 : Ref sig .tc := ⟨.hbm, 109, rfl⟩
abbrev main_v81 : Ref sig .tc := ⟨.hbm, 110, rfl⟩
abbrev main_v82 : Ref sig .tc := ⟨.hbm, 111, rfl⟩
abbrev main_c_17 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_c_18 : Ref sig .tc := ⟨.hbm, 118, rfl⟩
abbrev main_v88 : Ref sig .tc := ⟨.hbm, 119, rfl⟩
abbrev main_v89 : Ref sig .tc := ⟨.hbm, 120, rfl⟩
abbrev main_c_19 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_c_20 : Ref sig .tc := ⟨.hbm, 128, rfl⟩
abbrev main_v96 : Ref sig .tc := ⟨.hbm, 129, rfl⟩
abbrev main_v97 : Ref sig .tc := ⟨.hbm, 130, rfl⟩
abbrev main_c_21 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_cst_22 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_call2_cst : Ref sig .tc := ⟨.hbm, 147, rfl⟩
abbrev main_call2_v0 : Ref sig .tc := ⟨.hbm, 148, rfl⟩
abbrev main_call2_cst_0 : Ref sig .tc := ⟨.hbm, 149, rfl⟩
abbrev main_call2_v1 : Ref sig .tc := ⟨.hbm, 150, rfl⟩
abbrev main_call2_v2 : Ref sig .tc := ⟨.hbm, 151, rfl⟩
abbrev main_call2_v3 : Ref sig .tc := ⟨.hbm, 152, rfl⟩
abbrev main_call2_v4 : Ref sig .tc := ⟨.hbm, 153, rfl⟩
abbrev main_call2_v5 : Ref sig .tc := ⟨.hbm, 154, rfl⟩
abbrev main_call2_v6 : Ref sig .tc := ⟨.hbm, 155, rfl⟩
abbrev main_call2_cst_1 : Ref sig .tc := ⟨.hbm, 156, rfl⟩
abbrev main_call2_v7 : Ref sig .tc := ⟨.hbm, 157, rfl⟩
abbrev main_call2_v8 : Ref sig .tc := ⟨.hbm, 158, rfl⟩
abbrev main_call2_v9 : Ref sig .tc := ⟨.hbm, 159, rfl⟩
abbrev main_call2_v10 : Ref sig .tc := ⟨.hbm, 160, rfl⟩
abbrev main_v112 : Ref sig .tc := ⟨.hbm, 161, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  scatter_S50000_S850000x1_S850000_n_0_0_1_wf : ScatterDims.WF S50000 S850000x1 S850000 [] [0] [0] 1
  dot_S50000x128_S128x128_S50000x128_1_0_0_1_n_n_wf : DotDims.WF S50000x128 S128x128 S50000x128 [1] [0] [0] [1] [] []
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.KernelRun.lean ====
/-
  The idealized kernel's run with its result named.

  The program is four grid sweeps among stretches of whole-array operations.  Every execution terminates, the six
  argument arrays end as they began, and the result array ends at the contents the last sweep's write-backs leave:
  the fold of the program's segments from the launch memory, read at the result's buffer.
-/
import proofs.«139803_j23648089931788_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer ends at the last boundary's contents and
    the arguments end unchanged. -/
theorem run_result : θ_run defs (onTc (τ := τ) (main (F := F))) ⟨m, fun _ => 0, ρ⟩ (fun r => ∀ c : Dev nD,
      r.2.mem ((c.tc : Thread nD τ).loc main_v51) = W10 m ρ c (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v51 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c)⟩)

end Cert.KernelIdeal.Run

end
-- ==== Proof.Boundary.lean ====
/-
  The contents of the idealized kernel's buffers when each grid sweep starts.

  Before the first sweep the program builds, from the edge list, the source and destination words of every edge (the
  list's two rows, each followed by the self loops 0 … 49999), the number of edges landing on each node, and the node
  weights: the inverse square root of that number where it is positive, zero elsewhere; the weights are kept as a
  column and the two biases as rows.  None of these buffers, nor the weight matrices, is written again: every later
  stretch of whole-array operations and every sweep leaves them as they were.
-/
import proofs.«139803_j23648089931788_2_alg».proof.Proof.Gen.KernelIdeal.Frame
import Idealize.ShloMosaic.Lib.StableHlo.Run
import Idealize.ShloMosaic.PureOps.Ideal

set_option maxRecDepth 16384

noncomputable section

namespace Cert.KernelIdeal.Boundary

open Cert.KernelIdeal Cert.KernelIdeal.Gen
open Idealize.ShloMosaic Idealize.ShloMosaic.TcCoe Idealize.SL.Sem
open Idealize.ShloMosaic.Pipeline (Dat)

/-! ## The arrays the program derives from the edge list -/

/-- The source word of every edge: the edge list's row 0, then the self loops. -/
def srcVec (a1 : IVec S2x800000 32) : IVec S850000 32 :=
  concatenate S850000 0 [⟨S800000, shapeCast S800000 (extractStridedSlice S1x800000 ![0, 0] a1 slices_S2x800000_S1x800000_0_0)
    shapeCasts_S1x800000_S800000⟩, ⟨S50000, iotaInDim S50000 32 0⟩] concatenates_S800000_S50000_S850000_d0

/-- The destination word of every edge: the edge list's row 1, then the self loops. -/
def dstVec (a1 : IVec S2x800000 32) : IVec S850000 32 :=
  concatenate S850000 0 [⟨S800000, shapeCast S800000 (extractStridedSlice S1x800000 ![1, 0] a1 slices_S2x800000_S1x800000_1_0)
    shapeCasts_S1x800000_S800000⟩, ⟨S50000, iotaInDim S50000 32 0⟩] concatenates_S800000_S50000_S850000_d0

/-- A vector of words as the column of start indices a gather reads: a negative word is first moved up by 50000. -/
def gatherCol (v : IVec S850000 32) : IVec S850000x1 32 :=
  broadcastInDim S850000x1 ![0] bcast_S850000_S850000x1_0
    (select (cmpi .slt v (broadcastInDim S850000 ![] bcast_S_S850000 (constantI S_ 32 0#32)))
      (addi v (broadcastInDim S850000 ![] bcast_S_S850000 (constantI S_ 32 50000#32))) v)

/-- A vector of words as the column of start indices a scatter reads. -/
def scatterCol (v : IVec S850000 32) : IVec S850000x1 32 :=
  broadcastInDim S850000x1 ![0] bcast_S850000_S850000x1_0 v

/-- The number of edges landing on each node, accumulated from zero. -/
def degree (a1 : IVec S2x800000 32) : FVec Ideal S50000 .f32 :=
  Host.scatterAdd scatter_S50000_S850000x1_S850000_n_0_0_1
    (broadcastInDim S50000 ![] bcast_S_S50000 (constant S_ .f32 0x00000000#32)) (scatterCol (dstVec a1))
    (broadcastInDim S850000 ![] bcast_S_S850000 (constant S_ .f32 0x3F800000#32))

/-- The node weights: the inverse square root of the degree where it is positive, zero elsewhere. -/
def weight (a1 : IVec S2x800000 32) : FVec Ideal S50000 .f32 :=
  select (cmpf .ogt (degree a1) (broadcastInDim S50000 ![] bcast_S_S50000 (constant S_ .f32 0x00000000#32)))
    (Host.rsqrt (degree a1)) (broadcastInDim S50000 ![] bcast_S_S50000 (id (constant S_ .f32 0x00000000#32)))

/-- The node weights as a column. -/
def weightCol (a1 : IVec S2x800000 32) : FVec Ideal S50000x1 .f32 :=
  broadcastInDim S50000x1 ![0] bcast_S50000_S50000x1_0 (weight a1)

variable (m : (ℓ : Loc nD τ sig) → Buf (Elt Ideal) ℓ) (ρ : Dev nD → PrngReg) (c : Dev nD)

/-! ## At the first sweep's start -/

theorem first_src : W3 m ρ c (Proc.devRef .tc main_v3) = srcVec (m ((c : Thread nD τ).loc main_arg1)) := by
  show StableHlo.after hostOps0_2 (StableHlo.after hostOps0_1 (StableHlo.after hostOps0 (W0 m ρ c))) (Proc.devRef .tc main_v3) = _
  after_results
  rfl

theorem first_dst : W3 m ρ c (Proc.devRef .tc main_v6) = dstVec (m ((c : Thread nD τ).loc main_arg1)) := by
  show StableHlo.after hostOps0_2 (StableHlo.after hostOps0_1 (StableHlo.after hostOps0 (W0 m ρ c))) (Proc.devRef .tc main_v6) = _
  after_results
  rfl

theorem first_weightCol : W3 m ρ c (Proc.devRef .tc main_v15) = weightCol (m ((c : Thread nD τ).loc main_arg1)) := by
  have e3 : W3 m ρ c (Proc.devRef .tc main_v15)
      = broadcastInDim S50000x1 ![0] bcast_S50000_S50000x1_0 (W2 m ρ c (Proc.devRef .tc main_v14)) := by
    show StableHlo.after hostOps0_2 (W2 m ρ c) (Proc.devRef .tc main_v15) = _
    generalize W2 m ρ c = Wg
    after_results
  have e2 : W2 m ρ c (Proc.devRef .tc main_v14)
      = select (W1 m ρ c (Proc.devRef .tc main_v12)) (W1 m ρ c (Proc.devRef .tc main_v13))
          (broadcastInDim S50000 ![] bcast_S_S50000 (id (W1 m ρ c (Proc.devRef .tc main_cst_2)))) := by
    show StableHlo.after hostOps0_1 (W1 m ρ c) (Proc.devRef .tc main_v14) = _
    generalize W1 m ρ c = Wg
    after_results
    rfl
  have e12 : W1 m ρ c (Proc.devRef .tc main_v12)
      = cmpf .ogt (degree (m ((c : Thread nD τ).loc main_arg1)))
          (broadcastInDim S50000 ![] bcast_S_S50000 (constant S_ .f32 0x00000000#32)) := by
    show StableHlo.after hostOps0 (W0 m ρ c) (Proc.devRef .tc main_v12) = _
    after_results
    rfl
  have e13 : W1 m ρ c (Proc.devRef .tc main_v13) = Host.rsqrt (degree (m ((c : Thread nD τ).loc main_arg1))) := by
    show StableHlo.after hostOps0 (W0 m ρ c) (Proc.devRef .tc main_v13) = _
    after_results
    rfl
  have ec : W1 m ρ c (Proc.devRef .tc main_cst_2) = constant (F := Ideal) S_ .f32 0x00000000#32 := by
    show StableHlo.after hostOps0 (W0 m ρ c) (Proc.devRef .tc main_cst_2) = _
    after_results
  rw [e3, e2, e12, e13, ec]
  rfl

theorem first_bias1 : W3 m ρ c (Proc.devRef .tc main_v16)
    = shapeCast S1x128 (m ((c : Thread nD τ).loc main_arg3)) shapeCasts_S128_S1x128 := by
  show StableHlo.after hostOps0_2 (StableHlo.after hostOps0_1 (StableHlo.after hostOps0 (W0 m ρ c))) (Proc.devRef .tc main_v16) = _
  after_results
  rfl

theorem first_bias2 : W3 m ρ c (Proc.devRef .tc main_v17)
    = shapeCast S1x64 (m ((c : Thread nD τ).loc main_arg5)) shapeCasts_S64_S1x64 := by
  show StableHlo.after hostOps0_2 (StableHlo.after hostOps0_1 (StableHlo.after hostOps0 (W0 m ρ c))) (Proc.devRef .tc main_v17) = _
  after_results
  rfl

theorem first_arg0 : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results

theorem first_arg2 : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results

theorem first_arg4 : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results

/-! ## Later: none of these buffers is written again -/

/-- A stretch of whole-array operations leaves a buffer none of them writes as it was. -/
macro "unwritten " ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

theorem step4_v3 : W4 m ρ c (Proc.devRef .tc main_v3) = W3 m ρ c (Proc.devRef .tc main_v3) :=
  W4_of_ne m ρ c main_v3 (by decide)
theorem at4_v3 : W4 m ρ c (Proc.devRef .tc main_v3) = W3 m ρ c (Proc.devRef .tc main_v3) := step4_v3 m ρ c
theorem step5_v3 : W5 m ρ c (Proc.devRef .tc main_v3) = W4 m ρ c (Proc.devRef .tc main_v3) := by
  unwritten hostOps1
theorem at5_v3 : W5 m ρ c (Proc.devRef .tc main_v3) = W3 m ρ c (Proc.devRef .tc main_v3) :=
  (step5_v3 m ρ c).trans (at4_v3 m ρ c)
theorem step6_v3 : W6 m ρ c (Proc.devRef .tc main_v3) = W5 m ρ c (Proc.devRef .tc main_v3) :=
  W6_of_ne m ρ c main_v3 (by decide)
theorem at6_v3 : W6 m ρ c (Proc.devRef .tc main_v3) = W3 m ρ c (Proc.devRef .tc main_v3) :=
  (step6_v3 m ρ c).trans (at5_v3 m ρ c)
theorem step7_v3 : W7 m ρ c (Proc.devRef .tc main_v3) = W6 m ρ c (Proc.devRef .tc main_v3) := by
  unwritten hostOps2
theorem at7_v3 : W7 m ρ c (Proc.devRef .tc main_v3) = W3 m ρ c (Proc.devRef .tc main_v3) :=
  (step7_v3 m ρ c).trans (at6_v3 m ρ c)
theorem step8_v3 : W8 m ρ c (Proc.devRef .tc main_v3) = W7 m ρ c (Proc.devRef .tc main_v3) :=
  W8_of_ne m ρ c main_v3 (by decide)
theorem at8_v3 : W8 m ρ c (Proc.devRef .tc main_v3) = W3 m ρ c (Proc.devRef .tc main_v3) :=
  (step8_v3 m ρ c).trans (at7_v3 m ρ c)

theorem step4_v6 : W4 m ρ c (Proc.devRef .tc main_v6) = W3 m ρ c (Proc.devRef .tc main_v6) :=
  W4_of_ne m ρ c main_v6 (by decide)
theorem at4_v6 : W4 m ρ c (Proc.devRef .tc main_v6) = W3 m ρ c (Proc.devRef .tc main_v6) := step4_v6 m ρ c
theorem step5_v6 : W5 m ρ c (Proc.devRef .tc main_v6) = W4 m ρ c (Proc.devRef .tc main_v6) := by
  unwritten hostOps1
theorem at5_v6 : W5 m ρ c (Proc.devRef .tc main_v6) = W3 m ρ c (Proc.devRef .tc main_v6) :=
  (step5_v6 m ρ c).trans (at4_v6 m ρ c)
theorem step6_v6 : W6 m ρ c (Proc.devRef .tc main_v6) = W5 m ρ c (Proc.devRef .tc main_v6) :=
  W6_of_ne m ρ c main_v6 (by decide)
theorem at6_v6 : W6 m ρ c (Proc.devRef .tc main_v6) = W3 m ρ c (Proc.devRef .tc main_v6) :=
  (step6_v6 m ρ c).trans (at5_v6 m ρ c)
theorem step7_v6 : W7 m ρ c (Proc.devRef .tc main_v6) = W6 m ρ c (Proc.devRef .tc main_v6) := by
  unwritten hostOps2
theorem at7_v6 : W7 m ρ c (Proc.devRef .tc main_v6) = W3 m ρ c (Proc.devRef .tc main_v6) :=
  (step7_v6 m ρ c).trans (at6_v6 m ρ c)
theorem step8_v6 : W8 m ρ c (Proc.devRef .tc main_v6) = W7 m ρ c (Proc.devRef .tc main_v6) :=
  W8_of_ne m ρ c main_v6 (by decide)
theorem at8_v6 : W8 m ρ c (Proc.devRef .tc main_v6) = W3 m ρ c (Proc.devRef .tc main_v6) :=
  (step8_v6 m ρ c).trans (at7_v6 m ρ c)

theorem step4_v15 : W4 m ρ c (Proc.devRef .tc main_v15) = W3 m ρ c (Proc.devRef .tc main_v15) :=
  (W4_arr m ρ c 2).trans (((dat0 (V3 m ρ) c).arrAt_in 2 rfl _).trans (A_eq0 (V3 m ρ) c 2))
theorem at4_v15 : W4 m ρ c (Proc.devRef .tc main_v15) = W3 m ρ c (Proc.devRef .tc main_v15) := step4_v15 m ρ c
theorem step5_v15 : W5 m ρ c (Proc.devRef .tc main_v15) = W4 m ρ c (Proc.devRef .tc main_v15) := by
  unwritten hostOps1
theorem at5_v15 : W5 m ρ c (Proc.devRef .tc main_v15) = W3 m ρ c (Proc.devRef .tc main_v15) :=
  (step5_v15 m ρ c).trans (at4_v15 m ρ c)
theorem step6_v15 : W6 m ρ c (Proc.devRef .tc main_v15) = W5 m ρ c (Proc.devRef .tc main_v15) :=
  (W6_arr m ρ c 1).trans (((dat1 (V5 m ρ) c).arrAt_in 1 rfl _).trans (A_eq1 (V5 m ρ) c 1))
theorem at6_v15 : W6 m ρ c (Proc.devRef .tc main_v15) = W3 m ρ c (Proc.devRef .tc main_v15) :=
  (step6_v15 m ρ c).trans (at5_v15 m ρ c)
theorem step7_v15 : W7 m ρ c (Proc.devRef .tc main_v15) = W6 m ρ c (Proc.devRef .tc main_v15) := by
  unwritten hostOps2
theorem at7_v15 : W7 m ρ c (Proc.devRef .tc main_v15) = W3 m ρ c (Proc.devRef .tc main_v15) :=
  (step7_v15 m ρ c).trans (at6_v15 m ρ c)
theorem step8_v15 : W8 m ρ c (Proc.devRef .tc main_v15) = W7 m ρ c (Proc.devRef .tc main_v15) :=
  (W8_arr m ρ c 1).trans (((dat2 (V7 m ρ) c).arrAt_in 1 rfl _).trans (A_eq2 (V7 m ρ) c 1))
theorem at8_v15 : W8 m ρ c (Proc.devRef .tc main_v15) = W3 m ρ c (Proc.devRef .tc main_v15) :=
  (step8_v15 m ρ c).trans (at7_v15 m ρ c)
theorem step9_v15 : W9 m ρ c (Proc.devRef .tc main_v15) = W8 m ρ c (Proc.devRef .tc main_v15) := by
  unwritten hostOps3
theorem at9_v15 : W9 m ρ c (Proc.devRef .tc main_v15) = W3 m ρ c (Proc.devRef .tc main_v15) :=
  (step9_v15 m ρ c).trans (at8_v15 m ρ c)

theorem step4_v16 : W4 m ρ c (Proc.devRef .tc main_v16) = W3 m ρ c (Proc.devRef .tc main_v16) :=
  W4_of_ne m ρ c main_v16 (by decide)
theorem at4_v16 : W4 m ρ c (Proc.devRef .tc main_v16) = W3 m ρ c (Proc.devRef .tc main_v16) := step4_v16 m ρ c
theorem step5_v16 : W5 m ρ c (Proc.devRef .tc main_v16) = W4 m ρ c (Proc.devRef .tc main_v16) := by
  unwritten hostOps1
theorem at5_v16 : W5 m ρ c (Proc.devRef .tc main_v16) = W3 m ρ c (Proc.devRef .tc main_v16) :=
  (step5_v16 m ρ c).trans (at4_v16 m ρ c)
theorem step6_v16 : W6 m ρ c (Proc.devRef .tc main_v16) = W5 m ρ c (Proc.devRef .tc main_v16) :=
  (W6_arr m ρ c 2).trans (((dat1 (V5 m ρ) c).arrAt_in 2 rfl _).trans (A_eq1 (V5 m ρ) c 2))
theorem at6_v16 : W6 m ρ c (Proc.devRef .tc main_v16) = W3 m ρ c (Proc.devRef .tc main_v16) :=
  (step6_v16 m ρ c).trans (at5_v16 m ρ c)
theorem step7_v16 : W7 m ρ c (Proc.devRef .tc main_v16) = W6 m ρ c (Proc.devRef .tc main_v16) := by
  unwritten hostOps2
theorem at7_v16 : W7 m ρ c (Proc.devRef .tc main_v16) = W3 m ρ c (Proc.devRef .tc main_v16) :=
  (step7_v16 m ρ c).trans (at6_v16 m ρ c)

theorem step4_v17 : W4 m ρ c (Proc.devRef .tc main_v17) = W3 m ρ c (Proc.devRef .tc main_v17) :=
  W4_of_ne m ρ c main_v17 (by decide)
theorem at4_v17 : W4 m ρ c (Proc.devRef .tc main_v17) = W3 m ρ c (Proc.devRef .tc main_v17) := step4_v17 m ρ c
theorem step5_v17 : W5 m ρ c (Proc.devRef .tc main_v17) = W4 m ρ c (Proc.devRef .tc main_v17) := by
  unwritten hostOps1
theorem at5_v17 : W5 m ρ c (Proc.devRef .tc main_v17) = W3 m ρ c (Proc.devRef .tc main_v17) :=
  (step5_v17 m ρ c).trans (at4_v17 m ρ c)
theorem step6_v17 : W6 m ρ c (Proc.devRef .tc main_v17) = W5 m ρ c (Proc.devRef .tc main_v17) :=
  W6_of_ne m ρ c main_v17 (by decide)
theorem at6_v17 : W6 m ρ c (Proc.devRef .tc main_v17) = W3 m ρ c (Proc.devRef .tc main_v17) :=
  (step6_v17 m ρ c).trans (at5_v17 m ρ c)
theorem step7_v17 : W7 m ρ c (Proc.devRef .tc main_v17) = W6 m ρ c (Proc.devRef .tc main_v17) := by
  unwritten hostOps2
theorem at7_v17 : W7 m ρ c (Proc.devRef .tc main_v17) = W3 m ρ c (Proc.devRef .tc main_v17) :=
  (step7_v17 m ρ c).trans (at6_v17 m ρ c)
theorem step8_v17 : W8 m ρ c (Proc.devRef .tc main_v17) = W7 m ρ c (Proc.devRef .tc main_v17) :=
  W8_of_ne m ρ c main_v17 (by decide)
theorem at8_v17 : W8 m ρ c (Proc.devRef .tc main_v17) = W3 m ρ c (Proc.devRef .tc main_v17) :=
  (step8_v17 m ρ c).trans (at7_v17 m ρ c)
theorem step9_v17 : W9 m ρ c (Proc.devRef .tc main_v17) = W8 m ρ c (Proc.devRef .tc main_v17) := by
  unwritten hostOps3
theorem at9_v17 : W9 m ρ c (Proc.devRef .tc main_v17) = W3 m ρ c (Proc.devRef .tc main_v17) :=
  (step9_v17 m ρ c).trans (at8_v17 m ρ c)

theorem step4_arg2 : W4 m ρ c (Proc.devRef .tc main_arg2) = W3 m ρ c (Proc.devRef .tc main_arg2) :=
  (W4_arr m ρ c 1).trans (((dat0 (V3 m ρ) c).arrAt_in 1 rfl _).trans (A_eq0 (V3 m ρ) c 1))
theorem at4_arg2 : W4 m ρ c (Proc.devRef .tc main_arg2) = W3 m ρ c (Proc.devRef .tc main_arg2) := step4_arg2 m ρ c
theorem step5_arg2 : W5 m ρ c (Proc.devRef .tc main_arg2) = W4 m ρ c (Proc.devRef .tc main_arg2) := by
  unwritten hostOps1
theorem at5_arg2 : W5 m ρ c (Proc.devRef .tc main_arg2) = W3 m ρ c (Proc.devRef .tc main_arg2) :=
  (step5_arg2 m ρ c).trans (at4_arg2 m ρ c)

theorem step4_arg4 : W4 m ρ c (Proc.devRef .tc main_arg4) = W3 m ρ c (Proc.devRef .tc main_arg4) :=
  W4_of_ne m ρ c main_arg4 (by decide)
theorem at4_arg4 : W4 m ρ c (Proc.devRef .tc main_arg4) = W3 m ρ c (Proc.devRef .tc main_arg4) := step4_arg4 m ρ c
theorem step5_arg4 : W5 m ρ c (Proc.devRef .tc main_arg4) = W4 m ρ c (Proc.devRef .tc main_arg4) := by
  unwritten hostOps1
theorem at5_arg4 : W5 m ρ c (Proc.devRef .tc main_arg4) = W3 m ρ c (Proc.devRef .tc main_arg4) :=
  (step5_arg4 m ρ c).trans (at4_arg4 m ρ c)
theorem step6_arg4 : W6 m ρ c (Proc.devRef .tc main_arg4) = W5 m ρ c (Proc.devRef .tc main_arg4) :=
  W6_of_ne m ρ c main_arg4 (by decide)
theorem at6_arg4 : W6 m ρ c (Proc.devRef .tc main_arg4) = W3 m ρ c (Proc.devRef .tc main_arg4) :=
  (step6_arg4 m ρ c).trans (at5_arg4 m ρ c)
theorem step7_arg4 : W7 m ρ c (Proc.devRef .tc main_arg4) = W6 m ρ c (Proc.devRef .tc main_arg4) := by
  unwritten hostOps2
theorem at7_arg4 : W7 m ρ c (Proc.devRef .tc main_arg4) = W3 m ρ c (Proc.devRef .tc main_arg4) :=
  (step7_arg4 m ρ c).trans (at6_arg4 m ρ c)

end Cert.KernelIdeal.Boundary

end
-- ==== Proof.LibRowDot.lean ====
/-
  A plain two-dimensional product read one entry at a time, at the exact (extended-real) values.

  For the dimension numbers of an M×K by K×N product (contract the left operand's axis 1 with the right
  operand's axis 0, no batch axis) the contraction's index set is one axis of extent K, so the entry (p, q) of the
  product is the sum over k < K of  l(p, k) · r(k, q):  row p of the left operand times the matrix r, at
  column q.  Stated once for every M, K, N, for the vector unit's matrix product into a zero accumulator and for
  the host's dot_general; both are that same sum, so a product computed block of rows by block of rows and a
  product computed whole agree entry by entry.
-/
import Idealize.ShloMosaic.Lib.ValueIdx
import Idealize.ShloMosaic.PureOps.Ideal.Laws

noncomputable section

open scoped BigOperators

namespace Cert.RowDot

open Idealize.ShloMosaic Idealize.ShloMosaic.ValueIdx

/-- Entry q of (row · W) for a K×N matrix W:  the sum over k of row(k) · W(k, q). -/
def rowDot {K N : Nat} (row : Fin K → EReal) (W : (⟨2, ![K, N]⟩ : Shape).Idx → EReal) (q : Fin N) : EReal :=
  ∑ k : Fin K, row k * W (ix2 k q)

/-- Row p of an M×K array, as a function of the column. -/
def rowOf {M K : Nat} (x : (⟨2, ![M, K]⟩ : Shape).Idx → EReal) (p : Fin M) : Fin K → EReal := fun k => x (ix2 p k)

/-- The contraction shape of a plain product is one axis. -/
theorem plain_rank (M K N : Nat) : (DotDims.plain M K N).contr.rank = 1 := rfl

/-- The left operand's index at output index j and contraction position u keeps j's row. -/
theorem plain_lhs0 {M K N : Nat} (j : (⟨2, ![M, N]⟩ : Shape).Idx) (u : (DotDims.plain M K N).contr.Idx) :
    ((DotDims.plain M K N).lhsIdx j u 0).val = (j 0).val := by
  unfold DotDims.lhsIdx
  rw [dif_neg (show ¬((0 : Fin (⟨2, ![M, K]⟩ : Shape).rank) ∈ (DotDims.plain M K N).lhsBatch) from List.not_mem_nil),
    dif_pos (show (0 : Fin (⟨2, ![M, K]⟩ : Shape).rank) ∈ (DotDims.plain M K N).lhsNonContracting from List.mem_singleton.mpr rfl)]
  rfl

/-- The left operand's column is the contraction position. -/
theorem plain_lhs1 {M K N : Nat} (j : (⟨2, ![M, N]⟩ : Shape).Idx) (u : (DotDims.plain M K N).contr.Idx) :
    ((DotDims.plain M K N).lhsIdx j u 1).val = (u ⟨0, by rw [plain_rank]; exact Nat.one_pos⟩).val :=
  (DotDims.plain M K N).lhsIdx_val_of_single rfl j u

/-- The right operand's row is the contraction position. -/
theorem plain_rhs0 {M K N : Nat} (j : (⟨2, ![M, N]⟩ : Shape).Idx) (u : (DotDims.plain M K N).contr.Idx) :
    ((DotDims.plain M K N).rhsIdx j u 0).val = (u ⟨0, by rw [plain_rank]; exact Nat.one_pos⟩).val :=
  (DotDims.plain M K N).rhsIdx_val_of_single rfl j u

/-- The right operand's index keeps j's column. -/
theorem plain_rhs1 {M K N : Nat} (j : (⟨2, ![M, N]⟩ : Shape).Idx) (u : (DotDims.plain M K N).contr.Idx) :
    ((DotDims.plain M K N).rhsIdx j u 1).val = (j 1).val := by
  unfold DotDims.rhsIdx
  rw [dif_neg (show ¬((1 : Fin (⟨2, ![K, N]⟩ : Shape).rank) ∈ (DotDims.plain M K N).rhsBatch) from List.not_mem_nil),
    dif_pos (show (1 : Fin (⟨2, ![K, N]⟩ : Shape).rank) ∈ (DotDims.plain M K N).rhsNonContracting from List.mem_singleton.mpr rfl)]
  rfl

/-- The contraction's sum of a plain product, re-indexed by k < K: row (j 0) of l times r, at column (j 1). -/
theorem plain_contr_sum {M K N : Nat} (l : (⟨2, ![M, K]⟩ : Shape).Idx → EReal) (r : (⟨2, ![K, N]⟩ : Shape).Idx → EReal)
    (j : (⟨2, ![M, N]⟩ : Shape).Idx) :
    ∑ u : (DotDims.plain M K N).contr.Idx, l ((DotDims.plain M K N).lhsIdx j u) * r ((DotDims.plain M K N).rhsIdx j u)
      = rowDot (rowOf l (j 0)) r (j 1) := by
  unfold rowDot rowOf
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact plain_lhs0 j _
      | ⟨1, _⟩ => exact (plain_lhs1 j _).trans hk)
  have er : (DotDims.plain M K N).rhsIdx j ((contrEquiv1 (DotDims.plain M K N) K rfl rfl).symm k) = ix2 k (j 1) :=
    funext fun a => Fin.ext (by
      match a with
      | ⟨0, _⟩ => exact (plain_rhs0 j _).trans hk
      | ⟨1, _⟩ => exact plain_rhs1 j _)
  exact congrArg₂ (fun a b : EReal => a * b) (congrArg l el) (congrArg r er)

/-- The vector unit's matrix product into the zero accumulator, at an entry. -/
theorem matmul_plain_zero_apply {M K N : Nat} {φ₁ φ₂ : FTy} (prec : Option ContractPrecision)
    (lhs : FVec Ideal (⟨2, ![M, K]⟩ : Shape) φ₁) (rhs : FVec Ideal (⟨2, ![K, N]⟩ : Shape) φ₂) (j : (⟨2, ![M, N]⟩ : Shape).Idx) :
    FloatOps.matmul (DotDims.plain M K N) prec lhs rhs (constant (F := Ideal) (⟨2, ![M, N]⟩ : Shape) .f32 0x00000000#32) j
      = rowDot (rowOf lhs (j 0)) rhs (j 1) := by
  rw [Ideal.matmul_constant_zero_apply]
  exact plain_contr_sum lhs rhs j

/-- The host's dot_general, at an entry. -/
theorem dotGeneral_plain_apply {M K N : Nat} {φ₁ φ₂ : FTy} (prec : Option ContractPrecision) (sched : HostSchedule)
    (lhs : FVec Ideal (⟨2, ![M, K]⟩ : Shape) φ₁) (rhs : FVec Ideal (⟨2, ![K, N]⟩ : Shape) φ₂) (j : (⟨2, ![M, N]⟩ : Shape).Idx) :
    FloatOps.dotGeneral (DotDims.plain M K N) prec sched lhs rhs j = rowDot (rowOf lhs (j 0)) rhs (j 1) := by
  rw [Ideal.dotGeneral_apply]
  exact plain_contr_sum lhs rhs j

end Cert.RowDot

end
-- ==== Proof.LibColumn.lean ====
/-
  A vector kept as a column, read one entry at a time.

  Summing an a×b array along its rows and keeping the axis gives an a×1 column; the column is then spread back over
  the b columns to scale each row.  Two index facts carry this:  a length-a vector recast as an a×1 column holds, at
  (i, 0), the vector's entry i;  and an a×1 column spread to a×b holds, at (p, c), the column's entry (p, 0), whatever
  the column c.  Both are stated for every a and b and for entries of any type.
-/
import Idealize.ShloMosaic.Lib.ValueIdx
import Idealize.ShloMosaic.Lib.Pipeline.Value

namespace Cert.Column

open Idealize.ShloMosaic Idealize.ShloMosaic.ValueIdx

variable {α : Type}

/-- A length-a vector recast as an a×1 column reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a×1 column spread over b columns reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Column
-- ==== Proof.LibLogSoftmax.lean ====
/-
  The logarithm of a row-wise softmax, read one entry at a time at the exact (extended-real) values.

  For a row f of C numbers let  m = max(−∞, f 0, …, f (C−1))  and
      logSoftmax f c = (f c − m) − log Σ_k exp (f k − m).
  Applied to every row of an M×C array this is one whole-array function, and entry (p, q) sees the array only
  through its row p.  Two spellings are identified with it, for every M and C:  the vector unit's (a lane maximum
  folded from the word of −∞, recast as a column and spread back over the lanes, a subtraction, the exponential, a
  lane sum, its logarithm as a column spread back, a subtraction), and the host's (the same steps as whole-array
  operations, with one more maximum against an array that holds −∞ everywhere).  The maximum is a fold of max that
  starts at −∞, so it is at least −∞ and the host's extra maximum changes nothing;  both sums are the plain sum over
  the C lanes.  Nothing is cancelled or distributed, so no finiteness of the entries is used.
-/
import Idealize.ShloMosaic.Lib.ValueIdx
import Idealize.ShloMosaic.Lib.Pipeline.Value
import Idealize.ShloMosaic.PureOps.Ideal.Laws
import proofs.«139803_j23648089931788_2_alg».proof.Proof.LibColumn

noncomputable section

open scoped BigOperators

namespace Cert.LogSoftmax

open Idealize.ShloMosaic Idealize.ShloMosaic.ValueIdx Cert.Column

/-! ## The function -/

/-- −∞, as the value of the f32 word both programs start their maxima from. -/
def negInf : EReal := Ideal.ofBits .f32 0xFF800000#32

/-- The maximum of a row, folded from −∞. -/
def rowMax {C : Nat} (f : Fin C → EReal) : EReal := (Finset.univ : Finset (Fin C)).fold max negInf f

/-- Entry c of the logarithm of the softmax of a row. -/
def logSoftmax {C : Nat} (f : Fin C → EReal) (c : Fin C) : EReal :=
  (f c - rowMax f) - Ideal.log (∑ k : Fin C, Ideal.exp (f k - rowMax f))

/-- A fold of max is at least the value it starts from. -/
theorem negInf_le_rowMax {C : Nat} (f : Fin C → EReal) : negInf ≤ rowMax f :=
  (Finset.le_fold_max _).2 (Or.inl le_rfl)

/-- So one more maximum against −∞ changes nothing. -/
theorem max_negInf_rowMax {C : Nat} (f : Fin C → EReal) : max negInf (rowMax f) = rowMax f :=
  max_eq_right (negInf_le_rowMax f)

/-! ## Reductions along the lanes of an M×C array -/

/-- The row index p with the lane k put back is (p, k). -/
theorem lift_row {M C : Nat} (h : (⟨2, ![M, C]⟩ : Shape).Reduces [1] (⟨1, ![M]⟩ : Shape)) (p : Fin M)
    (k : Fin ((⟨2, ![M, C]⟩ : Shape).size 1)) : h.lift (ix1 p) k = ix2 p (⟨k.val, k.isLt⟩ : Fin C) := by
  funext c; apply Fin.ext
  fin_cases c <;> rfl

/-- The vector unit's lane maximum from the word of −∞, at row p: the row's maximum. -/
theorem laneMax_apply {M C : Nat} (src : FVec Ideal (⟨2, ![M, C]⟩ : Shape) .f32)
    (h : (⟨2, ![M, C]⟩ : Shape).Reduces [1] (⟨1, ![M]⟩ : Shape)) (hφ : FKind.Formats .f32)
    (hacc : (0xFF800000#32 : BitVec 32) = FKind.maximumf.neutral .f32 hφ) (p : Fin M) :
    multiReduction .maximumf [1] (⟨1, ![M]⟩ : Shape) src 0xFF800000#32 h hφ hacc (ix1 p) = rowMax fun c => src (ix2 p c) := by
  rw [Ideal.multiReduction_maximumf_single]
  have hf : (src ∘ h.lift (ix1 p)) = fun k : Fin C => src (ix2 p k) := funext fun k => congrArg src (lift_row h p k)
  exact congrArg (fun f => Finset.fold max (Ideal.ofBits .f32 0xFF800000#32) f (Finset.univ : Finset (Fin C))) hf

/-- The vector unit's lane sum from the zero word, at row p: the sum over the row. -/
theorem laneSum_apply {M C : Nat} (src : FVec Ideal (⟨2, ![M, C]⟩ : Shape) .f32)
    (h : (⟨2, ![M, C]⟩ : Shape).Reduces [1] (⟨1, ![M]⟩ : Shape)) (hφ : FKind.Formats .f32)
    (hacc : (0x00000000#32 : BitVec 32) = FKind.add.neutral .f32 hφ) (p : Fin M) :
    multiReduction .add [1] (⟨1, ![M]⟩ : Shape) src 0x00000000#32 h hφ hacc (ix1 p) = ∑ c : Fin C, src (ix2 p c) := by
  rw [Ideal.multiReduction_add_single]
  exact Finset.sum_congr rfl fun k _ => congrArg src (lift_row h p k)

/-- The host's maximum-reduce from −∞ along the lanes, at row p: the row's maximum. -/
theorem hostMax_apply {M C : Nat} (x : FVec Ideal (⟨2, ![M, C]⟩ : Shape) .f32)
    (h' : (⟨2, ![M, C]⟩ : Shape).ReducesTo [1] (⟨1, ![M]⟩ : Shape)) (h : (⟨2, ![M, C]⟩ : Shape).Reduces [1] (⟨1, ![M]⟩ : Shape))
    (hu : 0 < (⟨0, ![]⟩ : Shape).numel) (p : Fin M) :
    Host.reduce FloatOps.maximumf x (constant (F := Ideal) (⟨0, ![]⟩ : Shape) .f32 0xFF800000#32) h' hu (ix1 p)
      = rowMax fun c => x (ix2 p c) := by
  rw [Host.reduce_eq_fold_single FloatOps.maximumf x _ h' h hu]
  have hf : (x ∘ h.lift (ix1 p)) = fun k : Fin C => x (ix2 p k) := funext fun k => congrArg x (lift_row h p k)
  exact congrArg (fun f => Finset.fold max (Ideal.ofBits .f32 0xFF800000#32) f (Finset.univ : Finset (Fin C))) hf

/-- The host's sum from zero along the lanes, at row p: the sum over the row. -/
theorem hostSum_apply {M C : Nat} (x : FVec Ideal (⟨2, ![M, C]⟩ : Shape) .f32)
    (h' : (⟨2, ![M, C]⟩ : Shape).ReducesTo [1] (⟨1, ![M]⟩ : Shape)) (h : (⟨2, ![M, C]⟩ : Shape).Reduces [1] (⟨1, ![M]⟩ : Shape))
    (hu : 0 < (⟨0, ![]⟩ : Shape).numel) (p : Fin M) :
    Host.reduceAdd x (constant (F := Ideal) (⟨0, ![]⟩ : Shape) .f32 0x00000000#32) h' hu (ix1 p) = ∑ c : Fin C, x (ix2 p c) := by
  show Ideal.hostReduceAdd h' x (Ideal.ofBits .f32 0x00000000#32) (ix1 p) = _
  rw [Ideal.hostReduceAdd_single h' h, Ideal.ofBits_zero_f32, zero_add]
  exact Finset.sum_congr rfl fun k _ => congrArg x (lift_row h p k)

/-! ## The host's three spreads, read at an index -/

variable {α : Type}

/-- A scalar spread over a length-M vector reads the scalar everywhere. -/
theorem spread_scalar_apply {M : Nat} (v : (⟨0, ![]⟩ : Shape).Idx → α)
    (h : (⟨0, ![]⟩ : Shape).BroadcastsInDim (⟨1, ![M]⟩ : Shape) ![]) (p : Fin M) :
    broadcastInDim (⟨1, ![M]⟩ : Shape) ![] h v (ix1 p) = v ix0 :=
  broadcastInDim_apply _ h v _ _ fun a => a.elim0

/-- A length-M vector placed on axis 0 of an M×1 column reads, at (p, u), the vector at p. -/
theorem spread_vec_col_apply {M : Nat} (v : (⟨1, ![M]⟩ : Shape).Idx → α)
    (h : (⟨1, ![M]⟩ : Shape).BroadcastsInDim (⟨2, ![M, 1]⟩ : Shape) ![0]) (p : Fin M) (u : Fin 1) :
    broadcastInDim (⟨2, ![M, 1]⟩ : Shape) ![0] h v (ix2 p u) = v (ix1 p) := by
  refine broadcastInDim_apply _ h v _ _ fun a => ?_
  match a with
  | ⟨0, _⟩ =>
    show p.val = if M = 1 then 0 else p.val
    split
    · have := p.isLt; omega
    · rfl

/-- An M×1 column spread over C lanes reads, at (p, q), the column at (p, 0). -/
theorem spread_col_apply {M C : Nat} (v : (⟨2, ![M, 1]⟩ : Shape).Idx → α)
    (h : (⟨2, ![M, 1]⟩ : Shape).BroadcastsInDim (⟨2, ![M, C]⟩ : Shape) ![0, 1]) (p : Fin M) (q : Fin C) :
    broadcastInDim (⟨2, ![M, C]⟩ : Shape) ![0, 1] h v (ix2 p q) = v (ix2 p (0 : Fin 1)) := by
  refine broadcastInDim_apply _ h v _ _ fun a => ?_
  match a with
  | ⟨0, _⟩ =>
    show p.val = if M = 1 then 0 else p.val
    split
    · have := p.isLt; omega
    · rfl
  | ⟨1, _⟩ =>
    show (0 : Nat) = if (1 : Nat) = 1 then 0 else q.val
    rw [if_pos rfl]

/-! ## The vector unit's spelling -/

/-- The array minus its lane maximum, the maximum recast as a column and spread back over the lanes. -/
def vectorShift {M C : Nat} (L : FVec Ideal (⟨2, ![M, C]⟩ : Shape) .f32)
    (hr : (⟨2, ![M, C]⟩ : Shape).Reduces [1] (⟨1, ![M]⟩ : Shape)) (hφ : FKind.Formats .f32)
    (hmax : (0xFF800000#32 : BitVec 32) = FKind.maximumf.neutral .f32 hφ)
    (hc : (⟨1, ![M]⟩ : Shape).ShapeCasts ⟨2, ![M, 1]⟩) (hb : (⟨2, ![M, 1]⟩ : Shape).Broadcasts ⟨2, ![M, C]⟩) :
    FVec Ideal (⟨2, ![M, C]⟩ : Shape) .f32 :=
  subf L (broadcastTo ⟨2, ![M, C]⟩ (shapeCast ⟨2, ![M, 1]⟩ (multiReduction .maximumf [1] (⟨1, ![M]⟩ : Shape) L 0xFF800000#32 hr hφ hmax) hc) hb)

/-- The shifted array minus the logarithm of the lane sum of its exponential, again as a column spread back. -/
def vectorForm {M C : Nat} (L : FVec Ideal (⟨2, ![M, C]⟩ : Shape) .f32)
    (hr : (⟨2, ![M, C]⟩ : Shape).Reduces [1] (⟨1, ![M]⟩ : Shape)) (hφ : FKind.Formats .f32)
    (hmax : (0xFF800000#32 : BitVec 32) = FKind.maximumf.neutral .f32 hφ)
    (hadd : (0x00000000#32 : BitVec 32) = FKind.add.neutral .f32 hφ)
    (hc : (⟨1, ![M]⟩ : Shape).ShapeCasts ⟨2, ![M, 1]⟩) (hb : (⟨2, ![M, 1]⟩ : Shape).Broadcasts ⟨2, ![M, C]⟩) :
    FVec Ideal (⟨2, ![M, C]⟩ : Shape) .f32 :=
  subf (vectorShift L hr hφ hmax hc hb)
    (broadcastTo ⟨2, ![M, C]⟩ (log (shapeCast ⟨2, ![M, 1]⟩
      (multiReduction .add [1] (⟨1, ![M]⟩ : Shape) (exp (vectorShift L hr hφ hmax hc hb)) 0x00000000#32 hr hφ hadd) hc)) hb)

theorem vectorShift_apply {M C : Nat} (L : FVec Ideal (⟨2, ![M, C]⟩ : Shape) .f32)
    (hr : (⟨2, ![M, C]⟩ : Shape).Reduces [1] (⟨1, ![M]⟩ : Shape)) (hφ : FKind.Formats .f32)
    (hmax : (0xFF800000#32 : BitVec 32) = FKind.maximumf.neutral .f32 hφ)
    (hc : (⟨1, ![M]⟩ : Shape).ShapeCasts ⟨2, ![M, 1]⟩) (hb : (⟨2, ![M, 1]⟩ : Shape).Broadcasts ⟨2, ![M, C]⟩)
    (p : Fin M) (c : Fin C) :
    vectorShift L hr hφ hmax hc hb (ix2 p c) = L (ix2 p c) - rowMax fun k => L (ix2 p k) := by
  unfold vectorShift
  rw [subf_apply, broadcastTo_a1_ab_apply, shapeCast_a_a1_apply, laneMax_apply]

/-- The vector unit's spelling, at entry (p, q), is the logarithm of the softmax of row p at q. -/
theorem vectorForm_apply {M C : Nat} (L : FVec Ideal (⟨2, ![M, C]⟩ : Shape) .f32)
    (hr : (⟨2, ![M, C]⟩ : Shape).Reduces [1] (⟨1, ![M]⟩ : Shape)) (hφ : FKind.Formats .f32)
    (hmax : (0xFF800000#32 : BitVec 32) = FKind.maximumf.neutral .f32 hφ)
    (hadd : (0x00000000#32 : BitVec 32) = FKind.add.neutral .f32 hφ)
    (hc : (⟨1, ![M]⟩ : Shape).ShapeCasts ⟨2, ![M, 1]⟩) (hb : (⟨2, ![M, 1]⟩ : Shape).Broadcasts ⟨2, ![M, C]⟩)
    (p : Fin M) (q : Fin C) :
    vectorForm L hr hφ hmax hadd hc hb (ix2 p q) = logSoftmax (fun c => L (ix2 p c)) q := by
  have hsum : multiReduction .add [1] (⟨1, ![M]⟩ : Shape) (exp (vectorShift L hr hφ hmax hc hb)) 0x00000000#32 hr hφ hadd (ix1 p)
      = ∑ k : Fin C, Ideal.exp (L (ix2 p k) - rowMax fun c => L (ix2 p c)) := by
    rw [laneSum_apply]
    exact Finset.sum_congr rfl fun k _ => congrArg Ideal.exp (vectorShift_apply L hr hφ hmax hc hb p k)
  unfold vectorForm
  rw [subf_apply, vectorShift_apply, broadcastTo_a1_ab_apply]
  show _ - Ideal.log (shapeCast ⟨2, ![M, 1]⟩
    (multiReduction .add [1] (⟨1, ![M]⟩ : Shape) (exp (vectorShift L hr hφ hmax hc hb)) 0x00000000#32 hr hφ hadd) hc (ix2 p (0 : Fin 1))) = _
  rw [shapeCast_a_a1_apply, hsum]
  rfl

/-! ## The host's spelling -/

/-- The array minus its row maximum: the maximum-reduce, one more maximum against −∞ everywhere, placed on a column
    and spread back over the lanes. -/
def hostShift {M C : Nat} (x : FVec Ideal (⟨2, ![M, C]⟩ : Shape) .f32)
    (h' : (⟨2, ![M, C]⟩ : Shape).ReducesTo [1] (⟨1, ![M]⟩ : Shape)) (hu : 0 < (⟨0, ![]⟩ : Shape).numel)
    (b0 : (⟨0, ![]⟩ : Shape).BroadcastsInDim (⟨1, ![M]⟩ : Shape) ![])
    (b1 : (⟨1, ![M]⟩ : Shape).BroadcastsInDim (⟨2, ![M, 1]⟩ : Shape) ![0])
    (b2 : (⟨2, ![M, 1]⟩ : Shape).BroadcastsInDim (⟨2, ![M, C]⟩ : Shape) ![0, 1]) :
    FVec Ideal (⟨2, ![M, C]⟩ : Shape) .f32 :=
  subf x (broadcastInDim (⟨2, ![M, C]⟩ : Shape) ![0, 1] b2 (broadcastInDim (⟨2, ![M, 1]⟩ : Shape) ![0] b1
    (maximumf (broadcastInDim (⟨1, ![M]⟩ : Shape) ![] b0 (constant (F := Ideal) (⟨0, ![]⟩ : Shape) .f32 0xFF800000#32))
      (Host.reduce FloatOps.maximumf x (constant (F := Ideal) (⟨0, ![]⟩ : Shape) .f32 0xFF800000#32) h' hu))))

/-- The shifted array minus the logarithm of the row sum of its exponential, on a column spread back. -/
def hostForm {M C : Nat} (x : FVec Ideal (⟨2, ![M, C]⟩ : Shape) .f32)
    (h' : (⟨2, ![M, C]⟩ : Shape).ReducesTo [1] (⟨1, ![M]⟩ : Shape)) (hu : 0 < (⟨0, ![]⟩ : Shape).numel)
    (b0 : (⟨0, ![]⟩ : Shape).BroadcastsInDim (⟨1, ![M]⟩ : Shape) ![])
    (b1 : (⟨1, ![M]⟩ : Shape).BroadcastsInDim (⟨2, ![M, 1]⟩ : Shape) ![0])
    (b2 : (⟨2, ![M, 1]⟩ : Shape).BroadcastsInDim (⟨2, ![M, C]⟩ : Shape) ![0, 1]) :
    FVec Ideal (⟨2, ![M, C]⟩ : Shape) .f32 :=
  subf (hostShift x h' hu b0 b1 b2)
    (broadcastInDim (⟨2, ![M, C]⟩ : Shape) ![0, 1] b2 (Host.log (broadcastInDim (⟨2, ![M, 1]⟩ : Shape) ![0] b1
      (Host.reduceAdd (Host.exp (hostShift x h' hu b0 b1 b2)) (constant (F := Ideal) (⟨0, ![]⟩ : Shape) .f32 0x00000000#32) h' hu))))

theorem hostShift_apply {M C : Nat} (x : FVec Ideal (⟨2, ![M, C]⟩ : Shape) .f32)
    (h' : (⟨2, ![M, C]⟩ : Shape).ReducesTo [1] (⟨1, ![M]⟩ : Shape)) (hr : (⟨2, ![M, C]⟩ : Shape).Reduces [1] (⟨1, ![M]⟩ : Shape))
    (hu : 0 < (⟨0, ![]⟩ : Shape).numel)
    (b0 : (⟨0, ![]⟩ : Shape).BroadcastsInDim (⟨1, ![M]⟩ : Shape) ![])
    (b1 : (⟨1, ![M]⟩ : Shape).BroadcastsInDim (⟨2, ![M, 1]⟩ : Shape) ![0])
    (b2 : (⟨2, ![M, 1]⟩ : Shape).BroadcastsInDim (⟨2, ![M, C]⟩ : Shape) ![0, 1]) (p : Fin M) (c : Fin C) :
    hostShift x h' hu b0 b1 b2 (ix2 p c) = x (ix2 p c) - rowMax fun k => x (ix2 p k) := by
  unfold hostShift
  rw [subf_apply, spread_col_apply, spread_vec_col_apply, maximumf_apply, spread_scalar_apply, hostMax_apply x h' hr hu p]
  exact congrArg (x (ix2 p c) - ·) (max_negInf_rowMax _)

/-- The host's spelling, at entry (p, q), is the logarithm of the softmax of row p at q. -/
theorem hostForm_apply {M C : Nat} (x : FVec Ideal (⟨2, ![M, C]⟩ : Shape) .f32)
    (h' : (⟨2, ![M, C]⟩ : Shape).ReducesTo [1] (⟨1, ![M]⟩ : Shape)) (hr : (⟨2, ![M, C]⟩ : Shape).Reduces [1] (⟨1, ![M]⟩ : Shape))
    (hu : 0 < (⟨0, ![]⟩ : Shape).numel)
    (b0 : (⟨0, ![]⟩ : Shape).BroadcastsInDim (⟨1, ![M]⟩ : Shape) ![])
    (b1 : (⟨1, ![M]⟩ : Shape).BroadcastsInDim (⟨2, ![M, 1]⟩ : Shape) ![0])
    (b2 : (⟨2, ![M, 1]⟩ : Shape).BroadcastsInDim (⟨2, ![M, C]⟩ : Shape) ![0, 1]) (p : Fin M) (q : Fin C) :
    hostForm x h' hu b0 b1 b2 (ix2 p q) = logSoftmax (fun c => x (ix2 p c)) q := by
  have hsum : Host.reduceAdd (Host.exp (hostShift x h' hu b0 b1 b2)) (constant (F := Ideal) (⟨0, ![]⟩ : Shape) .f32 0x00000000#32) h' hu (ix1 p)
      = ∑ k : Fin C, Ideal.exp (x (ix2 p k) - rowMax fun c => x (ix2 p c)) := by
    rw [hostSum_apply _ h' hr hu p]
    exact Finset.sum_congr rfl fun k _ => congrArg Ideal.exp (hostShift_apply x h' hr hu b0 b1 b2 p k)
  unfold hostForm
  rw [subf_apply, hostShift_apply x h' hr hu b0 b1 b2 p q, spread_col_apply]
  show _ - Ideal.log (broadcastInDim (⟨2, ![M, 1]⟩ : Shape) ![0] b1
    (Host.reduceAdd (Host.exp (hostShift x h' hu b0 b1 b2)) (constant (F := Ideal) (⟨0, ![]⟩ : Shape) .f32 0x00000000#32) h' hu) (ix2 p (0 : Fin 1))) = _
  rw [spread_vec_col_apply, hsum]
  rfl

end Cert.LogSoftmax

end
-- ==== Proof.Layers.lean ====
/-
  The four node-wise maps of the network, as whole-array functions read one entry at a time.

  Every map works row by row on tables with one row per node.  With d a column of per-node weights and b a bias row:
    * the scaled product sends row n of X to  (X(n) · W)(q) · d(n);
    * the affine row of an aggregate A is  A(n, k) · d(n) + b(k);  it is what the next layer's product is applied to,
      as it stands or after the rectifier  max(·, 0);
    * the last map replaces the affine row by the logarithm of its softmax.
-/
import Idealize.ShloMosaic.PureOps.Ideal
import Idealize.ShloMosaic.Lib.ValueIdx
import proofs.«139803_j23648089931788_2_alg».proof.Proof.LibRowDot
import proofs.«139803_j23648089931788_2_alg».proof.Proof.LibLogSoftmax

noncomputable section

namespace Cert.Layers

open Idealize.ShloMosaic Idealize.ShloMosaic.ValueIdx Cert.RowDot

variable {Nn K C : Nat}

/-- Row n of an aggregate, scaled by the node's weight, plus the bias row. -/
def affineRow (A : (⟨2, ![Nn, K]⟩ : Shape).Idx → EReal) (D : (⟨2, ![Nn, 1]⟩ : Shape).Idx → EReal)
    (B : (⟨2, ![1, K]⟩ : Shape).Idx → EReal) (n : Fin Nn) : Fin K → EReal :=
  fun k => A (ix2 n k) * D (ix2 n (0 : Fin 1)) + B (ix2 (0 : Fin 1) k)

/-- The rectifier of a row: each entry's maximum with the number the all-zero f32 word denotes. -/
def reluRow (f : Fin K → EReal) : Fin K → EReal := fun k => max (f k) (Ideal.ofBits .f32 0x00000000#32)

/-- Entry (n, q): (row n) · W at column q, scaled by the weight of node n. -/
def scaledDot (rows : Fin Nn → Fin K → EReal) (W : (⟨2, ![K, C]⟩ : Shape).Idx → EReal)
    (D : (⟨2, ![Nn, 1]⟩ : Shape).Idx → EReal) : (⟨2, ![Nn, C]⟩ : Shape).Idx → EReal :=
  fun i => rowDot (rows (i 0)) W (i 1) * D (ix2 (i 0) (0 : Fin 1))

/-- Entry (n, q): the logarithm of the softmax of row n, at q. -/
def softRows (rows : Fin Nn → Fin C → EReal) : (⟨2, ![Nn, C]⟩ : Shape).Idx → EReal :=
  fun i => Cert.LogSoftmax.logSoftmax (rows (i 0)) (i 1)

theorem scaledDot_apply (rows : Fin Nn → Fin K → EReal) (W : (⟨2, ![K, C]⟩ : Shape).Idx → EReal)
    (D : (⟨2, ![Nn, 1]⟩ : Shape).Idx → EReal) (n : Fin Nn) (q : Fin C) :
    scaledDot rows W D (ix2 n q) = rowDot (rows n) W q * D (ix2 n (0 : Fin 1)) := rfl

theorem softRows_apply (rows : Fin Nn → Fin C → EReal) (n : Fin Nn) (q : Fin C) :
    softRows rows (ix2 n q) = Cert.LogSoftmax.logSoftmax (rows n) q := rfl

end Cert.Layers

end
-- ==== Proof.Sweep.lean ====
/-
  What each of the four grid sweeps leaves in its result array, as one function of the arrays it reads.

  Every sweep walks five blocks of 10000 node rows.  At a block it loads the block's rows of its row-indexed
  operands, the whole of its small operands (a weight matrix, a bias row), computes the block's rows of the result and
  writes them back.  Rows do not mix, so the result array is the sweep's row-wise map of whole arrays: entry (n, q)
  depends on row n of the row-indexed operands only.  The five blocks tile the 50000 rows.
-/
import proofs.«139803_j23648089931788_2_alg».proof.Proof.Gen.KernelIdeal.Frame
import Idealize.ShloMosaic.Lib.Pipeline.Value
import Idealize.ShloMosaic.Lib.ValueIdx
import Idealize.ShloMosaic.Lib.ValueLayout
import proofs.«139803_j23648089931788_2_alg».proof.Proof.LibRowDot
import proofs.«139803_j23648089931788_2_alg».proof.Proof.LibColumn
import proofs.«139803_j23648089931788_2_alg».proof.Proof.LibLogSoftmax
import proofs.«139803_j23648089931788_2_alg».proof.Proof.Layers

set_option maxRecDepth 16384

noncomputable section

open scoped BigOperators

namespace Cert.KernelIdeal.Sweep

open Cert.KernelIdeal Cert.KernelIdeal.Gen
open Idealize.ShloMosaic Idealize.ShloMosaic.TcCoe Idealize.ShloMosaic.ValueIdx Idealize.SL.Sem
open Idealize.ShloMosaic.Pipeline (Dat)
open Cert.RowDot Cert.Layers

theorem hz : (![0, 0] : Fin 2 → Nat) = fun _ => 0 := funext fun a => by fin_cases a <;> rfl

/-! ## The bodies' arithmetic at an entry -/

/-- First sweep: (row p of the block) · W at q, scaled by the block's weight of row p. -/
theorem pay0_apply (x0 : Vec Ideal S10000x128 .f32) (x1 : Vec Ideal S128x128 .f32) (x2 : Vec Ideal S10000x1 .f32)
    (p : Fin 10000) (q : Fin 128) :
    k0_pay1 (F := Ideal) x0 x1 x2 (ix2 p q) = rowDot (rowOf x0 p) x1 q * x2 (ix2 p (0 : Fin 1)) := by
  unfold k0_pay1
  exact congrArg₂ (fun a b : EReal => a * b)
    (matmul_plain_zero_apply (some .fp32) x0 x1 (ix2 p q))
    ((Cert.Column.broadcastTo_a1_ab_apply _ _ p q).trans (congrFun (shapeCast_self _ _) _))

/-- The affine row of a block, as the vector unit spells it. -/
theorem affine_block_apply {K : Nat} (v0 : (⟨2, ![10000, K]⟩ : Shape).Idx → EReal) (v2 : (⟨2, ![10000, 1]⟩ : Shape).Idx → EReal)
    (v6 : (⟨2, ![1, K]⟩ : Shape).Idx → EReal)
    (h0 : (⟨2, ![10000, K]⟩ : Shape).ShapeCasts ⟨2, ![10000, K]⟩) (h2 : (⟨2, ![10000, 1]⟩ : Shape).ShapeCasts ⟨2, ![10000, 1]⟩)
    (h2b : (⟨2, ![10000, 1]⟩ : Shape).Broadcasts ⟨2, ![10000, K]⟩)
    (h6 : (⟨2, ![1, K]⟩ : Shape).ShapeCasts ⟨2, ![1, K]⟩) (h6b : (⟨2, ![1, K]⟩ : Shape).Broadcasts ⟨2, ![10000, K]⟩)
    (p : Fin 10000) (k : Fin K) :
    addf (F := Ideal) (φ := .f32) (mulf (shapeCast ⟨2, ![10000, K]⟩ v0 h0) (broadcastTo ⟨2, ![10000, K]⟩ (shapeCast ⟨2, ![10000, 1]⟩ v2 h2) h2b))
        (broadcastTo ⟨2, ![10000, K]⟩ (shapeCast ⟨2, ![1, K]⟩ v6 h6) h6b) (ix2 p k)
      = affineRow v0 v2 v6 p k := by
  show shapeCast ⟨2, ![10000, K]⟩ v0 h0 (ix2 p k) * broadcastTo ⟨2, ![10000, K]⟩ (shapeCast ⟨2, ![10000, 1]⟩ v2 h2) h2b (ix2 p k)
      + broadcastTo ⟨2, ![10000, K]⟩ (shapeCast ⟨2, ![1, K]⟩ v6 h6) h6b (ix2 p k) = _
  rw [shapeCast_self, shapeCast_self, shapeCast_self, Cert.Column.broadcastTo_a1_ab_apply, broadcastTo_1b_ab_apply]
  rfl

/-- Second sweep: the affine row of the block's row p, times W at q, scaled by the weight of row p. -/
theorem pay1_apply (v0 : Vec Ideal S10000x128 .f32) (v2 : Vec Ideal S10000x1 .f32) (v6 : Vec Ideal S1x128 .f32)
    (v10 : Vec Ideal S128x128 .f32) (v12 : Vec Ideal S10000x1 .f32) (p : Fin 10000) (q : Fin 128) :
    k1_pay1 (F := Ideal) v0 v2 v6 v10 v12 (ix2 p q) = rowDot (affineRow v0 v2 v6 p) v10 q * v12 (ix2 p (0 : Fin 1)) := by
  unfold k1_pay1
  refine congrArg₂ (fun a b : EReal => a * b) ((matmul_plain_zero_apply (some .fp32) _ v10 (ix2 p q)).trans ?_)
    ((Cert.Column.broadcastTo_a1_ab_apply _ _ p q).trans (congrFun (shapeCast_self _ _) _))
  exact congrArg (fun r => rowDot r v10 q) (funext fun k => affine_block_apply v0 v2 v6 _ _ _ _ _ p k)

/-- Third sweep: the same with the rectifier applied to the affine row. -/
theorem pay2_apply (v0 : Vec Ideal S10000x128 .f32) (v2 : Vec Ideal S10000x1 .f32) (v6 : Vec Ideal S1x128 .f32)
    (v12 : Vec Ideal S128x64 .f32) (v14 : Vec Ideal S10000x1 .f32) (p : Fin 10000) (q : Fin 64) :
    k2_pay1 (F := Ideal) v0 v2 v6 v12 v14 (ix2 p q)
      = rowDot (reluRow (affineRow v0 v2 v6 p)) v12 q * v14 (ix2 p (0 : Fin 1)) := by
  unfold k2_pay1
  refine congrArg₂ (fun a b : EReal => a * b) ((matmul_plain_zero_apply (some .fp32) _ v12 (ix2 p q)).trans ?_)
    ((Cert.Column.broadcastTo_a1_ab_apply _ _ p q).trans (congrFun (shapeCast_self _ _) _))
  refine congrArg (fun r => rowDot r v12 q) (funext fun k => ?_)
  exact congrArg (fun a : EReal => max a (Ideal.ofBits .f32 0x00000000#32)) (affine_block_apply v0 v2 v6 _ _ _ _ _ p k)

/-- Fourth sweep: the logarithm of the softmax of the affine row. -/
theorem pay3_apply (v0 : Vec Ideal S10000x64 .f32) (v2 : Vec Ideal S10000x1 .f32) (v6 : Vec Ideal S1x64 .f32)
    (p : Fin 10000) (q : Fin 64) :
    k3_pay1 (F := Ideal) v0 v2 v6 (ix2 p q) = Cert.LogSoftmax.logSoftmax (affineRow v0 v2 v6 p) q := by
  unfold k3_pay1
  refine (Cert.LogSoftmax.vectorForm_apply
    (addf (mulf (shapeCast S10000x64 v0 shapeCasts_S10000x64_S10000x64)
        (broadcastTo S10000x64 (shapeCast S10000x1 v2 shapeCasts_S10000x1_S10000x1) broadcasts_S10000x1_S10000x64))
      (broadcastTo S10000x64 (shapeCast S1x64 v6 shapeCasts_S1x64_S1x64) broadcasts_S1x64_S10000x64))
    reduces_S10000x64_S10000 (.inl rfl) rfl rfl shapeCasts_S10000_S10000x1 broadcasts_S10000x1_S10000x64 p q).trans ?_
  exact congrArg (fun f => Cert.LogSoftmax.logSoftmax f q) (funext fun k => affine_block_apply v0 v2 v6 _ _ _ _ _ p k)

/-! ## Sweep 0 -/

/-- The printed block index maps, decided over the grid: a row-indexed operand moves with the result's block, a small
    operand stays at its one block, and the result's block index runs over the five blocks. -/
theorem idx0 : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 2) = win0_3.index t (0 : Fin 2)
    ∧ win0_2.index t (1 : Fin 2) = 0
    ∧ win0_3.index t (0 : Fin 2) ≤ 4
    ∧ win0_3.index t (1 : Fin 2) = 0 :=
  (by decide +kernel : ∀ t : Fin grid0.N, _)

/-- Every one of the five blocks is some point's. -/
theorem onto0 : ∀ q0 : Fin 5, ∃ t : Fin cfg0.N, win0_3.index t = ![q0.val, 0] :=
  (by decide +kernel : ∀ q0 : Fin 5, ∃ t : Fin grid0.N, win0_3.index t = ![q0.val, 0])

section
variable (V : (c : Dev nD) → (b : Ref sig .tc) → Buf (Elt Ideal) ((c : Thread nD τ).loc b))

/-- What point t writes back is block t of the sweep's row-wise map of the arrays as the sweep finds them. -/
theorem flushed0 (c : Dev nD) (t : Fin cfg0.N) :
    (dat0 V c).flushed 3 t = ((cfg0.win 3).blk t).view.read (Elt Ideal) (scaledDot (rowOf (V c main_arg0)) (V c main_arg2) (V c main_v15)) := by
  show (cfg0.win 3).cut (grid0.coords t) ((dat0 V c).after 3 t) = _
  rw [after0_3]
  unfold out0_3
  rw [View.canon_unit_zero hz]
  simp only [View.ld_unit_zero (S := S10000x128) hz, View.ld_unit_zero (S := S128x128) hz, View.ld_unit_zero (S := S10000x1) hz]
  obtain ⟨e00, e01, e10, e11, e20, e21, hb, eo1⟩ := idx0 t
  funext j
  obtain ⟨p, q, rfl⟩ : ∃ (p : Fin 10000) (q : Fin 128), j = ix2 p q := ⟨j 0, j 1, eq_ix2 j⟩
  refine (pay0_apply _ _ _ p q).trans ?_
  have hp : p.val < 10000 := p.isLt
  have hi : ((cfg0.win 3).blk t).view.emb (ix2 p q)
      = (ix2 (⟨win0_3.index t (0 : Fin 2) * 10000 + p.val, by omega⟩ : Fin 50000) q : S50000x128.Idx) := by
    funext a; apply Fin.ext
    match a with
    | ⟨0, _⟩ => show win0_3.index t (0 : Fin 2) * 10000 + 1 * p.val = win0_3.index t (0 : Fin 2) * 10000 + p.val; omega
    | ⟨1, _⟩ => show win0_3.index t (1 : Fin 2) * 128 + 1 * q.val = q.val; omega
  have hX : ∀ k : Fin 128, iblk0 V c 0 t (ix2 p k)
      = V c main_arg0 (ix2 (⟨win0_3.index t (0 : Fin 2) * 10000 + p.val, by omega⟩ : Fin 50000) k) := by
    intro k
    show V c main_arg0 (((cfg0.win 0).blk t).view.emb (ix2 p k)) = _
    refine congrArg _ (funext fun a => Fin.ext ?_)
    match a with
    | ⟨0, _⟩ => show win0_0.index t (0 : Fin 2) * 10000 + 1 * p.val = win0_3.index t (0 : Fin 2) * 10000 + p.val; omega
    | ⟨1, _⟩ => show win0_0.index t (1 : Fin 2) * 128 + 1 * k.val = k.val; omega
  have hW : iblk0 V c 1 t = V c main_arg2 := by
    funext y
    show V c main_arg2 (((cfg0.win 1).blk t).view.emb y) = V c main_arg2 y
    refine congrArg _ (funext fun a => Fin.ext ?_)
    match a with
    | ⟨0, _⟩ => show win0_1.index t (0 : Fin 2) * 128 + 1 * (y 0).val = (y 0).val; omega
    | ⟨1, _⟩ => show win0_1.index t (1 : Fin 2) * 128 + 1 * (y 1).val = (y 1).val; omega
  have hD : ∀ k : Fin 1, iblk0 V c 2 t (ix2 p k)
      = V c main_v15 (ix2 (⟨win0_3.index t (0 : Fin 2) * 10000 + p.val, by omega⟩ : Fin 50000) k) := by
    intro k
    show V c main_v15 (((cfg0.win 2).blk t).view.emb (ix2 p k)) = _
    refine congrArg _ (funext fun a => Fin.ext ?_)
    match a with
    | ⟨0, _⟩ => show win0_2.index t (0 : Fin 2) * 10000 + 1 * p.val = win0_3.index t (0 : Fin 2) * 10000 + p.val; omega
    | ⟨1, _⟩ => show win0_2.index t (1 : Fin 2) * 1 + 1 * k.val = k.val; omega
  show _ = scaledDot (rowOf (V c main_arg0)) (V c main_arg2) (V c main_v15) (((cfg0.win 3).blk t).view.emb (ix2 p q))
  rw [hi, scaledDot_apply]
  have hrow : rowOf (iblk0 V c 0 t) p = rowOf (V c main_arg0) (⟨win0_3.index t (0 : Fin 2) * 10000 + p.val, by omega⟩ : Fin 50000) :=
    funext fun k => hX k
  rw [hrow, hW, hD (0 : Fin 1)]

/-- An index of the result array is in point t's block iff each coordinate is in the block's range on its axis. -/
theorem mem_blk0 (t : Fin cfg0.N) (i : S50000x128.Idx) :
    i ∈ ((cfg0.win 3).blk t).view.set ↔ ∀ a : Fin 2, win0_3.index t a * S10000x128.size a ≤ (i a).val
      ∧ (i a).val < win0_3.index t a * S10000x128.size a + S10000x128.size a := by
  show i ∈ ((View.whole main_v18).slice (win0_3.rect t)).set ↔ _
  rw [View.set_slice_whole, Rect.mem_set_unit]
  exact Iff.rfl

/-- The five blocks tile the rows: row n is in block n / 10000. -/
theorem cover0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ := onto0 ⟨(i 0).val / 10000, by omega⟩
  have q0 : win0_3.index t (0 : Fin 2) = (i 0).val / 10000 := congrFun ht 0
  have q1 : win0_3.index t (1 : Fin 2) = 0 := congrFun ht 1
  refine ⟨t, flush0_3 t, ?_⟩
  rw [mem_blk0]
  intro a
  match a with
  | ⟨0, _⟩ =>
    show win0_3.index t (0 : Fin 2) * 10000 ≤ (i 0).val ∧ (i 0).val < win0_3.index t (0 : Fin 2) * 10000 + 10000
    omega
  | ⟨1, _⟩ =>
    show win0_3.index t (1 : Fin 2) * 128 ≤ (i 1).val ∧ (i 1).val < win0_3.index t (1 : Fin 2) * 128 + 128
    omega

/-- The result array after the sweep. -/
theorem sweep0 (c : Dev nD) : (dat0 V c).arrAt 3 cfg0.N = scaledDot (rowOf (V c main_arg0)) (V c main_arg2) (V c main_v15) :=
  (dat0 V c).arrAt_eq_of_cover 3 _ (fun t _ => flushed0 V c t) cover0

end

/-! ## Sweep 1 -/

/-- The printed block index maps, decided over the grid: a row-indexed operand moves with the result's block, a small
    operand stays at its one block, and the result's block index runs over the five blocks. -/
theorem idx1 : ∀ t : Fin cfg1.N, win1_0.index t (0 : Fin 2) = win1_4.index t (0 : Fin 2)
    ∧ win1_0.index t (1 : Fin 2) = 0
    ∧ win1_1.index t (0 : Fin 2) = win1_4.index t (0 : Fin 2)
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) ≤ 4
    ∧ win1_4.index t (1 : Fin 2) = 0 :=
  (by decide +kernel : ∀ t : Fin grid1.N, _)

/-- Every one of the five blocks is some point's. -/
theorem onto1 : ∀ q0 : Fin 5, ∃ t : Fin cfg1.N, win1_4.index t = ![q0.val, 0] :=
  (by decide +kernel : ∀ q0 : Fin 5, ∃ t : Fin grid1.N, win1_4.index t = ![q0.val, 0])

section
variable (V : (c : Dev nD) → (b : Ref sig .tc) → Buf (Elt Ideal) ((c : Thread nD τ).loc b))

/-- What point t writes back is block t of the sweep's row-wise map of the arrays as the sweep finds them. -/
theorem flushed1 (c : Dev nD) (t : Fin cfg1.N) :
    (dat1 V c).flushed 4 t = ((cfg1.win 4).blk t).view.read (Elt Ideal) (scaledDot (affineRow (V c main_v28) (V c main_v15) (V c main_v16)) (V c main_arg2) (V c main_v15)) := by
  show (cfg1.win 4).cut (grid1.coords t) ((dat1 V c).after 4 t) = _
  rw [after1_4]
  unfold out1_4
  rw [View.canon_unit_zero hz]
  simp only [View.ld_unit_zero (S := S10000x128) hz, View.ld_unit_zero (S := S10000x1) hz, View.ld_unit_zero (S := S1x128) hz, View.ld_unit_zero (S := S128x128) hz]
  obtain ⟨e00, e01, e10, e11, e20, e21, e30, e31, hb, eo1⟩ := idx1 t
  funext j
  obtain ⟨p, q, rfl⟩ : ∃ (p : Fin 10000) (q : Fin 128), j = ix2 p q := ⟨j 0, j 1, eq_ix2 j⟩
  refine (pay1_apply _ _ _ _ _ p q).trans ?_
  have hp : p.val < 10000 := p.isLt
  have hi : ((cfg1.win 4).blk t).view.emb (ix2 p q)
      = (ix2 (⟨win1_4.index t (0 : Fin 2) * 10000 + p.val, by omega⟩ : Fin 50000) q : S50000x128.Idx) := by
    funext a; apply Fin.ext
    match a with
    | ⟨0, _⟩ => show win1_4.index t (0 : Fin 2) * 10000 + 1 * p.val = win1_4.index t (0 : Fin 2) * 10000 + p.val; omega
    | ⟨1, _⟩ => show win1_4.index t (1 : Fin 2) * 128 + 1 * q.val = q.val; omega
  have hA : ∀ k : Fin 128, iblk1 V c 0 t (ix2 p k)
      = V c main_v28 (ix2 (⟨win1_4.index t (0 : Fin 2) * 10000 + p.val, by omega⟩ : Fin 50000) k) := by
    intro k
    show V c main_v28 (((cfg1.win 0).blk t).view.emb (ix2 p k)) = _
    refine congrArg _ (funext fun a => Fin.ext ?_)
    match a with
    | ⟨0, _⟩ => show win1_0.index t (0 : Fin 2) * 10000 + 1 * p.val = win1_4.index t (0 : Fin 2) * 10000 + p.val; omega
    | ⟨1, _⟩ => show win1_0.index t (1 : Fin 2) * 128 + 1 * k.val = k.val; omega
  have hD : ∀ k : Fin 1, iblk1 V c 1 t (ix2 p k)
      = V c main_v15 (ix2 (⟨win1_4.index t (0 : Fin 2) * 10000 + p.val, by omega⟩ : Fin 50000) k) := by
    intro k
    show V c main_v15 (((cfg1.win 1).blk t).view.emb (ix2 p k)) = _
    refine congrArg _ (funext fun a => Fin.ext ?_)
    match a with
    | ⟨0, _⟩ => show win1_1.index t (0 : Fin 2) * 10000 + 1 * p.val = win1_4.index t (0 : Fin 2) * 10000 + p.val; omega
    | ⟨1, _⟩ => show win1_1.index t (1 : Fin 2) * 1 + 1 * k.val = k.val; omega
  have hB : iblk1 V c 2 t = V c main_v16 := by
    funext y
    show V c main_v16 (((cfg1.win 2).blk t).view.emb y) = V c main_v16 y
    refine congrArg _ (funext fun a => Fin.ext ?_)
    match a with
    | ⟨0, _⟩ => show win1_2.index t (0 : Fin 2) * 1 + 1 * (y 0).val = (y 0).val; omega
    | ⟨1, _⟩ => show win1_2.index t (1 : Fin 2) * 128 + 1 * (y 1).val = (y 1).val; omega
  have hW : iblk1 V c 3 t = V c main_arg2 := by
    funext y
    show V c main_arg2 (((cfg1.win 3).blk t).view.emb y) = V c main_arg2 y
    refine congrArg _ (funext fun a => Fin.ext ?_)
    match a with
    | ⟨0, _⟩ => show win1_3.index t (0 : Fin 2) * 128 + 1 * (y 0).val = (y 0).val; omega
    | ⟨1, _⟩ => show win1_3.index t (1 : Fin 2) * 128 + 1 * (y 1).val = (y 1).val; omega
  show _ = scaledDot (affineRow (V c main_v28) (V c main_v15) (V c main_v16)) (V c main_arg2) (V c main_v15) (((cfg1.win 4).blk t).view.emb (ix2 p q))
  rw [hi, scaledDot_apply]
  have hrow : affineRow (iblk1 V c 0 t) (iblk1 V c 1 t) (iblk1 V c 2 t) p
      = affineRow (V c main_v28) (V c main_v15) (V c main_v16) (⟨win1_4.index t (0 : Fin 2) * 10000 + p.val, by omega⟩ : Fin 50000) := by
    funext k
    unfold affineRow
    rw [hA k, hD (0 : Fin 1), hB]
  rw [hrow, hW, hD (0 : Fin 1)]

/-- An index of the result array is in point t's block iff each coordinate is in the block's range on its axis. -/
theorem mem_blk1 (t : Fin cfg1.N) (i : S50000x128.Idx) :
    i ∈ ((cfg1.win 4).blk t).view.set ↔ ∀ a : Fin 2, win1_4.index t a * S10000x128.size a ≤ (i a).val
      ∧ (i a).val < win1_4.index t a * S10000x128.size a + S10000x128.size a := by
  show i ∈ ((View.whole main_v29).slice (win1_4.rect t)).set ↔ _
  rw [View.set_slice_whole, Rect.mem_set_unit]
  exact Iff.rfl

/-- The five blocks tile the rows: row n is in block n / 10000. -/
theorem cover1 (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  obtain ⟨t, ht⟩ := onto1 ⟨(i 0).val / 10000, by omega⟩
  have q0 : win1_4.index t (0 : Fin 2) = (i 0).val / 10000 := congrFun ht 0
  have q1 : win1_4.index t (1 : Fin 2) = 0 := congrFun ht 1
  refine ⟨t, flush1_4 t, ?_⟩
  rw [mem_blk1]
  intro a
  match a with
  | ⟨0, _⟩ =>
    show win1_4.index t (0 : Fin 2) * 10000 ≤ (i 0).val ∧ (i 0).val < win1_4.index t (0 : Fin 2) * 10000 + 10000
    omega
  | ⟨1, _⟩ =>
    show win1_4.index t (1 : Fin 2) * 128 ≤ (i 1).val ∧ (i 1).val < win1_4.index t (1 : Fin 2) * 128 + 128
    omega

/-- The result array after the sweep. -/
theorem sweep1 (c : Dev nD) : (dat1 V c).arrAt 4 cfg1.N = scaledDot (affineRow (V c main_v28) (V c main_v15) (V c main_v16)) (V c main_arg2) (V c main_v15) :=
  (dat1 V c).arrAt_eq_of_cover 4 _ (fun t _ => flushed1 V c t) cover1

end

/-! ## Sweep 2 -/

/-- The printed block index maps, decided over the grid: a row-indexed operand moves with the result's block, a small
    operand stays at its one block, and the result's block index runs over the five blocks. -/
theorem idx2 : ∀ t : Fin cfg2.N, win2_0.index t (0 : Fin 2) = win2_4.index t (0 : Fin 2)
    ∧ win2_0.index t (1 : Fin 2) = 0
    ∧ win2_1.index t (0 : Fin 2) = win2_4.index t (0 : Fin 2)
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) ≤ 4
    ∧ win2_4.index t (1 : Fin 2) = 0 :=
  (by decide +kernel : ∀ t : Fin grid2.N, _)

/-- Every one of the five blocks is some point's. -/
theorem onto2 : ∀ q0 : Fin 5, ∃ t : Fin cfg2.N, win2_4.index t = ![q0.val, 0] :=
  (by decide +kernel : ∀ q0 : Fin 5, ∃ t : Fin grid2.N, win2_4.index t = ![q0.val, 0])

section
variable (V : (c : Dev nD) → (b : Ref sig .tc) → Buf (Elt Ideal) ((c : Thread nD τ).loc b))

/-- What point t writes back is block t of the sweep's row-wise map of the arrays as the sweep finds them. -/
theorem flushed2 (c : Dev nD) (t : Fin cfg2.N) :
    (dat2 V c).flushed 4 t = ((cfg2.win 4).blk t).view.read (Elt Ideal) (scaledDot (fun n => reluRow (affineRow (V c main_v39) (V c main_v15) (V c main_v16) n)) (V c main_arg4) (V c main_v15)) := by
  show (cfg2.win 4).cut (grid2.coords t) ((dat2 V c).after 4 t) = _
  rw [after2_4]
  unfold out2_4
  rw [View.canon_unit_zero hz]
  simp only [View.ld_unit_zero (S := S10000x128) hz, View.ld_unit_zero (S := S10000x1) hz, View.ld_unit_zero (S := S1x128) hz, View.ld_unit_zero (S := S128x64) hz, View.ld_unit_zero (S := S10000x64) hz]
  obtain ⟨e00, e01, e10, e11, e20, e21, e30, e31, hb, eo1⟩ := idx2 t
  funext j
  obtain ⟨p, q, rfl⟩ : ∃ (p : Fin 10000) (q : Fin 64), j = ix2 p q := ⟨j 0, j 1, eq_ix2 j⟩
  refine (pay2_apply _ _ _ _ _ p q).trans ?_
  have hp : p.val < 10000 := p.isLt
  have hi : ((cfg2.win 4).blk t).view.emb (ix2 p q)
      = (ix2 (⟨win2_4.index t (0 : Fin 2) * 10000 + p.val, by omega⟩ : Fin 50000) q : S50000x64.Idx) := by
    funext a; apply Fin.ext
    match a with
    | ⟨0, _⟩ => show win2_4.index t (0 : Fin 2) * 10000 + 1 * p.val = win2_4.index t (0 : Fin 2) * 10000 + p.val; omega
    | ⟨1, _⟩ => show win2_4.index t (1 : Fin 2) * 64 + 1 * q.val = q.val; omega
  have hA : ∀ k : Fin 128, iblk2 V c 0 t (ix2 p k)
      = V c main_v39 (ix2 (⟨win2_4.index t (0 : Fin 2) * 10000 + p.val, by omega⟩ : Fin 50000) k) := by
    intro k
    show V c main_v39 (((cfg2.win 0).blk t).view.emb (ix2 p k)) = _
    refine congrArg _ (funext fun a => Fin.ext ?_)
    match a with
    | ⟨0, _⟩ => show win2_0.index t (0 : Fin 2) * 10000 + 1 * p.val = win2_4.index t (0 : Fin 2) * 10000 + p.val; omega
    | ⟨1, _⟩ => show win2_0.index t (1 : Fin 2) * 128 + 1 * k.val = k.val; omega
  have hD : ∀ k : Fin 1, iblk2 V c 1 t (ix2 p k)
      = V c main_v15 (ix2 (⟨win2_4.index t (0 : Fin 2) * 10000 + p.val, by omega⟩ : Fin 50000) k) := by
    intro k
    show V c main_v15 (((cfg2.win 1).blk t).view.emb (ix2 p k)) = _
    refine congrArg _ (funext fun a => Fin.ext ?_)
    match a with
    | ⟨0, _⟩ => show win2_1.index t (0 : Fin 2) * 10000 + 1 * p.val = win2_4.index t (0 : Fin 2) * 10000 + p.val; omega
    | ⟨1, _⟩ => show win2_1.index t (1 : Fin 2) * 1 + 1 * k.val = k.val; omega
  have hB : iblk2 V c 2 t = V c main_v16 := by
    funext y
    show V c main_v16 (((cfg2.win 2).blk t).view.emb y) = V c main_v16 y
    refine congrArg _ (funext fun a => Fin.ext ?_)
    match a with
    | ⟨0, _⟩ => show win2_2.index t (0 : Fin 2) * 1 + 1 * (y 0).val = (y 0).val; omega
    | ⟨1, _⟩ => show win2_2.index t (1 : Fin 2) * 128 + 1 * (y 1).val = (y 1).val; omega
  have hW : iblk2 V c 3 t = V c main_arg4 := by
    funext y
    show V c main_arg4 (((cfg2.win 3).blk t).view.emb y) = V c main_arg4 y
    refine congrArg _ (funext fun a => Fin.ext ?_)
    match a with
    | ⟨0, _⟩ => show win2_3.index t (0 : Fin 2) * 128 + 1 * (y 0).val = (y 0).val; omega
    | ⟨1, _⟩ => show win2_3.index t (1 : Fin 2) * 64 + 1 * (y 1).val = (y 1).val; omega
  show _ = scaledDot (fun n => reluRow (affineRow (V c main_v39) (V c main_v15) (V c main_v16) n)) (V c main_arg4) (V c main_v15) (((cfg2.win 4).blk t).view.emb (ix2 p q))
  rw [hi, scaledDot_apply]
  have hrow : affineRow (iblk2 V c 0 t) (iblk2 V c 1 t) (iblk2 V c 2 t) p
      = affineRow (V c main_v39) (V c main_v15) (V c main_v16) (⟨win2_4.index t (0 : Fin 2) * 10000 + p.val, by omega⟩ : Fin 50000) := by
    funext k
    unfold affineRow
    rw [hA k, hD (0 : Fin 1), hB]
  rw [hrow, hW, hD (0 : Fin 1)]

/-- An index of the result array is in point t's block iff each coordinate is in the block's range on its axis. -/
theorem mem_blk2 (t : Fin cfg2.N) (i : S50000x64.Idx) :
    i ∈ ((cfg2.win 4).blk t).view.set ↔ ∀ a : Fin 2, win2_4.index t a * S10000x64.size a ≤ (i a).val
      ∧ (i a).val < win2_4.index t a * S10000x64.size a + S10000x64.size a := by
  show i ∈ ((View.whole main_v40).slice (win2_4.rect t)).set ↔ _
  rw [View.set_slice_whole, Rect.mem_set_unit]
  exact Iff.rfl

/-- The five blocks tile the rows: row n is in block n / 10000. -/
theorem cover2 (i : S50000x64.Idx) :
    ∃ t : Fin cfg2.N, (cfg2.win 4).flush t = true ∧ i ∈ ((cfg2.win 4).blk t).view.set := by
  have hi0 : (i 0).val < 50000 := (i 0).isLt
  have hi1 : (i 1).val < 64 := (i 1).isLt
  obtain ⟨t, ht⟩ := onto2 ⟨(i 0).val / 10000, by omega⟩
  have q0 : win2_4.index t (0 : Fin 2) = (i 0).val / 10000 := congrFun ht 0
  have q1 : win2_4.index t (1 : Fin 2) = 0 := congrFun ht 1
  refine ⟨t, flush2_4 t, ?_⟩
  rw [mem_blk2]
  intro a
  match a with
  | ⟨0, _⟩ =>
    show win2_4.index t (0 : Fin 2) * 10000 ≤ (i 0).val ∧ (i 0).val < win2_4.index t (0 : Fin 2) * 10000 + 10000
    omega
  | ⟨1, _⟩ =>
    show win2_4.index t (1 : Fin 2) * 64 ≤ (i 1).val ∧ (i 1).val < win2_4.index t (1 : Fin 2) * 64 + 64
    omega

/-- The result array after the sweep. -/
theorem sweep2 (c : Dev nD) : (dat2 V c).arrAt 4 cfg2.N = scaledDot (fun n => reluRow (affineRow (V c main_v39) (V c main_v15) (V c main_v16) n)) (V c main_arg4) (V c main_v15) :=
  (dat2 V c).arrAt_eq_of_cover 4 _ (fun t _ => flushed2 V c t) cover2

end

/-! ## Sweep 3 -/

/-- The printed block index maps, decided over the grid: a row-indexed operand moves with the result's block, a small
    operand stays at its one block, and the result's block index runs over the five blocks. -/
theorem idx3 : ∀ t : Fin cfg3.N, win3_0.index t (0 : Fin 2) = win3_3.index t (0 : Fin 2)
    ∧ win3_0.index t (1 : Fin 2) = 0
    ∧ win3_1.index t (0 : Fin 2) = win3_3.index t (0 : Fin 2)
    ∧ win3_1.index t (1 : Fin 2) = 0
    ∧ win3_2.index t (0 : Fin 2) = 0
    ∧ win3_2.index t (1 : Fin 2) = 0
    ∧ win3_3.index t (0 : Fin 2) ≤ 4
    ∧ win3_3.index t (1 : Fin 2) = 0 :=
  (by decide +kernel : ∀ t : Fin grid3.N, _)

/-- Every one of the five blocks is some point's. -/
theorem onto3 : ∀ q0 : Fin 5, ∃ t : Fin cfg3.N, win3_3.index t = ![q0.val, 0] :=
  (by decide +kernel : ∀ q0 : Fin 5, ∃ t : Fin grid3.N, win3_3.index t = ![q0.val, 0])

section
variable (V : (c : Dev nD) → (b : Ref sig .tc) → Buf (Elt Ideal) ((c : Thread nD τ).loc b))

/-- What point t writes back is block t of the sweep's row-wise map of the arrays as the sweep finds them. -/
theorem flushed3 (c : Dev nD) (t : Fin cfg3.N) :
    (dat3 V c).flushed 3 t = ((cfg3.win 3).blk t).view.read (Elt Ideal) (softRows (affineRow (V c main_v50) (V c main_v15) (V c main_v17))) := by
  show (cfg3.win 3).cut (grid3.coords t) ((dat3 V c).after 3 t) = _
  rw [after3_3]
  unfold out3_3
  rw [View.canon_unit_zero hz]
  simp only [View.ld_unit_zero (S := S10000x64) hz, View.ld_unit_zero (S := S10000x1) hz, View.ld_unit_zero (S := S1x64) hz]
  obtain ⟨e00, e01, e10, e11, e20, e21, hb, eo1⟩ := idx3 t
  funext j
  obtain ⟨p, q, rfl⟩ : ∃ (p : Fin 10000) (q : Fin 64), j = ix2 p q := ⟨j 0, j 1, eq_ix2 j⟩
  refine (pay3_apply _ _ _ p q).trans ?_
  have hp : p.val < 10000 := p.isLt
  have hi : ((cfg3.win 3).blk t).view.emb (ix2 p q)
      = (ix2 (⟨win3_3.index t (0 : Fin 2) * 10000 + p.val, by omega⟩ : Fin 50000) q : S50000x64.Idx) := by
    funext a; apply Fin.ext
    match a with
    | ⟨0, _⟩ => show win3_3.index t (0 : Fin 2) * 10000 + 1 * p.val = win3_3.index t (0 : Fin 2) * 10000 + p.val; omega
    | ⟨1, _⟩ => show win3_3.index t (1 : Fin 2) * 64 + 1 * q.val = q.val; omega
  have hA : ∀ k : Fin 64, iblk3 V c 0 t (ix2 p k)
      = V c main_v50 (ix2 (⟨win3_3.index t (0 : Fin 2) * 10000 + p.val, by omega⟩ : Fin 50000) k) := by
    intro k
    show V c main_v50 (((cfg3.win 0).blk t).view.emb (ix2 p k)) = _
    refine congrArg _ (funext fun a => Fin.ext ?_)
    match a with
    | ⟨0, _⟩ => show win3_0.index t (0 : Fin 2) * 10000 + 1 * p.val = win3_3.index t (0 : Fin 2) * 10000 + p.val; omega
    | ⟨1, _⟩ => show win3_0.index t (1 : Fin 2) * 64 + 1 * k.val = k.val; omega
  have hD : ∀ k : Fin 1, iblk3 V c 1 t (ix2 p k)
      = V c main_v15 (ix2 (⟨win3_3.index t (0 : Fin 2) * 10000 + p.val, by omega⟩ : Fin 50000) k) := by
    intro k
    show V c main_v15 (((cfg3.win 1).blk t).view.emb (ix2 p k)) = _
    refine congrArg _ (funext fun a => Fin.ext ?_)
    match a with
    | ⟨0, _⟩ => show win3_1.index t (0 : Fin 2) * 10000 + 1 * p.val = win3_3.index t (0 : Fin 2) * 10000 + p.val; omega
    | ⟨1, _⟩ => show win3_1.index t (1 : Fin 2) * 1 + 1 * k.val = k.val; omega
  have hB : iblk3 V c 2 t = V c main_v17 := by
    funext y
    show V c main_v17 (((cfg3.win 2).blk t).view.emb y) = V c main_v17 y
    refine congrArg _ (funext fun a => Fin.ext ?_)
    match a with
    | ⟨0, _⟩ => show win3_2.index t (0 : Fin 2) * 1 + 1 * (y 0).val = (y 0).val; omega
    | ⟨1, _⟩ => show win3_2.index t (1 : Fin 2) * 64 + 1 * (y 1).val = (y 1).val; omega
  show _ = softRows (affineRow (V c main_v50) (V c main_v15) (V c main_v17)) (((cfg3.win 3).blk t).view.emb (ix2 p q))
  rw [hi, softRows_apply]
  have hrow : affineRow (iblk3 V c 0 t) (iblk3 V c 1 t) (iblk3 V c 2 t) p
      = affineRow (V c main_v50) (V c main_v15) (V c main_v17) (⟨win3_3.index t (0 : Fin 2) * 10000 + p.val, by omega⟩ : Fin 50000) := by
    funext k
    unfold affineRow
    rw [hA k, hD (0 : Fin 1), hB]
  rw [hrow]

/-- An index of the result array is in point t's block iff each coordinate is in the block's range on its axis. -/
theorem mem_blk3 (t : Fin cfg3.N) (i : S50000x64.Idx) :
    i ∈ ((cfg3.win 3).blk t).view.set ↔ ∀ a : Fin 2, win3_3.index t a * S10000x64.size a ≤ (i a).val
      ∧ (i a).val < win3_3.index t a * S10000x64.size a + S10000x64.size a := by
  show i ∈ ((View.whole main_v51).slice (win3_3.rect t)).set ↔ _
  rw [View.set_slice_whole, Rect.mem_set_unit]
  exact Iff.rfl

/-- The five blocks tile the rows: row n is in block n / 10000. -/
theorem cover3 (i : S50000x64.Idx) :
    ∃ t : Fin cfg3.N, (cfg3.win 3).flush t = true ∧ i ∈ ((cfg3.win 3).blk t).view.set := by
  have hi0 : (i 0).val < 50000 := (i 0).isLt
  have hi1 : (i 1).val < 64 := (i 1).isLt
  obtain ⟨t, ht⟩ := onto3 ⟨(i 0).val / 10000, by omega⟩
  have q0 : win3_3.index t (0 : Fin 2) = (i 0).val / 10000 := congrFun ht 0
  have q1 : win3_3.index t (1 : Fin 2) = 0 := congrFun ht 1
  refine ⟨t, flush3_3 t, ?_⟩
  rw [mem_blk3]
  intro a
  match a with
  | ⟨0, _⟩ =>
    show win3_3.index t (0 : Fin 2) * 10000 ≤ (i 0).val ∧ (i 0).val < win3_3.index t (0 : Fin 2) * 10000 + 10000
    omega
  | ⟨1, _⟩ =>
    show win3_3.index t (1 : Fin 2) * 64 ≤ (i 1).val ∧ (i 1).val < win3_3.index t (1 : Fin 2) * 64 + 64
    omega

/-- The result array after the sweep. -/
theorem sweep3 (c : Dev nD) : (dat3 V c).arrAt 3 cfg3.N = softRows (affineRow (V c main_v50) (V c main_v15) (V c main_v17)) :=
  (dat3 V c).arrAt_eq_of_cover 3 _ (fun t _ => flushed3 V c t) cover3

end

end Cert.KernelIdeal.Sweep

end
-- ==== Proof.LibRows.lean ====
/-
  Row-indexed gather and accumulating scatter read at an index.

  A table of rows is gathered, or accumulated into, by a column of start indices (one signed word per
  row of the updates): the dimension numbers are those of `x[idx]` and of `segment_sum` along the
  leading axis. The gather reads the row at the start word, read signed and clamped into range; the
  scatter adds to entry `(n, …)` the updates `(e, …)` whose start word, read signed, is `n`.
-/
import Idealize.ShloMosaic.PureOps.Ideal
import Idealize.ShloMosaic.Lib.ValueIdx

noncomputable section

open scoped BigOperators

namespace Cert.Rows

open Idealize.ShloMosaic Idealize.ShloMosaic.ValueIdx

/-! Facts about axis numbers, decided once at the literal ranks. -/
private theorem fin2_one_ne_zero : (1 : Fin 2) ≠ 0 := by decide
private theorem fin3_one_ne_zero : (1 : Fin 3) ≠ 0 := by decide
private theorem fin3_two_ne_zero : (2 : Fin 3) ≠ 0 := by decide

/-- An axis is kept exactly when it is not among the removed ones. -/
private theorem mem_kept {s : Shape} (axes : List (Fin s.rank)) (a : Fin s.rank) : a ∈ s.kept axes ↔ a ∉ axes := by
  simp [Shape.kept, List.mem_filter, List.mem_finRange]

/-- Gather of whole rows of a rank-2 table `[N, C]` at a column `[M, 1]` of start indices. -/
abbrev gather2 (N C M : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The gather of rows at `(e, a)`: the table at the row the start word `idx[e, 0]` names, read signed
    and clamped into `[0, N − 1]`, column `a`. -/
theorem gather2_apply {α : Type} {N C M w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (a : Fin C) :
    Host.gather (gather2 N C M wf) x idx (ix2 e a)
      = x (ix2 (⟨min (idx (ix2 e (0 : Fin 1))).toInt.toNat (N - 1), by omega⟩ : Fin N) a) := by
  unfold Host.gather
  congr 1
  funext ax
  refine Fin.ext ?_
  match ax with
  | ⟨0, _⟩ =>
    show (gather2 N C M wf).start (ix2 e a) idx 0 + (gather2 N C M wf).batchCoord (ix2 e a) 0
      + (gather2 N C M wf).offCoord (ix2 e a) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather2 N C M wf).startIndexMap from List.mem_singleton.mpr rfl)]
    have hsi : (gather2 N C M wf).siIdx (ix2 e a) ⟨List.idxOf (0 : Fin 2) (gather2 N C M wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (gather2 N C M wf).start (ix2 e a) idx 1 + (gather2 N C M wf).batchCoord (ix2 e a) 1
      + (gather2 N C M wf).offCoord (ix2 e a) 1 = _
    rw [GatherDims.batchCoord_eq_zero _ _ _ List.not_mem_nil]
    unfold GatherDims.start
    rw [dif_neg (show (1 : Fin 2) ∉ (gather2 N C M wf).startIndexMap from fun h => fin2_one_ne_zero (List.mem_singleton.mp h))]
    unfold GatherDims.offCoord
    rw [dif_pos (show (1 : Fin 2) ∈ (gather2 N C M wf).sKept from (GatherDims.mem_sKept _ _).2 ⟨fun h => fin2_one_ne_zero (List.mem_singleton.mp h), List.not_mem_nil⟩)]
    simp only [Nat.zero_add, Nat.add_zero]
    rfl

/-- Gather of whole slabs of a rank-3 table `[N, B, C]` at a column `[M, 1]` of start indices. -/
abbrev gather3 (N B C M : Nat)
    (wf : GatherDims.WF ⟨3, ![N, B, C]⟩ ⟨2, ![M, 1]⟩ ⟨3, ![M, B, C]⟩ [1, 2] [0] [] [0] [] 1 ![1, B, C]) :
    GatherDims ⟨3, ![N, B, C]⟩ ⟨2, ![M, 1]⟩ ⟨3, ![M, B, C]⟩ where
  offsetDims := [1, 2]
  collapsedSliceDims := [0]
  operandBatchingDims := []
  startIndicesBatchingDims := []
  startIndexMap := [0]
  indexVectorDim := 1
  sliceSizes := ![1, B, C]
  wf := wf

/-- The gather of slabs at `(e, b, a)`. -/
theorem gather3_apply {α : Type} {N B C M w : Nat} (hN : 0 < N)
    (wf : GatherDims.WF ⟨3, ![N, B, C]⟩ ⟨2, ![M, 1]⟩ ⟨3, ![M, B, C]⟩ [1, 2] [0] [] [0] [] 1 ![1, B, C])
    (x : (⟨3, ![N, B, C]⟩ : Shape).Idx → α) (idx : IVec ⟨2, ![M, 1]⟩ w) (e : Fin M) (b : Fin B) (a : Fin C) :
    Host.gather (gather3 N B C M wf) x idx (ix3 e b a)
      = x (ix3 (⟨min (idx (ix2 e (0 : Fin 1))).toInt.toNat (N - 1), by omega⟩ : Fin N) b a) := by
  unfold Host.gather
  congr 1
  funext ax
  refine Fin.ext ?_
  match ax with
  | ⟨0, _⟩ =>
    show (gather3 N B C M wf).start (ix3 e b a) idx 0 + (gather3 N B C M wf).batchCoord (ix3 e b a) 0
      + (gather3 N B C M wf).offCoord (ix3 e b a) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (gather3 N B C M wf).startIndexMap from List.mem_singleton.mpr rfl)]
    have hsi : (gather3 N B C M wf).siIdx (ix3 e b a) ⟨List.idxOf (0 : Fin 3) (gather3 N B C M wf).startIndexMap,
        List.idxOf_lt_length_iff.2 (List.mem_singleton.mpr rfl)⟩ = ix2 e (0 : Fin 1) := by
      funext c; refine Fin.ext ?_
      match c with
      | ⟨0, _⟩ => rfl
      | ⟨1, _⟩ => rfl
    rw [hsi]
    rfl
  | ⟨1, _⟩ =>
    show (gather3 N B C M wf).start (ix3 e b a) idx 1 + (gather3 N B C M wf).batchCoord (ix3 e b a) 1
      + (gather3 N B C M wf).offCoord (ix3 e b a) 1 = _
    rw [GatherDims.batchCoord_eq_zero _ _ _ List.not_mem_nil]
    unfold GatherDims.start
    rw [dif_neg (show (1 : Fin 3) ∉ (gather3 N B C M wf).startIndexMap from
      fun h => fin3_one_ne_zero (List.mem_singleton.mp h))]
    unfold GatherDims.offCoord
    rw [dif_pos (show (1 : Fin 3) ∈ (gather3 N B C M wf).sKept from (GatherDims.mem_sKept _ _).2
      ⟨fun h => fin3_one_ne_zero (List.mem_singleton.mp h), List.not_mem_nil⟩)]
    simp only [Nat.zero_add, Nat.add_zero]
    rfl
  | ⟨2, _⟩ =>
    show (gather3 N B C M wf).start (ix3 e b a) idx 2 + (gather3 N B C M wf).batchCoord (ix3 e b a) 2
      + (gather3 N B C M wf).offCoord (ix3 e b a) 2 = _
    rw [GatherDims.batchCoord_eq_zero _ _ _ List.not_mem_nil]
    unfold GatherDims.start
    rw [dif_neg (show (2 : Fin 3) ∉ (gather3 N B C M wf).startIndexMap from
      fun h => fin3_two_ne_zero (List.mem_singleton.mp h))]
    unfold GatherDims.offCoord
    rw [dif_pos (show (2 : Fin 3) ∈ (gather3 N B C M wf).sKept from (GatherDims.mem_sKept _ _).2
      ⟨fun h => fin3_two_ne_zero (List.mem_singleton.mp h), List.not_mem_nil⟩)]
    simp only [Nat.zero_add, Nat.add_zero]
    rfl

/-- Accumulating scatter of rows `[M, C]` into a rank-2 table `[N, C]` at a column `[M, 1]` of start indices. -/
abbrev scatter2 (N C M : Nat)
    (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- An update lands on index `i` exactly when, on every axis, its start plus its window coordinate is
    `i`'s coordinate. -/
private theorem resultIdx?_eq_some_iff {s si u : Shape} (d : ScatterDims s si u) {w : Nat} (j : u.Idx)
    (idx : IVec si w) (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hf a
      have := congrArg (fun f : s.Idx => ((f a).val : ℤ)) hf
      simp only at this
      rw [← this]; exact (Int.toNat_of_nonneg (h a).1).symm
    · intro hall
      funext a
      refine Fin.ext ?_
      show (d.start j idx a + (d.window j a : ℤ)).toNat = (i a).val
      rw [hall a]; exact Int.toNat_natCast _
  · rename_i h
    constructor
    · intro hh; exact absurd hh (by simp)
    · intro hall; exfalso; apply h; intro a; rw [hall a]
      exact ⟨Int.natCast_nonneg _, by exact_mod_cast (i a).isLt⟩

/-- An update `(e, c)` lands on `(n, k)` exactly when its start word, read signed, is `n` and `c = k`:
    axis 0 starts at the word and has window coordinate 0 (it is an inserted axis), axis 1 starts at 0 and
    has window coordinate `c`. -/
theorem scatter2_resultIdx {N C M w : Nat}
    (wf : ScatterDims.WF ⟨2, ![N, C]⟩ ⟨2, ![M, 1]⟩ ⟨2, ![M, C]⟩ [1] [0] [0] 1)
    (idx : IVec ⟨2, ![M, 1]⟩ w) (e : Fin M) (c : Fin C) (n : Fin N) (k : Fin C) :
    (scatter2 N C M wf).resultIdx? (ix2 e c) idx = some (ix2 n k)
      ↔ (idx (ix2 e (0 : Fin 1))).toInt = (n.val : ℤ) ∧ c = k := by
  have hs0 : (scatter2 N C M wf).start (ix2 e c) idx (0 : Fin 2) = (idx (ix2 e (0 : Fin 1))).toInt := by
    unfold ScatterDims.start
    rw [dif_pos (show (0 : Fin 2) ∈ (scatter2 N C M wf).scatterDimsToOperandDims from List.mem_singleton.mpr rfl)]
    have hsi : (scatter2 N C M wf).siIdx (ix2 e c) ⟨List.idxOf (0 : Fin 2) (scatter2 N C M wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw0 : (scatter2 N C M wf).window (ix2 e c) (0 : Fin 2) = 0 := by
    unfold ScatterDims.window
    rw [dif_neg (fun h => (mem_kept _ _).1 h (List.mem_singleton.mpr rfl))]
  have hs1 : (scatter2 N C M wf).start (ix2 e c) idx (1 : Fin 2) = 0 := by
    unfold ScatterDims.start
    rw [dif_neg (fun h => fin2_one_ne_zero (List.mem_singleton.mp h))]
  have hw1 : (scatter2 N C M wf).window (ix2 e c) (1 : Fin 2) = c.val := by
    unfold ScatterDims.window
    rw [dif_pos (show (1 : Fin 2) ∈ (scatter2 N C M wf).sKept from
      (mem_kept _ _).2 (fun h => fin2_one_ne_zero (List.mem_singleton.mp h)))]
    rfl
  rw [resultIdx?_eq_some_iff]
  constructor
  · intro h
    have h0 := h (0 : Fin 2)
    have h1 := h (1 : Fin 2)
    rw [hs0, hw0] at h0
    rw [hs1, hw1] at h1
    have h0' : (idx (ix2 e (0 : Fin 1))).toInt + ((0 : ℕ) : ℤ) = (n.val : ℤ) := h0
    have h1' : (0 : ℤ) + (c.val : ℤ) = (k.val : ℤ) := h1
    refine ⟨by simpa using h0', Fin.ext ?_⟩
    have : (c.val : ℤ) = (k.val : ℤ) := by simpa using h1'
    exact_mod_cast this
  · rintro ⟨h0, rfl⟩ a
    match a with
    | ⟨0, _⟩ =>
      show (scatter2 N C M wf).start (ix2 e c) idx (0 : Fin 2)
        + ((scatter2 N C M wf).window (ix2 e c) (0 : Fin 2) : ℤ) = (n.val : ℤ)
      rw [hs0, hw0, h0]; simp
    | ⟨1, _⟩ =>
      show (scatter2 N C M wf).start (ix2 e c) idx (1 : Fin 2)
        + ((scatter2 N C M wf).window (ix2 e c) (1 : Fin 2) : ℤ) = (c.val : ℤ)
      rw [hs1, hw1]; simp

/-- The accumulated table at `(n, k)`: the operand there plus the updates `(e, k)` of the rows `e` whose
    start word, read signed, is `n`. -/
theorem scatterAdd2_apply {N C M w : Nat}
    (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w)
    (upd : (⟨2, ![M, C]⟩ : Shape).Idx → EReal) (n : Fin N) (k : Fin C) :
    Ideal.hostScatterAdd (scatter2 N C M wf) x idx upd (ix2 n k)
      = x (ix2 n k) + ∑ e : Fin M, if (idx (ix2 e (0 : Fin 1))).toInt = (n.val : ℤ) then upd (ix2 e k) else 0 := by
  unfold Ideal.hostScatterAdd
  congr 1
  rw [Finset.sum_filter, sum_idx2]
  refine Finset.sum_congr rfl fun e _ => ?_
  simp only [scatter2_resultIdx]
  by_cases h : (idx (ix2 e (0 : Fin 1))).toInt = (n.val : ℤ)
  · simp [h]
  · simp [h]

/-- Accumulating scatter of slabs `[M, B, C]` into a rank-3 table `[N, B, C]`. -/
abbrev scatter3 (N B C M : Nat)
    (wf : ScatterDims.WF ⟨3, ![N, B, C]⟩ ⟨2, ![M, 1]⟩ ⟨3, ![M, B, C]⟩ [1, 2] [0] [0] 1) :
    ScatterDims ⟨3, ![N, B, C]⟩ ⟨2, ![M, 1]⟩ ⟨3, ![M, B, C]⟩ where
  updateWindowDims := [1, 2]
  insertedWindowDims := [0]
  scatterDimsToOperandDims := [0]
  indexVectorDim := 1
  wf := wf

/-- A rank-3 index set is the product of its three coordinate ranges … -/
private def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl
/-- … so a sum over it is the triple sum over the coordinates. -/
private theorem sum_idx3 {A : Type*} [AddCommMonoid A] {n0 n1 n2 : Nat} (f : (⟨3, ![n0, n1, n2]⟩ : Shape).Idx → A) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- An update `(e, b', c)` lands on `(n, b, k)` exactly when its start word, read signed, is `n`, `c = k`
    and `b' = b`. -/
theorem scatter3_resultIdx {N B C M w : Nat}
    (wf : ScatterDims.WF ⟨3, ![N, B, C]⟩ ⟨2, ![M, 1]⟩ ⟨3, ![M, B, C]⟩ [1, 2] [0] [0] 1)
    (idx : IVec ⟨2, ![M, 1]⟩ w) (e : Fin M) (b' : Fin B) (c : Fin C) (n : Fin N) (b : Fin B) (k : Fin C) :
    (scatter3 N B C M wf).resultIdx? (ix3 e b' c) idx = some (ix3 n b k)
      ↔ (idx (ix2 e (0 : Fin 1))).toInt = (n.val : ℤ) ∧ c = k ∧ b' = b := by
  have hs0 : (scatter3 N B C M wf).start (ix3 e b' c) idx (0 : Fin 3) = (idx (ix2 e (0 : Fin 1))).toInt := by
    unfold ScatterDims.start
    rw [dif_pos (show (0 : Fin 3) ∈ (scatter3 N B C M wf).scatterDimsToOperandDims from List.mem_singleton.mpr rfl)]
    have hsi : (scatter3 N B C M wf).siIdx (ix3 e b' c) ⟨List.idxOf (0 : Fin 3) (scatter3 N B C M wf).scatterDimsToOperandDims,
        List.idxOf_lt_length_iff.2 (List.mem_singleton.mpr rfl)⟩ = ix2 e (0 : Fin 1) := by
      funext d; refine Fin.ext ?_
      match d with
      | ⟨0, _⟩ => rfl
      | ⟨1, _⟩ => rfl
    rw [hsi]
  have hw0 : (scatter3 N B C M wf).window (ix3 e b' c) (0 : Fin 3) = 0 := by
    unfold ScatterDims.window
    rw [dif_neg (fun h => (mem_kept _ _).1 h (List.mem_singleton.mpr rfl))]
  have hs1 : (scatter3 N B C M wf).start (ix3 e b' c) idx (1 : Fin 3) = 0 := by
    unfold ScatterDims.start
    rw [dif_neg (fun h => fin3_one_ne_zero (List.mem_singleton.mp h))]
  have hw1 : (scatter3 N B C M wf).window (ix3 e b' c) (1 : Fin 3) = b'.val := by
    unfold ScatterDims.window
    rw [dif_pos (show (1 : Fin 3) ∈ (scatter3 N B C M wf).sKept from
      (mem_kept _ _).2 (fun h => fin3_one_ne_zero (List.mem_singleton.mp h)))]
    rfl
  have hs2 : (scatter3 N B C M wf).start (ix3 e b' c) idx (2 : Fin 3) = 0 := by
    unfold ScatterDims.start
    rw [dif_neg (fun h => fin3_two_ne_zero (List.mem_singleton.mp h))]
  have hw2 : (scatter3 N B C M wf).window (ix3 e b' c) (2 : Fin 3) = c.val := by
    unfold ScatterDims.window
    rw [dif_pos (show (2 : Fin 3) ∈ (scatter3 N B C M wf).sKept from
      (mem_kept _ _).2 (fun h => fin3_two_ne_zero (List.mem_singleton.mp h)))]
    rfl
  rw [resultIdx?_eq_some_iff]
  constructor
  · intro h
    have h0 := h (0 : Fin 3)
    have h1 := h (1 : Fin 3)
    have h2 := h (2 : Fin 3)
    rw [hs0, hw0] at h0
    rw [hs1, hw1] at h1
    rw [hs2, hw2] at h2
    have h0' : (idx (ix2 e (0 : Fin 1))).toInt + ((0 : ℕ) : ℤ) = (n.val : ℤ) := h0
    have h1' : (0 : ℤ) + (b'.val : ℤ) = (b.val : ℤ) := h1
    have h2' : (0 : ℤ) + (c.val : ℤ) = (k.val : ℤ) := h2
    refine ⟨by simpa using h0', Fin.ext ?_, Fin.ext ?_⟩
    · have : (c.val : ℤ) = (k.val : ℤ) := by simpa using h2'
      exact_mod_cast this
    · have : (b'.val : ℤ) = (b.val : ℤ) := by simpa using h1'
      exact_mod_cast this
  · rintro ⟨h0, rfl, rfl⟩ a
    match a with
    | ⟨0, _⟩ =>
      show (scatter3 N B C M wf).start (ix3 e b' c) idx (0 : Fin 3)
        + ((scatter3 N B C M wf).window (ix3 e b' c) (0 : Fin 3) : ℤ) = (n.val : ℤ)
      rw [hs0, hw0, h0]; simp
    | ⟨1, _⟩ =>
      show (scatter3 N B C M wf).start (ix3 e b' c) idx (1 : Fin 3)
        + ((scatter3 N B C M wf).window (ix3 e b' c) (1 : Fin 3) : ℤ) = (b'.val : ℤ)
      rw [hs1, hw1]; simp
    | ⟨2, _⟩ =>
      show (scatter3 N B C M wf).start (ix3 e b' c) idx (2 : Fin 3)
        + ((scatter3 N B C M wf).window (ix3 e b' c) (2 : Fin 3) : ℤ) = (c.val : ℤ)
      rw [hs2, hw2]; simp

/-- The accumulated table at `(n, b, k)`. -/
theorem scatterAdd3_apply {N B C M w : Nat}
    (wf : ScatterDims.WF ⟨3, ![N, B, C]⟩ ⟨2, ![M, 1]⟩ ⟨3, ![M, B, C]⟩ [1, 2] [0] [0] 1)
    (x : (⟨3, ![N, B, C]⟩ : Shape).Idx → EReal) (idx : IVec ⟨2, ![M, 1]⟩ w)
    (upd : (⟨3, ![M, B, C]⟩ : Shape).Idx → EReal) (n : Fin N) (b : Fin B) (k : Fin C) :
    Ideal.hostScatterAdd (scatter3 N B C M wf) x idx upd (ix3 n b k)
      = x (ix3 n b k) + ∑ e : Fin M, if (idx (ix2 e (0 : Fin 1))).toInt = (n.val : ℤ) then upd (ix3 e b k) else 0 := by
  unfold Ideal.hostScatterAdd
  congr 1
  rw [Finset.sum_filter, sum_idx3]
  refine Finset.sum_congr rfl fun e _ => ?_
  simp only [scatter3_resultIdx]
  by_cases h : (idx (ix2 e (0 : Fin 1))).toInt = (n.val : ℤ)
  · simp [h, ite_and]
  · simp [h]

end Cert.Rows

end
-- ==== Proof.LibRows1.lean ====
/-
  Entry-indexed gather and accumulating scatter of a vector, read at an index.

  A vector of `N` entries is gathered at, or accumulated into by, a column of `M` start indices (one signed
  word per entry of the result, respectively of the updates): the dimension numbers are those of `x[idx]`
  and of `segment_sum` on a vector. The gather reads the entry at the start word, read signed and clamped
  into range; the scatter adds to entry `n` the updates `e` whose start word, read signed, is `n`.
-/
import Idealize.ShloMosaic.PureOps.Ideal
import Idealize.ShloMosaic.Lib.ValueIdx

noncomputable section

open scoped BigOperators

namespace Cert.Rows1

open Idealize.ShloMosaic Idealize.ShloMosaic.ValueIdx

/-- An axis is kept exactly when it is not among the removed ones. -/
private theorem kept_iff {s : Shape} (axes : List (Fin s.rank)) (a : Fin s.rank) : a ∈ s.kept axes ↔ a ∉ axes := by
  simp [Shape.kept, List.mem_filter, List.mem_finRange]

/-- A rank-1 index set is its one coordinate range … -/
private def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
private theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-- Gather of single entries of a vector `[N]` at a column `[M, 1]` of start indices. -/
abbrev gather1 (N M : Nat)
    (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- The gather of entries at `e`: the vector at the entry the start word `idx[e, 0]` names, read signed
    and clamped into `[0, N − 1]`. -/
theorem gather1_apply {α : Type} {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (gather1 N M wf) x idx (ix1 e)
      = x (ix1 (⟨min (idx (ix2 e (0 : Fin 1))).toInt.toNat (N - 1), by omega⟩ : Fin N)) := by
  unfold Host.gather
  congr 1
  funext ax
  refine Fin.ext ?_
  match ax with
  | ⟨0, _⟩ =>
    show (gather1 N M wf).start (ix1 e) idx 0 + (gather1 N M wf).batchCoord (ix1 e) 0
      + (gather1 N M wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (gather1 N M wf).startIndexMap from List.mem_singleton.mpr rfl)]
    have hsi : (gather1 N M wf).siIdx (ix1 e) ⟨List.idxOf (0 : Fin 1) (gather1 N M wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

/-- Accumulating scatter of entries `[M]` into a vector `[N]` at a column `[M, 1]` of start indices. -/
abbrev scatter1 (N M : Nat)
    (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- An update lands on index `i` exactly when, on every axis, its start plus its window coordinate is
    `i`'s coordinate. -/
private theorem resultIdx?_some_iff {s si u : Shape} (d : ScatterDims s si u) {w : Nat} (j : u.Idx)
    (idx : IVec si w) (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hf a
      have := congrArg (fun f : s.Idx => ((f a).val : ℤ)) hf
      simp only at this
      rw [← this]; exact (Int.toNat_of_nonneg (h a).1).symm
    · intro hall
      funext a
      refine Fin.ext ?_
      show (d.start j idx a + (d.window j a : ℤ)).toNat = (i a).val
      rw [hall a]; exact Int.toNat_natCast _
  · rename_i h
    constructor
    · intro hh; exact absurd hh (by simp)
    · intro hall; exfalso; apply h; intro a; rw [hall a]
      exact ⟨Int.natCast_nonneg _, by exact_mod_cast (i a).isLt⟩

/-- An update `e` lands on `n` exactly when its start word, read signed, is `n`: the one axis starts at the
    word and has window coordinate 0 (it is an inserted axis). -/
theorem scatter1_resultIdx {N M w : Nat}
    (wf : ScatterDims.WF ⟨1, ![N]⟩ ⟨2, ![M, 1]⟩ ⟨1, ![M]⟩ [] [0] [0] 1)
    (idx : IVec ⟨2, ![M, 1]⟩ w) (e : Fin M) (n : Fin N) :
    (scatter1 N M wf).resultIdx? (ix1 e) idx = some (ix1 n)
      ↔ (idx (ix2 e (0 : Fin 1))).toInt = (n.val : ℤ) := by
  have hs0 : (scatter1 N M wf).start (ix1 e) idx (0 : Fin 1) = (idx (ix2 e (0 : Fin 1))).toInt := by
    unfold ScatterDims.start
    rw [dif_pos (show (0 : Fin 1) ∈ (scatter1 N M wf).scatterDimsToOperandDims from List.mem_singleton.mpr rfl)]
    have hsi : (scatter1 N M wf).siIdx (ix1 e) ⟨List.idxOf (0 : Fin 1) (scatter1 N M wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw0 : (scatter1 N M wf).window (ix1 e) (0 : Fin 1) = 0 := by
    unfold ScatterDims.window
    rw [dif_neg (fun h => (kept_iff _ _).1 h (List.mem_singleton.mpr rfl))]
  rw [resultIdx?_some_iff]
  constructor
  · intro h
    have h0 := h (0 : Fin 1)
    rw [hs0, hw0] at h0
    have h0' : (idx (ix2 e (0 : Fin 1))).toInt + ((0 : ℕ) : ℤ) = (n.val : ℤ) := h0
    simpa using h0'
  · intro h0 a
    match a with
    | ⟨0, _⟩ =>
      show (scatter1 N M wf).start (ix1 e) idx (0 : Fin 1)
        + ((scatter1 N M wf).window (ix1 e) (0 : Fin 1) : ℤ) = (n.val : ℤ)
      rw [hs0, hw0, h0]; simp

/-- The accumulated vector at `n`: the operand there plus the updates `e` whose start word, read signed,
    is `n`. -/
theorem scatterAdd1_apply {N M w : Nat}
    (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w)
    (upd : (⟨1, ![M]⟩ : Shape).Idx → EReal) (n : Fin N) :
    Ideal.hostScatterAdd (scatter1 N M wf) x idx upd (ix1 n)
      = x (ix1 n) + ∑ e : Fin M, if (idx (ix2 e (0 : Fin 1))).toInt = (n.val : ℤ) then upd (ix1 e) else 0 := by
  unfold Ideal.hostScatterAdd
  congr 1
  rw [Finset.sum_filter, sum_idx1]
  refine Finset.sum_congr rfl fun e _ => ?_
  simp only [scatter1_resultIdx]

end Cert.Rows1

end
-- ==== Proof.LibNormSum.lean ====
/-
  Scaling a finite sum on the extended reals.

  Multiplication on the extended reals does not distribute over addition in general (`⊤ + ⊥`), but it does
  when the factor is a nonnegative real. Hence a sum accumulated at a destination and then scaled by the
  destination's factor is the sum of the terms each scaled by the factor of its own destination.
-/
import Idealize.ShloMosaic.PureOps.Ideal

noncomputable section

open scoped BigOperators

namespace Cert.NormSum

open Idealize.ShloMosaic

/-- A nonnegative real factor distributes over a finite sum of extended reals. -/
theorem mul_sum_of_nonneg_real {ι : Type*} (a : EReal) (h0 : 0 ≤ a) (ht : a ≠ ⊤) (s : Finset ι) (f : ι → EReal) :
    a * ∑ i ∈ s, f i = ∑ i ∈ s, a * f i := by
  induction s using Finset.cons_induction with
  | empty => simp
  | cons i s hi ih =>
    rw [Finset.sum_cons, Finset.sum_cons, EReal.left_distrib_of_nonneg_of_ne_top h0 ht, ih]

/-- Scaling the accumulated sum by `a(n)` is accumulating terms scaled by `a` at their own destination,
    when every term that lands on `n` has destination factor `a(n)`. -/
theorem normalized_sum_eq {M : Nat} (an : EReal) (h0 : 0 ≤ an) (ht : an ≠ ⊤) (hit : Fin M → Prop)
    [DecidablePred hit] (h ws wd : Fin M → EReal) (hd : ∀ e, hit e → wd e = an) :
    an * (0 + ∑ e : Fin M, if hit e then h e * ws e else 0)
      = 0 + ∑ e : Fin M, if hit e then h e * (ws e * wd e) else 0 := by
  rw [zero_add, zero_add, mul_sum_of_nonneg_real an h0 ht]
  refine Finset.sum_congr rfl fun e _ => ?_
  by_cases he : hit e
  · rw [if_pos he, if_pos he, hd e he, mul_comm an, mul_assoc]
  · rw [if_neg he, if_neg he, mul_zero]

/-- A finite count, accumulated on the extended reals, is a nonnegative real. -/
theorem count_finset_nonneg_real {ι : Type*} (s : Finset ι) (p : ι → Prop) [DecidablePred p] :
    ∃ r : ℝ, 0 ≤ r ∧ (∑ e ∈ s, if p e then (1 : EReal) else 0) = (r : EReal) := by
  induction s using Finset.cons_induction with
  | empty => exact ⟨0, le_rfl, by simp⟩
  | cons i s hi ih =>
    obtain ⟨r, hr0, hr⟩ := ih
    rw [Finset.sum_cons, hr]
    by_cases hp : p i
    · refine ⟨1 + r, by linarith, ?_⟩
      rw [if_pos hp, EReal.coe_add, EReal.coe_one]
    · refine ⟨r, hr0, ?_⟩
      rw [if_neg hp, zero_add]

/-- The number of indices satisfying `p`, accumulated from zero, is a nonnegative real. -/
theorem count_nonneg_real {M : Nat} (p : Fin M → Prop) [DecidablePred p] :
    ∃ r : ℝ, 0 ≤ r ∧ (0 + ∑ e : Fin M, if p e then (1 : EReal) else 0) = (r : EReal) := by
  rw [zero_add]
  exact count_finset_nonneg_real Finset.univ p

/-- The guarded inverse square root of a nonnegative real is a nonnegative real: zero at zero (the guard
    selects the constant), `1 / √r` at a positive `r`. -/
theorem guarded_rsqrt_nonneg_real (r : ℝ) (hr : 0 ≤ r) :
    ∃ r' : ℝ, 0 ≤ r' ∧
      Scalar.select (Ideal.cmp .ogt (r : EReal) 0) (Ideal.rsqrt (r : EReal)) (0 : EReal) = (r' : EReal) := by
  rcases hr.eq_or_lt with h | h
  · subst h
    refine ⟨0, le_rfl, ?_⟩
    have h0 : Ideal.cmp .ogt ((0 : ℝ) : EReal) 0 ≠ 1 := by
      show BitVec.ofBool (decide ((0 : EReal) < ((0 : ℝ) : EReal))) ≠ 1
      rw [EReal.coe_zero, decide_eq_false (lt_irrefl _)]
      decide
    unfold Scalar.select
    rw [if_neg h0, EReal.coe_zero]
  · refine ⟨(Real.sqrt r)⁻¹, inv_nonneg.2 (Real.sqrt_nonneg r), ?_⟩
    have h1 : Ideal.cmp .ogt (r : EReal) 0 = 1 := by
      show BitVec.ofBool (decide ((0 : EReal) < (r : EReal))) = 1
      rw [decide_eq_true (EReal.coe_pos.2 h)]
      rfl
    unfold Scalar.select
    rw [if_pos h1, Ideal.rsqrt_coe, if_neg (not_lt.2 hr), if_neg h.ne']

end Cert.NormSum

end
-- ==== Proof.LibGraphConv.lean ====
/-
  Normalized neighbourhood sums on a graph, read one entry at a time at the exact (extended-real) values.

  A graph on N nodes is given by M edges; edge e reads the row of its source node and adds it to the row of the
  node it lands on.  With a nonnegative real weight d(n) per node, the normalized sum at node n is
      Σ_{e lands on n}  T(src e) · (d(src e) · d(dst e)),
  where dst e is the node edge e lands on.  Because d(n) is a nonnegative real it may be taken out of the sum:
  scale the source rows by d first, collect them, and scale the collected row by d(n).  The two arrangements are
  equal on the extended reals with no finiteness assumption on T.

  The collection is spelt with a gather of rows at a column of start words followed by an accumulating scatter at
  another column of start words; both are read here at an entry.  A gather reads its start word signed and clamps
  it into range; an update lands on node n exactly when its start word, read signed, is n.
-/
import Idealize.ShloMosaic.PureOps.Ideal
import Idealize.ShloMosaic.Lib.ValueIdx
import proofs.«139803_j23648089931788_2_alg».proof.Proof.LibRows
import proofs.«139803_j23648089931788_2_alg».proof.Proof.LibRows1
import proofs.«139803_j23648089931788_2_alg».proof.Proof.LibNormSum
import proofs.«139803_j23648089931788_2_alg».proof.Proof.LibLogSoftmax

noncomputable section

open scoped BigOperators

namespace Cert.GraphConv

open Idealize.ShloMosaic Idealize.ShloMosaic.ValueIdx

variable {N M : Nat}

/-- The node a start word names when a table is gathered at it: the word read signed, clamped into [0, N − 1]. -/
def nodeOf (hN : 0 < N) {w : Nat} (x : BitVec w) : Fin N := ⟨min x.toInt.toNat (N - 1), by omega⟩

/-- An update lands on node n when its start word, read signed, is n. -/
def lands {w : Nat} (x : BitVec w) (n : Fin N) : Prop := x.toInt = (n.val : ℤ)

instance {w : Nat} (x : BitVec w) (n : Fin N) : Decidable (lands x n) := by unfold lands; infer_instance

/-- A word that lands on n names n when gathered at. -/
theorem nodeOf_of_lands (hN : 0 < N) {w : Nat} (x : BitVec w) (n : Fin N) (h : lands x n) : nodeOf hN x = n := by
  unfold lands at h
  apply Fin.ext
  show min x.toInt.toNat (N - 1) = n.val
  rw [h, Int.toNat_natCast]
  have := n.isLt
  omega

/-- The rows of the source nodes of the edges landing on n, added up from zero. -/
def collect (gs : Fin M → Fin N) (hit : Fin M → Fin N → Prop) [∀ e n, Decidable (hit e n)] {C : Nat}
    (T : Fin N → Fin C → EReal) (n : Fin N) (k : Fin C) : EReal :=
  0 + ∑ e : Fin M, if hit e n then T (gs e) k else 0

/-- The normalized sum: each edge's source row weighted by the weights of its two end nodes. -/
def collectNorm (d : Fin N → EReal) (gs gd : Fin M → Fin N) (hit : Fin M → Fin N → Prop) [∀ e n, Decidable (hit e n)]
    {C : Nat} (T : Fin N → Fin C → EReal) (n : Fin N) (k : Fin C) : EReal :=
  0 + ∑ e : Fin M, if hit e n then T (gs e) k * (d (gs e) * d (gd e)) else 0

/-- Collecting rows scaled at their source and scaling the result at the destination is the normalized sum. -/
theorem collect_scaled_mul (d : Fin N → EReal) (h0 : ∀ n, 0 ≤ d n) (ht : ∀ n, d n ≠ ⊤) (gs gd : Fin M → Fin N)
    (hit : Fin M → Fin N → Prop) [∀ e n, Decidable (hit e n)] (hgd : ∀ e n, hit e n → gd e = n) {C : Nat}
    (T : Fin N → Fin C → EReal) (n : Fin N) (k : Fin C) :
    collect gs hit (fun j q => T j q * d j) n k * d n = collectNorm d gs gd hit T n k := by
  unfold collect collectNorm
  rw [mul_comm]
  exact Cert.NormSum.normalized_sum_eq (d n) (h0 n) (ht n) (fun e => hit e n) (fun e => T (gs e) k) (fun e => d (gs e))
    (fun e => d (gd e)) (fun e he => congrArg d (hgd e n he))

/-! ## The array spellings, read at an entry

The host's accumulating scatter is stated at any dimension record equal to the row-scatter's: at the exact values it
is a sum over the update indices that land on the entry, and a record given by name is identified with the row-scatter's
by its fields, never by evaluating that sum. -/

/-- The host's accumulating scatter at the exact values is the exact sum. -/
theorem host_scatterAdd_ideal {s si u : Shape} {w : Nat} (d : ScatterDims s si u) (x : FVec Ideal s .f32) (idx : IVec si w)
    (upd : FVec Ideal u .f32) : Host.scatterAdd d x idx upd = Ideal.hostScatterAdd d x idx upd := rfl

/-- An accumulating scatter of rows into a table that is zero everywhere, at (n, k): the updates (e, k) of the
    edges landing on n, added up from zero. -/
theorem scatter_rows_apply {C w : Nat} (d : ScatterDims ⟨2, ![N, C]⟩ ⟨2, ![M, 1]⟩ ⟨2, ![M, C]⟩)
    (wfS : ScatterDims.WF ⟨2, ![N, C]⟩ ⟨2, ![M, 1]⟩ ⟨2, ![M, C]⟩ [1] [0] [0] 1) (hd : d = Cert.Rows.scatter2 N C M wfS)
    (Z : FVec Ideal ⟨2, ![N, C]⟩ .f32) (hZ : ∀ i, Z i = 0) (scol : IVec ⟨2, ![M, 1]⟩ w)
    (U : FVec Ideal ⟨2, ![M, C]⟩ .f32) (n : Fin N) (k : Fin C) :
    Host.scatterAdd d Z scol U (ix2 n k)
      = 0 + ∑ e : Fin M, if lands (scol (ix2 e (0 : Fin 1))) n then U (ix2 e k) else 0 := by
  subst hd
  rw [host_scatterAdd_ideal, Cert.Rows.scatterAdd2_apply, hZ]
  rfl

/-- Gathering rows of a table and scattering them into zero, at (n, k): the rows of the named source nodes of the
    edges landing on n, collected. -/
theorem gather_scatter_apply {C w : Nat} (hN : 0 < N)
    (dg : GatherDims ⟨2, ![N, C]⟩ ⟨2, ![M, 1]⟩ ⟨2, ![M, C]⟩)
    (wfG : GatherDims.WF ⟨2, ![N, C]⟩ ⟨2, ![M, 1]⟩ ⟨2, ![M, C]⟩ [1] [0] [] [0] [] 1 ![1, C])
    (hdg : dg = Cert.Rows.gather2 N C M wfG)
    (d : ScatterDims ⟨2, ![N, C]⟩ ⟨2, ![M, 1]⟩ ⟨2, ![M, C]⟩)
    (wfS : ScatterDims.WF ⟨2, ![N, C]⟩ ⟨2, ![M, 1]⟩ ⟨2, ![M, C]⟩ [1] [0] [0] 1) (hd : d = Cert.Rows.scatter2 N C M wfS)
    (H : FVec Ideal ⟨2, ![N, C]⟩ .f32) (Z : FVec Ideal ⟨2, ![N, C]⟩ .f32) (hZ : ∀ i, Z i = 0)
    (gcol scol : IVec ⟨2, ![M, 1]⟩ w) (n : Fin N) (k : Fin C) :
    Host.scatterAdd d Z scol (Host.gather dg H gcol) (ix2 n k)
      = collect (fun e => nodeOf hN (gcol (ix2 e (0 : Fin 1)))) (fun e n => lands (scol (ix2 e (0 : Fin 1))) n)
          (fun j q => H (ix2 j q)) n k := by
  subst hdg
  rw [scatter_rows_apply d wfS hd Z hZ]
  unfold collect
  refine congrArg (fun s : EReal => 0 + s) (Finset.sum_congr rfl fun e _ => ?_)
  rw [Cert.Rows.gather2_apply hN]
  rfl

/-- The count of the edges landing on n, accumulated by a scatter of ones into zero, is a nonnegative real. -/
theorem count_real {w : Nat} (d : ScatterDims ⟨1, ![N]⟩ ⟨2, ![M, 1]⟩ ⟨1, ![M]⟩)
    (wfS : ScatterDims.WF ⟨1, ![N]⟩ ⟨2, ![M, 1]⟩ ⟨1, ![M]⟩ [] [0] [0] 1) (hd : d = Cert.Rows1.scatter1 N M wfS)
    (Z : FVec Ideal ⟨1, ![N]⟩ .f32) (hZ : ∀ i, Z i = 0) (scol : IVec ⟨2, ![M, 1]⟩ w)
    (ones : FVec Ideal ⟨1, ![M]⟩ .f32) (h1 : ∀ i, ones i = 1) (n : Fin N) :
    ∃ r : ℝ, 0 ≤ r ∧ Host.scatterAdd d Z scol ones (ix1 n) = (r : EReal) := by
  subst hd
  have hdeg : Host.scatterAdd (Cert.Rows1.scatter1 N M wfS) Z scol ones (ix1 n)
      = 0 + ∑ e : Fin M, if (scol (ix2 e (0 : Fin 1))).toInt = (n.val : ℤ) then (1 : EReal) else 0 := by
    rw [host_scatterAdd_ideal, Cert.Rows1.scatterAdd1_apply, hZ]
    refine congrArg (fun s : EReal => 0 + s) (Finset.sum_congr rfl fun e _ => ?_)
    rw [h1]
  obtain ⟨r, hr0, hr⟩ := Cert.NormSum.count_nonneg_real (fun e : Fin M => (scol (ix2 e (0 : Fin 1))).toInt = (n.val : ℤ))
  exact ⟨r, hr0, hdeg.trans hr⟩

/-- The guarded inverse square root of a vector, where the vector holds a nonnegative real: a nonnegative real. -/
theorem guarded_rsqrt_real {s : Shape} (D Zb Zc : FVec Ideal s .f32) (hb : ∀ i, Zb i = 0) (hc : ∀ i, Zc i = 0)
    (i : s.Idx) (r : ℝ) (hr : 0 ≤ r) (hD : D i = (r : EReal)) :
    ∃ r' : ℝ, 0 ≤ r' ∧ select (cmpf .ogt D Zb) (Host.rsqrt D) Zc i = (r' : EReal) := by
  show ∃ r' : ℝ, 0 ≤ r' ∧ Scalar.select (Ideal.cmp .ogt (D i) (Zb i)) (Ideal.rsqrt (D i)) (Zc i) = (r' : EReal)
  rw [hD, hb, hc]
  exact Cert.NormSum.guarded_rsqrt_nonneg_real r hr

/-! ## The start words -/

/-- A word that lands on a node is not negative, so moving the negative words up leaves it alone. -/
theorem wrap_of_lands (x z K : BitVec 32) (hz : z = 0#32) (n : Fin N) (h : lands x n) :
    Scalar.select (IntOp.cmpi .slt x z) (IntOp.addi x K) x = x := by
  subst hz
  have hs : x.slt 0#32 = false := by
    unfold lands at h
    unfold BitVec.slt
    rw [h]
    simp
  unfold Scalar.select IntOp.cmpi
  rw [hs]
  rfl

/-- The destination word of an edge, moved up if negative, clamped: for an edge that lands on n it names n. -/
theorem wrapped_node_of_lands (hN : 0 < N) (v z K : IVec ⟨1, ![M]⟩ 32) (hz : ∀ i, z i = 0#32)
    (hb : (⟨1, ![M]⟩ : Shape).BroadcastsInDim (⟨2, ![M, 1]⟩ : Shape) ![0]) (e : Fin M) (n : Fin N)
    (h : lands (broadcastInDim (⟨2, ![M, 1]⟩ : Shape) ![0] hb v (ix2 e (0 : Fin 1))) n) :
    nodeOf hN (broadcastInDim (⟨2, ![M, 1]⟩ : Shape) ![0] hb (select (cmpi .slt v z) (addi v K) v) (ix2 e (0 : Fin 1))) = n := by
  rw [Cert.LogSoftmax.spread_vec_col_apply] at h ⊢
  show nodeOf hN (Scalar.select (IntOp.cmpi .slt (v (ix1 e)) (z (ix1 e))) (IntOp.addi (v (ix1 e)) (K (ix1 e))) (v (ix1 e))) = n
  rw [wrap_of_lands _ _ _ (hz _) n h]
  exact nodeOf_of_lands hN _ n h

/-! ## A layer spelt with per-edge weights -/

/-- The per-edge weight: the weight vector gathered at the edge's source word and at its destination word, multiplied. -/
theorem edge_weight_apply {w : Nat} (hN : 0 < N) (dg : GatherDims ⟨1, ![N]⟩ ⟨2, ![M, 1]⟩ ⟨1, ![M]⟩)
    (wfG1 : GatherDims.WF ⟨1, ![N]⟩ ⟨2, ![M, 1]⟩ ⟨1, ![M]⟩ [] [0] [] [0] [] 1 ![1]) (hdg : dg = Cert.Rows1.gather1 N M wfG1)
    (dv : FVec Ideal ⟨1, ![N]⟩ .f32) (gcol gdcol : IVec ⟨2, ![M, 1]⟩ w) (e : Fin M) :
    mulf (Host.gather dg dv gcol) (Host.gather dg dv gdcol) (ix1 e)
      = dv (ix1 (nodeOf hN (gcol (ix2 e (0 : Fin 1))))) * dv (ix1 (nodeOf hN (gdcol (ix2 e (0 : Fin 1))))) := by
  subst hdg
  rw [mulf_apply, Cert.Rows1.gather1_apply hN, Cert.Rows1.gather1_apply hN]
  rfl

/-- Rows gathered at the sources, each multiplied by its edge's weight spread over the row, scattered into zero: the
    normalized sum, given what the gathered rows and the spread weights read at an edge. -/
theorem norm_layer_apply {C w : Nat} (d : ScatterDims ⟨2, ![N, C]⟩ ⟨2, ![M, 1]⟩ ⟨2, ![M, C]⟩)
    (wfS : ScatterDims.WF ⟨2, ![N, C]⟩ ⟨2, ![M, 1]⟩ ⟨2, ![M, C]⟩ [1] [0] [0] 1) (hd : d = Cert.Rows.scatter2 N C M wfS)
    (Z : FVec Ideal ⟨2, ![N, C]⟩ .f32) (hZ : ∀ i, Z i = 0) (scol : IVec ⟨2, ![M, 1]⟩ w)
    (dw : Fin N → EReal) (gs gd : Fin M → Fin N) (T : Fin N → Fin C → EReal)
    (Ug Un : FVec Ideal ⟨2, ![M, C]⟩ .f32) (hg : ∀ e k, Ug (ix2 e k) = T (gs e) k)
    (hn : ∀ e k, Un (ix2 e k) = dw (gs e) * dw (gd e)) (n : Fin N) (k : Fin C) :
    Host.scatterAdd d Z scol (mulf Ug Un) (ix2 n k)
      = collectNorm dw gs gd (fun e n => lands (scol (ix2 e (0 : Fin 1))) n) T n k := by
  rw [scatter_rows_apply d wfS hd Z hZ]
  unfold collectNorm
  refine congrArg (fun s : EReal => 0 + s) (Finset.sum_congr rfl fun e _ => ?_)
  rw [mulf_apply, hg, hn]

end Cert.GraphConv

end
-- ==== Proof.Network.lean ====
/-
  A three-layer graph convolution network followed by a row-wise log-softmax, one entry at a time.

  On a graph with per-node weights d, a layer sends a table T of node rows to
      conv T b (n, k) = Σ_{e lands on n} T(src e, k) · (d(src e) · d(dst e)) + b(k).
  The network applies  X ↦ conv (X·W1) b1,  h ↦ conv (h·W1) b1,  the rectifier,  h ↦ conv (h·W2) b2,  and takes
  the logarithm of the softmax of every row.
-/
import Idealize.ShloMosaic.PureOps.Ideal
import Idealize.ShloMosaic.Lib.ValueIdx
import proofs.«139803_j23648089931788_2_alg».proof.Proof.LibRowDot
import proofs.«139803_j23648089931788_2_alg».proof.Proof.LibLogSoftmax
import proofs.«139803_j23648089931788_2_alg».proof.Proof.LibGraphConv
import proofs.«139803_j23648089931788_2_alg».proof.Proof.Layers

noncomputable section

open scoped BigOperators

namespace Cert.Gcn

open Idealize.ShloMosaic Idealize.ShloMosaic.ValueIdx Cert.RowDot Cert.GraphConv Cert.Layers

variable {N M : Nat}

section
variable (d : Fin N → EReal) (gs gd : Fin M → Fin N) (hit : Fin M → Fin N → Prop) [∀ e n, Decidable (hit e n)]

/-- One layer: the normalized neighbourhood sum of a table of node rows, plus a bias. -/
def conv {C : Nat} (T : Fin N → Fin C → EReal) (b : Fin C → EReal) (n : Fin N) (k : Fin C) : EReal :=
  collectNorm d gs gd hit T n k + b k

variable (X : (⟨2, ![N, 128]⟩ : Shape).Idx → EReal) (W1 : (⟨2, ![128, 128]⟩ : Shape).Idx → EReal) (b1 : Fin 128 → EReal)
  (W2 : (⟨2, ![128, 64]⟩ : Shape).Idx → EReal) (b2 : Fin 64 → EReal)

/-- The first layer's node rows. -/
def layer1 : Fin N → Fin 128 → EReal := conv d gs gd hit (fun j q => rowDot (rowOf X j) W1 q) b1

/-- The second layer's node rows, before the rectifier. -/
def layer2 : Fin N → Fin 128 → EReal :=
  conv d gs gd hit (fun j q => rowDot (layer1 d gs gd hit X W1 b1 j) W1 q) b1

/-- The third layer's node rows: the logits. -/
def logits : Fin N → Fin 64 → EReal :=
  conv d gs gd hit (fun j q => rowDot (reluRow (layer2 d gs gd hit X W1 b1 j)) W2 q) b2

/-- The network's result: the logarithm of the softmax of every node's logits. -/
def out (n : Fin N) (q : Fin 64) : EReal := Cert.LogSoftmax.logSoftmax (logits d gs gd hit X W1 b1 W2 b2 n) q

/-- A layer computed the other way round: rows scaled at the source, collected, scaled at the destination, plus the
    bias.  The weights are nonnegative reals and an edge that lands on n has destination n. -/
theorem collect_affine_eq_conv (h0 : ∀ n, 0 ≤ d n) (ht : ∀ n, d n ≠ ⊤) (hgd : ∀ e n, hit e n → gd e = n) {C : Nat}
    (T : Fin N → Fin C → EReal) (b : Fin C → EReal) (n : Fin N) (k : Fin C) :
    collect gs hit (fun j q => T j q * d j) n k * d n + b k = conv d gs gd hit T b n k := by
  unfold conv
  rw [collect_scaled_mul d h0 ht gs gd hit hgd]

end

end Cert.Gcn

end
-- ==== Proof.Chase.lean ====
/-
  The idealized kernel's result, one entry at a time: the network's output on the graph the edge list gives.

  Each sweep's result is its row-wise map of the arrays it finds; between two sweeps the rows of the sweep's result
  are gathered at the edges' source nodes and added up at the nodes the edges land on.  A sweep scales its rows by the
  node weights on the way out and the next one scales the collected rows on the way in, so that together they form the
  normalized neighbourhood sum of a layer: the weights are nonnegative reals, which may be moved out of the sum.
-/
import proofs.«139803_j23648089931788_2_alg».proof.Proof.Boundary
import proofs.«139803_j23648089931788_2_alg».proof.Proof.Sweep
import proofs.«139803_j23648089931788_2_alg».proof.Proof.LibGraphConv
import proofs.«139803_j23648089931788_2_alg».proof.Proof.Network
import Idealize.ShloMosaic.Lib.ValueLayout
import Idealize.ShloMosaic.Lib.IdealHost

set_option maxRecDepth 16384

noncomputable section

open scoped BigOperators

namespace Cert.KernelIdeal.Chase

open Cert.KernelIdeal Cert.KernelIdeal.Gen Cert.KernelIdeal.Boundary Cert.KernelIdeal.Sweep
open Idealize.ShloMosaic Idealize.ShloMosaic.TcCoe Idealize.ShloMosaic.ValueIdx Idealize.SL.Sem
open Cert.RowDot Cert.GraphConv Cert.Gcn Cert.Layers

theorem h50000 : 0 < 50000 := by decide

/-! ## The graph and the biases -/

section
variable (a1 : IVec S2x800000 32)

/-- The weight of node j. -/
def wt (j : Fin 50000) : EReal := weight a1 (ix1 j)
/-- The source node of edge e. -/
def gs (e : Fin 850000) : Fin 50000 := nodeOf h50000 (gatherCol (srcVec a1) (ix2 e (0 : Fin 1)))
/-- The destination node of edge e, as a gather would read it. -/
def gd (e : Fin 850000) : Fin 50000 := nodeOf h50000 (gatherCol (dstVec a1) (ix2 e (0 : Fin 1)))
/-- Edge e lands on node n. -/
def hit (e : Fin 850000) (n : Fin 50000) : Prop := lands (scatterCol (dstVec a1) (ix2 e (0 : Fin 1))) n
instance (e : Fin 850000) (n : Fin 50000) : Decidable (hit a1 e n) :=
  inferInstanceAs (Decidable (lands (scatterCol (dstVec a1) (ix2 e (0 : Fin 1))) n))
def bias1 (a3 : FVec Ideal S128 .f32) (k : Fin 128) : EReal := a3 (ix1 k)
def bias2 (a5 : FVec Ideal S64 .f32) (k : Fin 64) : EReal := a5 (ix1 k)

/-- The degree of a node is a nonnegative real. -/
theorem degree_real (j : Fin 50000) : ∃ r : ℝ, 0 ≤ r ∧ degree a1 (ix1 j) = (r : EReal) :=
  Cert.GraphConv.count_real scatter_S50000_S850000x1_S850000_n_0_0_1 scatter_S50000_S850000x1_S850000_n_0_0_1_wf rfl
    (broadcastInDim S50000 ![] bcast_S_S50000 (constant S_ .f32 0x00000000#32)) (fun i => Ideal.ofBits_zero_f32)
    (scatterCol (dstVec a1)) (broadcastInDim S850000 ![] bcast_S_S850000 (constant S_ .f32 0x3F800000#32))
    (fun i => Ideal.ofBits_one_f32) j

/-- The weights are nonnegative reals. -/
theorem wt_real (j : Fin 50000) : ∃ r : ℝ, 0 ≤ r ∧ wt a1 j = (r : EReal) := by
  obtain ⟨r, hr, e⟩ := degree_real a1 j
  exact Cert.GraphConv.guarded_rsqrt_real (degree a1) _ _ (fun i => Ideal.ofBits_zero_f32) (fun i => Ideal.ofBits_zero_f32)
    (ix1 j) r hr e

theorem wt_nonneg (j : Fin 50000) : 0 ≤ wt a1 j := by
  obtain ⟨r, hr, e⟩ := wt_real a1 j
  rw [e]; exact_mod_cast hr

theorem wt_ne_top (j : Fin 50000) : wt a1 j ≠ ⊤ := by
  obtain ⟨r, hr, e⟩ := wt_real a1 j
  rw [e]; exact EReal.coe_ne_top r

/-- An edge that lands on n has destination n. -/
theorem gd_of_hit (e : Fin 850000) (n : Fin 50000) (h : hit a1 e n) : gd a1 e = n :=
  wrapped_node_of_lands h50000 (dstVec a1) _ _ (fun i => rfl) bcast_S850000_S850000x1_0 e n h

/-- The weight column reads the node's weight. -/
theorem weightCol_apply (n : Fin 50000) : weightCol a1 (ix2 n (0 : Fin 1)) = wt a1 n :=
  Cert.LogSoftmax.spread_vec_col_apply _ _ n 0

/-- Gathering the rows of a 128-wide table at the sources and adding them up where the edges land. -/
theorem aggregate128_apply (H : FVec Ideal S50000x128 .f32) (n : Fin 50000) (k : Fin 128) :
    Host.scatterAdd scatter_S50000x128_S850000x1_S850000x128_1_0_0_1
        (broadcastInDim S50000x128 ![] bcast_S_S50000x128 (constant S_ .f32 0x00000000#32)) (scatterCol (dstVec a1))
        (Host.gather gather_S50000x128_S850000x1_S850000x128_1_0_n_n_0_1_1128 H (gatherCol (srcVec a1))) (ix2 n k)
      = collect (gs a1) (hit a1) (fun j q => H (ix2 j q)) n k :=
  gather_scatter_apply h50000 gather_S50000x128_S850000x1_S850000x128_1_0_n_n_0_1_1128 gather_S50000x128_S850000x1_S850000x128_1_0_n_n_0_1_1128_wf rfl scatter_S50000x128_S850000x1_S850000x128_1_0_0_1 scatter_S50000x128_S850000x1_S850000x128_1_0_0_1_wf rfl H _ (fun i => Ideal.ofBits_zero_f32)
    (gatherCol (srcVec a1)) (scatterCol (dstVec a1)) n k

/-- The same for a 64-wide table. -/
theorem aggregate64_apply (H : FVec Ideal S50000x64 .f32) (n : Fin 50000) (k : Fin 64) :
    Host.scatterAdd scatter_S50000x64_S850000x1_S850000x64_1_0_0_1
        (broadcastInDim S50000x64 ![] bcast_S_S50000x64 (constant S_ .f32 0x00000000#32)) (scatterCol (dstVec a1))
        (Host.gather gather_S50000x64_S850000x1_S850000x64_1_0_n_n_0_1_164 H (gatherCol (srcVec a1))) (ix2 n k)
      = collect (gs a1) (hit a1) (fun j q => H (ix2 j q)) n k :=
  gather_scatter_apply h50000 gather_S50000x64_S850000x1_S850000x64_1_0_n_n_0_1_164 gather_S50000x64_S850000x1_S850000x64_1_0_n_n_0_1_164_wf rfl scatter_S50000x64_S850000x1_S850000x64_1_0_0_1 scatter_S50000x64_S850000x1_S850000x64_1_0_0_1_wf rfl H _ (fun i => Ideal.ofBits_zero_f32)
    (gatherCol (srcVec a1)) (scatterCol (dstVec a1)) n k

end

variable (m : (ℓ : Loc nD τ sig) → Buf (Elt Ideal) ℓ) (ρ : Dev nD → PrngReg) (c : Dev nD)

/-! ## Sweep 0 and the first collection -/

theorem out0 : W4 m ρ c (Proc.devRef .tc main_v18)
    = scaledDot (rowOf (m ((c : Thread nD τ).loc main_arg0))) (m ((c : Thread nD τ).loc main_arg2)) (weightCol (m ((c : Thread nD τ).loc main_arg1))) := by
  refine (W4_arr m ρ c 3).trans ((sweep0 (V3 m ρ) c).trans ?_)
  have e0 : V3 m ρ c main_arg0 = (m ((c : Thread nD τ).loc main_arg0)) := first_arg0 m ρ c
  have e2 : V3 m ρ c main_arg2 = (m ((c : Thread nD τ).loc main_arg2)) := first_arg2 m ρ c
  have e15 : V3 m ρ c main_v15 = weightCol (m ((c : Thread nD τ).loc main_arg1)) := first_weightCol m ρ c
  rw [e0, e2, e15]

theorem agg1 : W5 m ρ c (Proc.devRef .tc main_v28)
    = Host.scatterAdd (F := Ideal) scatter_S50000x128_S850000x1_S850000x128_1_0_0_1
        (broadcastInDim S50000x128 ![] bcast_S_S50000x128 (constant S_ .f32 0x00000000#32)) (scatterCol (dstVec (m ((c : Thread nD τ).loc main_arg1))))
        (Host.gather gather_S50000x128_S850000x1_S850000x128_1_0_n_n_0_1_1128
          (scaledDot (rowOf (m ((c : Thread nD τ).loc main_arg0))) (m ((c : Thread nD τ).loc main_arg2)) (weightCol (m ((c : Thread nD τ).loc main_arg1)))) (gatherCol (srcVec (m ((c : Thread nD τ).loc main_arg1))))) := by
  have e : W5 m ρ c (Proc.devRef .tc main_v28)
      = Host.scatterAdd (F := Ideal) scatter_S50000x128_S850000x1_S850000x128_1_0_0_1
          (broadcastInDim S50000x128 ![] bcast_S_S50000x128 (constant S_ .f32 0x00000000#32))
          (scatterCol (W4 m ρ c (Proc.devRef .tc main_v6)))
          (Host.gather gather_S50000x128_S850000x1_S850000x128_1_0_n_n_0_1_1128 (W4 m ρ c (Proc.devRef .tc main_v18))
            (gatherCol (W4 m ρ c (Proc.devRef .tc main_v3)))) := by
    show StableHlo.after hostOps1 (W4 m ρ c) (Proc.devRef .tc main_v28) = _
    generalize W4 m ρ c = Wg
    after_results
    rfl
  rw [e, out0, (at4_v6 m ρ c).trans (first_dst m ρ c), (at4_v3 m ρ c).trans (first_src m ρ c)]

/-- The affine row sweep 1 starts from is the first layer's row. -/
theorem row1 (n : Fin 50000) : affineRow (V5 m ρ c main_v28) (V5 m ρ c main_v15) (V5 m ρ c main_v16) n = layer1 (wt (m ((c : Thread nD τ).loc main_arg1))) (gs (m ((c : Thread nD τ).loc main_arg1))) (gd (m ((c : Thread nD τ).loc main_arg1))) (hit (m ((c : Thread nD τ).loc main_arg1))) (m ((c : Thread nD τ).loc main_arg0)) (m ((c : Thread nD τ).loc main_arg2)) (bias1 (m ((c : Thread nD τ).loc main_arg3))) n := by
  have e28 : V5 m ρ c main_v28 = _ := agg1 m ρ c
  have e15 : V5 m ρ c main_v15 = weightCol (m ((c : Thread nD τ).loc main_arg1)) := (at5_v15 m ρ c).trans (first_weightCol m ρ c)
  have e16 : V5 m ρ c main_v16 = shapeCast S1x128 (m ((c : Thread nD τ).loc main_arg3)) shapeCasts_S128_S1x128 := (at5_v16 m ρ c).trans (first_bias1 m ρ c)
  funext k
  unfold affineRow
  rw [e28, e15, e16, aggregate128_apply, weightCol_apply, shapeCast_a_1a_apply]
  have et : (fun (j : Fin 50000) (q : Fin 128) => scaledDot (rowOf (m ((c : Thread nD τ).loc main_arg0))) (m ((c : Thread nD τ).loc main_arg2)) (weightCol (m ((c : Thread nD τ).loc main_arg1))) (ix2 j q))
      = fun j q => rowDot (rowOf (m ((c : Thread nD τ).loc main_arg0)) j) (m ((c : Thread nD τ).loc main_arg2)) q * wt (m ((c : Thread nD τ).loc main_arg1)) j :=
    funext fun j => funext fun q => by rw [scaledDot_apply, weightCol_apply]
  rw [et]
  exact collect_affine_eq_conv (wt (m ((c : Thread nD τ).loc main_arg1))) (gs (m ((c : Thread nD τ).loc main_arg1))) (gd (m ((c : Thread nD τ).loc main_arg1))) (hit (m ((c : Thread nD τ).loc main_arg1))) (wt_nonneg (m ((c : Thread nD τ).loc main_arg1))) (wt_ne_top (m ((c : Thread nD τ).loc main_arg1)))
    (gd_of_hit (m ((c : Thread nD τ).loc main_arg1))) (fun j q => rowDot (rowOf (m ((c : Thread nD τ).loc main_arg0)) j) (m ((c : Thread nD τ).loc main_arg2)) q) (bias1 (m ((c : Thread nD τ).loc main_arg3))) n k

/-! ## Sweep 1 and the second collection -/

theorem out1 : W6 m ρ c (Proc.devRef .tc main_v29) = scaledDot (layer1 (wt (m ((c : Thread nD τ).loc main_arg1))) (gs (m ((c : Thread nD τ).loc main_arg1))) (gd (m ((c : Thread nD τ).loc main_arg1))) (hit (m ((c : Thread nD τ).loc main_arg1))) (m ((c : Thread nD τ).loc main_arg0)) (m ((c : Thread nD τ).loc main_arg2)) (bias1 (m ((c : Thread nD τ).loc main_arg3)))) (m ((c : Thread nD τ).loc main_arg2)) (weightCol (m ((c : Thread nD τ).loc main_arg1))) := by
  refine (W6_arr m ρ c 4).trans ((sweep1 (V5 m ρ) c).trans ?_)
  have e2 : V5 m ρ c main_arg2 = (m ((c : Thread nD τ).loc main_arg2)) := (at5_arg2 m ρ c).trans (first_arg2 m ρ c)
  have e15 : V5 m ρ c main_v15 = weightCol (m ((c : Thread nD τ).loc main_arg1)) := (at5_v15 m ρ c).trans (first_weightCol m ρ c)
  have er : affineRow (V5 m ρ c main_v28) (V5 m ρ c main_v15) (V5 m ρ c main_v16) = layer1 (wt (m ((c : Thread nD τ).loc main_arg1))) (gs (m ((c : Thread nD τ).loc main_arg1))) (gd (m ((c : Thread nD τ).loc main_arg1))) (hit (m ((c : Thread nD τ).loc main_arg1))) (m ((c : Thread nD τ).loc main_arg0)) (m ((c : Thread nD τ).loc main_arg2)) (bias1 (m ((c : Thread nD τ).loc main_arg3))) := funext fun n => row1 m ρ c n
  rw [er, e2, e15]

theorem agg2 : W7 m ρ c (Proc.devRef .tc main_v39)
    = Host.scatterAdd (F := Ideal) scatter_S50000x128_S850000x1_S850000x128_1_0_0_1
        (broadcastInDim S50000x128 ![] bcast_S_S50000x128 (constant S_ .f32 0x00000000#32)) (scatterCol (dstVec (m ((c : Thread nD τ).loc main_arg1))))
        (Host.gather gather_S50000x128_S850000x1_S850000x128_1_0_n_n_0_1_1128
          (scaledDot (layer1 (wt (m ((c : Thread nD τ).loc main_arg1))) (gs (m ((c : Thread nD τ).loc main_arg1))) (gd (m ((c : Thread nD τ).loc main_arg1))) (hit (m ((c : Thread nD τ).loc main_arg1))) (m ((c : Thread nD τ).loc main_arg0)) (m ((c : Thread nD τ).loc main_arg2)) (bias1 (m ((c : Thread nD τ).loc main_arg3)))) (m ((c : Thread nD τ).loc main_arg2)) (weightCol (m ((c : Thread nD τ).loc main_arg1)))) (gatherCol (srcVec (m ((c : Thread nD τ).loc main_arg1))))) := by
  have e : W7 m ρ c (Proc.devRef .tc main_v39)
      = Host.scatterAdd (F := Ideal) scatter_S50000x128_S850000x1_S850000x128_1_0_0_1
          (broadcastInDim S50000x128 ![] bcast_S_S50000x128 (constant S_ .f32 0x00000000#32))
          (scatterCol (W6 m ρ c (Proc.devRef .tc main_v6)))
          (Host.gather gather_S50000x128_S850000x1_S850000x128_1_0_n_n_0_1_1128 (W6 m ρ c (Proc.devRef .tc main_v29))
            (gatherCol (W6 m ρ c (Proc.devRef .tc main_v3)))) := by
    show StableHlo.after hostOps2 (W6 m ρ c) (Proc.devRef .tc main_v39) = _
    generalize W6 m ρ c = Wg
    after_results
    rfl
  rw [e, out1, (at6_v6 m ρ c).trans (first_dst m ρ c), (at6_v3 m ρ c).trans (first_src m ρ c)]

theorem row2 (n : Fin 50000) : affineRow (V7 m ρ c main_v39) (V7 m ρ c main_v15) (V7 m ρ c main_v16) n = layer2 (wt (m ((c : Thread nD τ).loc main_arg1))) (gs (m ((c : Thread nD τ).loc main_arg1))) (gd (m ((c : Thread nD τ).loc main_arg1))) (hit (m ((c : Thread nD τ).loc main_arg1))) (m ((c : Thread nD τ).loc main_arg0)) (m ((c : Thread nD τ).loc main_arg2)) (bias1 (m ((c : Thread nD τ).loc main_arg3))) n := by
  have e39 : V7 m ρ c main_v39 = _ := agg2 m ρ c
  have e15 : V7 m ρ c main_v15 = weightCol (m ((c : Thread nD τ).loc main_arg1)) := (at7_v15 m ρ c).trans (first_weightCol m ρ c)
  have e16 : V7 m ρ c main_v16 = shapeCast S1x128 (m ((c : Thread nD τ).loc main_arg3)) shapeCasts_S128_S1x128 := (at7_v16 m ρ c).trans (first_bias1 m ρ c)
  funext k
  unfold affineRow
  rw [e39, e15, e16, aggregate128_apply, weightCol_apply, shapeCast_a_1a_apply]
  have et : (fun (j : Fin 50000) (q : Fin 128) => scaledDot (layer1 (wt (m ((c : Thread nD τ).loc main_arg1))) (gs (m ((c : Thread nD τ).loc main_arg1))) (gd (m ((c : Thread nD τ).loc main_arg1))) (hit (m ((c : Thread nD τ).loc main_arg1))) (m ((c : Thread nD τ).loc main_arg0)) (m ((c : Thread nD τ).loc main_arg2)) (bias1 (m ((c : Thread nD τ).loc main_arg3)))) (m ((c : Thread nD τ).loc main_arg2)) (weightCol (m ((c : Thread nD τ).loc main_arg1))) (ix2 j q))
      = fun j q => rowDot (layer1 (wt (m ((c : Thread nD τ).loc main_arg1))) (gs (m ((c : Thread nD τ).loc main_arg1))) (gd (m ((c : Thread nD τ).loc main_arg1))) (hit (m ((c : Thread nD τ).loc main_arg1))) (m ((c : Thread nD τ).loc main_arg0)) (m ((c : Thread nD τ).loc main_arg2)) (bias1 (m ((c : Thread nD τ).loc main_arg3))) j) (m ((c : Thread nD τ).loc main_arg2)) q * wt (m ((c : Thread nD τ).loc main_arg1)) j :=
    funext fun j => funext fun q => by rw [scaledDot_apply, weightCol_apply]
  rw [et]
  exact collect_affine_eq_conv (wt (m ((c : Thread nD τ).loc main_arg1))) (gs (m ((c : Thread nD τ).loc main_arg1))) (gd (m ((c : Thread nD τ).loc main_arg1))) (hit (m ((c : Thread nD τ).loc main_arg1))) (wt_nonneg (m ((c : Thread nD τ).loc main_arg1))) (wt_ne_top (m ((c : Thread nD τ).loc main_arg1)))
    (gd_of_hit (m ((c : Thread nD τ).loc main_arg1))) (fun j q => rowDot (layer1 (wt (m ((c : Thread nD τ).loc main_arg1))) (gs (m ((c : Thread nD τ).loc main_arg1))) (gd (m ((c : Thread nD τ).loc main_arg1))) (hit (m ((c : Thread nD τ).loc main_arg1))) (m ((c : Thread nD τ).loc main_arg0)) (m ((c : Thread nD τ).loc main_arg2)) (bias1 (m ((c : Thread nD τ).loc main_arg3))) j) (m ((c : Thread nD τ).loc main_arg2)) q) (bias1 (m ((c : Thread nD τ).loc main_arg3))) n k

/-! ## Sweep 2 and the third collection -/

theorem out2 : W8 m ρ c (Proc.devRef .tc main_v40)
    = scaledDot (fun n => reluRow (layer2 (wt (m ((c : Thread nD τ).loc main_arg1))) (gs (m ((c : Thread nD τ).loc main_arg1))) (gd (m ((c : Thread nD τ).loc main_arg1))) (hit (m ((c : Thread nD τ).loc main_arg1))) (m ((c : Thread nD τ).loc main_arg0)) (m ((c : Thread nD τ).loc main_arg2)) (bias1 (m ((c : Thread nD τ).loc main_arg3))) n)) (m ((c : Thread nD τ).loc main_arg4)) (weightCol (m ((c : Thread nD τ).loc main_arg1))) := by
  refine (W8_arr m ρ c 4).trans ((sweep2 (V7 m ρ) c).trans ?_)
  have e4 : V7 m ρ c main_arg4 = (m ((c : Thread nD τ).loc main_arg4)) := (at7_arg4 m ρ c).trans (first_arg4 m ρ c)
  have e15 : V7 m ρ c main_v15 = weightCol (m ((c : Thread nD τ).loc main_arg1)) := (at7_v15 m ρ c).trans (first_weightCol m ρ c)
  have er : (fun n => reluRow (affineRow (V7 m ρ c main_v39) (V7 m ρ c main_v15) (V7 m ρ c main_v16) n))
      = fun n => reluRow (layer2 (wt (m ((c : Thread nD τ).loc main_arg1))) (gs (m ((c : Thread nD τ).loc main_arg1))) (gd (m ((c : Thread nD τ).loc main_arg1))) (hit (m ((c : Thread nD τ).loc main_arg1))) (m ((c : Thread nD τ).loc main_arg0)) (m ((c : Thread nD τ).loc main_arg2)) (bias1 (m ((c : Thread nD τ).loc main_arg3))) n) := funext fun n => congrArg reluRow (row2 m ρ c n)
  rw [er, e4, e15]

theorem agg3 : W9 m ρ c (Proc.devRef .tc main_v50)
    = Host.scatterAdd (F := Ideal) scatter_S50000x64_S850000x1_S850000x64_1_0_0_1
        (broadcastInDim S50000x64 ![] bcast_S_S50000x64 (constant S_ .f32 0x00000000#32)) (scatterCol (dstVec (m ((c : Thread nD τ).loc main_arg1))))
        (Host.gather gather_S50000x64_S850000x1_S850000x64_1_0_n_n_0_1_164
          (scaledDot (fun n => reluRow (layer2 (wt (m ((c : Thread nD τ).loc main_arg1))) (gs (m ((c : Thread nD τ).loc main_arg1))) (gd (m ((c : Thread nD τ).loc main_arg1))) (hit (m ((c : Thread nD τ).loc main_arg1))) (m ((c : Thread nD τ).loc main_arg0)) (m ((c : Thread nD τ).loc main_arg2)) (bias1 (m ((c : Thread nD τ).loc main_arg3))) n)) (m ((c : Thread nD τ).loc main_arg4)) (weightCol (m ((c : Thread nD τ).loc main_arg1)))) (gatherCol (srcVec (m ((c : Thread nD τ).loc main_arg1))))) := by
  have e : W9 m ρ c (Proc.devRef .tc main_v50)
      = Host.scatterAdd (F := Ideal) scatter_S50000x64_S850000x1_S850000x64_1_0_0_1
          (broadcastInDim S50000x64 ![] bcast_S_S50000x64 (constant S_ .f32 0x00000000#32))
          (scatterCol (W8 m ρ c (Proc.devRef .tc main_v6)))
          (Host.gather gather_S50000x64_S850000x1_S850000x64_1_0_n_n_0_1_164 (W8 m ρ c (Proc.devRef .tc main_v40))
            (gatherCol (W8 m ρ c (Proc.devRef .tc main_v3)))) := by
    show StableHlo.after hostOps3 (W8 m ρ c) (Proc.devRef .tc main_v50) = _
    generalize W8 m ρ c = Wg
    after_results
    rfl
  rw [e, out2, (at8_v6 m ρ c).trans (first_dst m ρ c), (at8_v3 m ρ c).trans (first_src m ρ c)]

theorem row3 (n : Fin 50000) : affineRow (V9 m ρ c main_v50) (V9 m ρ c main_v15) (V9 m ρ c main_v17) n = logits (wt (m ((c : Thread nD τ).loc main_arg1))) (gs (m ((c : Thread nD τ).loc main_arg1))) (gd (m ((c : Thread nD τ).loc main_arg1))) (hit (m ((c : Thread nD τ).loc main_arg1))) (m ((c : Thread nD τ).loc main_arg0)) (m ((c : Thread nD τ).loc main_arg2)) (bias1 (m ((c : Thread nD τ).loc main_arg3))) (m ((c : Thread nD τ).loc main_arg4)) (bias2 (m ((c : Thread nD τ).loc main_arg5))) n := by
  have e50 : V9 m ρ c main_v50 = _ := agg3 m ρ c
  have e15 : V9 m ρ c main_v15 = weightCol (m ((c : Thread nD τ).loc main_arg1)) := (at9_v15 m ρ c).trans (first_weightCol m ρ c)
  have e17 : V9 m ρ c main_v17 = shapeCast S1x64 (m ((c : Thread nD τ).loc main_arg5)) shapeCasts_S64_S1x64 := (at9_v17 m ρ c).trans (first_bias2 m ρ c)
  funext k
  unfold affineRow
  rw [e50, e15, e17, aggregate64_apply, weightCol_apply, shapeCast_a_1a_apply]
  have et : (fun (j : Fin 50000) (q : Fin 64) => scaledDot (fun n => reluRow (layer2 (wt (m ((c : Thread nD τ).loc main_arg1))) (gs (m ((c : Thread nD τ).loc main_arg1))) (gd (m ((c : Thread nD τ).loc main_arg1))) (hit (m ((c : Thread nD τ).loc main_arg1))) (m ((c : Thread nD τ).loc main_arg0)) (m ((c : Thread nD τ).loc main_arg2)) (bias1 (m ((c : Thread nD τ).loc main_arg3))) n)) (m ((c : Thread nD τ).loc main_arg4)) (weightCol (m ((c : Thread nD τ).loc main_arg1))) (ix2 j q))
      = fun j q => rowDot (reluRow (layer2 (wt (m ((c : Thread nD τ).loc main_arg1))) (gs (m ((c : Thread nD τ).loc main_arg1))) (gd (m ((c : Thread nD τ).loc main_arg1))) (hit (m ((c : Thread nD τ).loc main_arg1))) (m ((c : Thread nD τ).loc main_arg0)) (m ((c : Thread nD τ).loc main_arg2)) (bias1 (m ((c : Thread nD τ).loc main_arg3))) j)) (m ((c : Thread nD τ).loc main_arg4)) q * wt (m ((c : Thread nD τ).loc main_arg1)) j :=
    funext fun j => funext fun q => by rw [scaledDot_apply, weightCol_apply]
  rw [et]
  exact collect_affine_eq_conv (wt (m ((c : Thread nD τ).loc main_arg1))) (gs (m ((c : Thread nD τ).loc main_arg1))) (gd (m ((c : Thread nD τ).loc main_arg1))) (hit (m ((c : Thread nD τ).loc main_arg1))) (wt_nonneg (m ((c : Thread nD τ).loc main_arg1))) (wt_ne_top (m ((c : Thread nD τ).loc main_arg1)))
    (gd_of_hit (m ((c : Thread nD τ).loc main_arg1))) (fun j q => rowDot (reluRow (layer2 (wt (m ((c : Thread nD τ).loc main_arg1))) (gs (m ((c : Thread nD τ).loc main_arg1))) (gd (m ((c : Thread nD τ).loc main_arg1))) (hit (m ((c : Thread nD τ).loc main_arg1))) (m ((c : Thread nD τ).loc main_arg0)) (m ((c : Thread nD τ).loc main_arg2)) (bias1 (m ((c : Thread nD τ).loc main_arg3))) j)) (m ((c : Thread nD τ).loc main_arg4)) q) (bias2 (m ((c : Thread nD τ).loc main_arg5))) n k

/-! ## Sweep 3: the result -/

theorem result_apply (n : Fin 50000) (q : Fin 64) :
    W10 m ρ c (Proc.devRef .tc main_v51) (ix2 n q)
      = out (wt (m ((c : Thread nD τ).loc main_arg1))) (gs (m ((c : Thread nD τ).loc main_arg1))) (gd (m ((c : Thread nD τ).loc main_arg1))) (hit (m ((c : Thread nD τ).loc main_arg1))) (m ((c : Thread nD τ).loc main_arg0)) (m ((c : Thread nD τ).loc main_arg2)) (bias1 (m ((c : Thread nD τ).loc main_arg3))) (m ((c : Thread nD τ).loc main_arg4)) (bias2 (m ((c : Thread nD τ).loc main_arg5))) n q := by
  have e : W10 m ρ c (Proc.devRef .tc main_v51)
      = softRows (affineRow (V9 m ρ c main_v50) (V9 m ρ c main_v15) (V9 m ρ c main_v17)) :=
    (W10_arr m ρ c 3).trans (sweep3 (V9 m ρ) c)
  rw [e, softRows_apply, row3]
  rfl

end Cert.KernelIdeal.Chase

end
-- ==== Proof.RefStages.lean ====
/-
  The reference program's run, stretch by stretch.

  The program is one straight line of 156 whole-array operations.  Cut into five stretches — the edge words, degrees
  and node weights; the three layers; the row-wise log-softmax — each stretch's result is the composition of its
  operations applied to what the stretches before it left, and the buffers an earlier stretch wrote are not written
  again.  Chained, the result buffer ends at the last stage of the composition, as a function of the six arguments.
-/
import proofs.«139803_j23648089931788_2_alg».proof.Proof.RefRead
import Idealize.ShloMosaic.Lib.StableHlo.Run

set_option maxRecDepth 16384

noncomputable section

namespace Cert.ReferenceIdeal.Stages

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

/-- Edge words, degrees, node weights. -/
abbrev opsA : List (HloOp τ sig (Elt F)) :=
  [ nullary main_v0 (iotaInDim S50000 32 0),
    unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    unary main_v10 main_v13 (Host.rsqrt : (⟨S50000, .f32⟩ : BufTy).Contents (Elt F) → (⟨S50000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v12) (TRef.of (T := ⟨S50000, .f32⟩) main_v13) (TRef.of (T := ⟨S50000, .f32⟩) main_call0_v1) (TRef.of (T := ⟨S50000, .f32⟩) main_v14) select ]

/-- The first layer. -/
abbrev opsB1 : List (HloOp τ sig (Elt F)) :=
  [ binary main_arg0 main_arg2 main_v15 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c (constantI S_ 32 0#32),
    unary main_c main_v16 (broadcastInDim S850000 ![] bcast_S_S850000 : (⟨S_, .i32⟩ : BufTy).Contents (Elt F) → (⟨S850000, .i32⟩ : BufTy).Contents (Elt F)),
    binary main_v3 main_v16 main_v17 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v18 (broadcastInDim S850000 ![] bcast_S_S850000 : (⟨S_, .i32⟩ : BufTy).Contents (Elt F) → (⟨S850000, .i32⟩ : BufTy).Contents (Elt F)),
    binary main_v3 main_v18 main_v19 (addi : (⟨S850000, .i32⟩ : BufTy).Contents (Elt F) → (⟨S850000, .i32⟩ : BufTy).Contents (Elt F) → (⟨S850000, .i32⟩ : BufTy).Contents (Elt F)),
    ternary main_v17 main_v19 main_v3 main_v20 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v20 main_v21 (broadcastInDim S850000x1 ![0] bcast_S850000_S850000x1_0 : (⟨S850000, .i32⟩ : BufTy).Contents (Elt F) → (⟨S850000x1, .i32⟩ : BufTy).Contents (Elt F)),
    binary main_v14 main_v21 main_v22 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v23 (broadcastInDim S850000 ![] bcast_S_S850000 : (⟨S_, .i32⟩ : BufTy).Contents (Elt F) → (⟨S850000, .i32⟩ : BufTy).Contents (Elt F)),
    binary main_v6 main_v23 main_v24 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v25 (broadcastInDim S850000 ![] bcast_S_S850000 : (⟨S_, .i32⟩ : BufTy).Contents (Elt F) → (⟨S850000, .i32⟩ : BufTy).Contents (Elt F)),
    binary main_v6 main_v25 main_v26 (addi : (⟨S850000, .i32⟩ : BufTy).Contents (Elt F) → (⟨S850000, .i32⟩ : BufTy).Contents (Elt F) → (⟨S850000, .i32⟩ : BufTy).Contents (Elt F)),
    ternary main_v24 main_v26 main_v6 main_v27 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v27 main_v28 (broadcastInDim S850000x1 ![0] bcast_S850000_S850000x1_0 : (⟨S850000, .i32⟩ : BufTy).Contents (Elt F) → (⟨S850000x1, .i32⟩ : BufTy).Contents (Elt F)),
    binary main_v14 main_v28 main_v29 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v22 main_v29 main_v30 (mulf : (⟨S850000, .f32⟩ : BufTy).Contents (Elt F) → (⟨S850000, .f32⟩ : BufTy).Contents (Elt F) → (⟨S850000, .f32⟩ : BufTy).Contents (Elt F)),
    nullary main_c_6 (constantI S_ 32 0#32),
    unary main_c_6 main_v31 (broadcastInDim S850000 ![] bcast_S_S850000 : (⟨S_, .i32⟩ : BufTy).Contents (Elt F) → (⟨S850000, .i32⟩ : BufTy).Contents (Elt F)),
    binary main_v3 main_v31 main_v32 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v33 (broadcastInDim S850000 ![] bcast_S_S850000 : (⟨S_, .i32⟩ : BufTy).Contents (Elt F) → (⟨S850000, .i32⟩ : BufTy).Contents (Elt F)),
    binary main_v3 main_v33 main_v34 (addi : (⟨S850000, .i32⟩ : BufTy).Contents (Elt F) → (⟨S850000, .i32⟩ : BufTy).Contents (Elt F) → (⟨S850000, .i32⟩ : BufTy).Contents (Elt F)),
    ternary main_v32 main_v34 main_v3 main_v35 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v35 main_v36 (broadcastInDim S850000x1 ![0] bcast_S850000_S850000x1_0 : (⟨S850000, .i32⟩ : BufTy).Contents (Elt F) → (⟨S850000x1, .i32⟩ : BufTy).Contents (Elt F)),
    binary main_v15 main_v36 main_v37 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v30 main_v38 (broadcastInDim S850000x1 ![0] bcast_S850000_S850000x1_0 : (⟨S850000, .f32⟩ : BufTy).Contents (Elt F) → (⟨S850000x1, .f32⟩ : BufTy).Contents (Elt F)),
    unary main_v38 main_v39 (broadcastInDim S850000x128 ![0, 1] bcast_S850000x1_S850000x128_0_1 : (⟨S850000x1, .f32⟩ : BufTy).Contents (Elt F) → (⟨S850000x128, .f32⟩ : BufTy).Contents (Elt F)),
    binary main_v37 main_v39 main_v40 (mulf : (⟨S850000x128, .f32⟩ : BufTy).Contents (Elt F) → (⟨S850000x128, .f32⟩ : BufTy).Contents (Elt F) → (⟨S850000x128, .f32⟩ : BufTy).Contents (Elt F)),
    nullary main_cst_8 (constant S_ .f32 0x00000000#32),
    unary main_cst_8 main_v41 (broadcastInDim S50000x128 ![] bcast_S_S50000x128 : (⟨S_, .f32⟩ : BufTy).Contents (Elt F) → (⟨S50000x128, .f32⟩ : BufTy).Contents (Elt F)),
    unary main_v6 main_v42 (broadcastInDim S850000x1 ![0] bcast_S850000_S850000x1_0 : (⟨S850000, .i32⟩ : BufTy).Contents (Elt F) → (⟨S850000x1, .i32⟩ : BufTy).Contents (Elt F)),
    ternary main_v41 main_v42 main_v40 main_v43 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S50000x128 ![0, 1] bcast_S1x128_S50000x128_0_1 : (⟨S1x128, .f32⟩ : BufTy).Contents (Elt F) → (⟨S50000x128, .f32⟩ : BufTy).Contents (Elt F)),
    binary main_v43 main_v45 main_v46 (addf : (⟨S50000x128, .f32⟩ : BufTy).Contents (Elt F) → (⟨S50000x128, .f32⟩ : BufTy).Contents (Elt F) → (⟨S50000x128, .f32⟩ : BufTy).Contents (Elt F)) ]

/-- The second layer and the rectifier. -/
abbrev opsB2 : List (HloOp τ sig (Elt F)) :=
  [ binary main_v46 main_arg2 main_v47 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_9 (constantI S_ 32 0#32),
    unary main_c_9 main_v48 (broadcastInDim S850000 ![] bcast_S_S850000 : (⟨S_, .i32⟩ : BufTy).Contents (Elt F) → (⟨S850000, .i32⟩ : BufTy).Contents (Elt F)),
    binary main_v3 main_v48 main_v49 (cmpi .slt : (⟨S850000, .i32⟩ : BufTy).Contents (Elt F) → (⟨S850000, .i32⟩ : BufTy).Contents (Elt F) → (⟨S850000, .i1⟩ : BufTy).Contents (Elt F)),
    nullary main_c_10 (constantI S_ 32 50000#32),
    unary main_c_10 main_v50 (broadcastInDim S850000 ![] bcast_S_S850000 : (⟨S_, .i32⟩ : BufTy).Contents (Elt F) → (⟨S850000, .i32⟩ : BufTy).Contents (Elt F)),
    binary main_v3 main_v50 main_v51 (addi : (⟨S850000, .i32⟩ : BufTy).Contents (Elt F) → (⟨S850000, .i32⟩ : BufTy).Contents (Elt F) → (⟨S850000, .i32⟩ : BufTy).Contents (Elt F)),
    ternary main_v49 main_v51 main_v3 main_v52 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v52 main_v53 (broadcastInDim S850000x1 ![0] bcast_S850000_S850000x1_0 : (⟨S850000, .i32⟩ : BufTy).Contents (Elt F) → (⟨S850000x1, .i32⟩ : BufTy).Contents (Elt F)),
    binary main_v14 main_v53 main_v54 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_11 (constantI S_ 32 0#32),
    unary main_c_11 main_v55 (broadcastInDim S850000 ![] bcast_S_S850000 : (⟨S_, .i32⟩ : BufTy).Contents (Elt F) → (⟨S850000, .i32⟩ : BufTy).Contents (Elt F)),
    binary main_v6 main_v55 main_v56 (cmpi .slt : (⟨S850000, .i32⟩ : BufTy).Contents (Elt F) → (⟨S850000, .i32⟩ : BufTy).Contents (Elt F) → (⟨S850000, .i1⟩ : BufTy).Contents (Elt F)),
    nullary main_c_12 (constantI S_ 32 50000#32),
    unary main_c_12 main_v57 (broadcastInDim S850000 ![] bcast_S_S850000 : (⟨S_, .i32⟩ : BufTy).Contents (Elt F) → (⟨S850000, .i32⟩ : BufTy).Contents (Elt F)),
    binary main_v6 main_v57 main_v58 (addi : (⟨S850000, .i32⟩ : BufTy).Contents (Elt F) → (⟨S850000, .i32⟩ : BufTy).Contents (Elt F) → (⟨S850000, .i32⟩ : BufTy).Contents (Elt F)),
    ternary main_v56 main_v58 main_v6 main_v59 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v59 main_v60 (broadcastInDim S850000x1 ![0] bcast_S850000_S850000x1_0 : (⟨S850000, .i32⟩ : BufTy).Contents (Elt F) → (⟨S850000x1, .i32⟩ : BufTy).Contents (Elt F)),
    binary main_v14 main_v60 main_v61 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v54 main_v61 main_v62 (mulf : (⟨S850000, .f32⟩ : BufTy).Contents (Elt F) → (⟨S850000, .f32⟩ : BufTy).Contents (Elt F) → (⟨S850000, .f32⟩ : BufTy).Contents (Elt F)),
    nullary main_c_13 (constantI S_ 32 0#32),
    unary main_c_13 main_v63 (broadcastInDim S850000 ![] bcast_S_S850000 : (⟨S_, .i32⟩ : BufTy).Contents (Elt F) → (⟨S850000, .i32⟩ : BufTy).Contents (Elt F)),
    binary main_v3 main_v63 main_v64 (cmpi .slt : (⟨S850000, .i32⟩ : BufTy).Contents (Elt F) → (⟨S850000, .i32⟩ : BufTy).Contents (Elt F) → (⟨S850000, .i1⟩ : BufTy).Contents (Elt F)),
    nullary main_c_14 (constantI S_ 32 50000#32),
    unary main_c_14 main_v65 (broadcastInDim S850000 ![] bcast_S_S850000 : (⟨S_, .i32⟩ : BufTy).Contents (Elt F) → (⟨S850000, .i32⟩ : BufTy).Contents (Elt F)),
    binary main_v3 main_v65 main_v66 (addi : (⟨S850000, .i32⟩ : BufTy).Contents (Elt F) → (⟨S850000, .i32⟩ : BufTy).Contents (Elt F) → (⟨S850000, .i32⟩ : BufTy).Contents (Elt F)),
    ternary main_v64 main_v66 main_v3 main_v67 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v67 main_v68 (broadcastInDim S850000x1 ![0] bcast_S850000_S850000x1_0 : (⟨S850000, .i32⟩ : BufTy).Contents (Elt F) → (⟨S850000x1, .i32⟩ : BufTy).Contents (Elt F)),
    binary main_v47 main_v68 main_v69 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v62 main_v70 (broadcastInDim S850000x1 ![0] bcast_S850000_S850000x1_0 : (⟨S850000, .f32⟩ : BufTy).Contents (Elt F) → (⟨S850000x1, .f32⟩ : BufTy).Contents (Elt F)),
    unary main_v70 main_v71 (broadcastInDim S850000x128 ![0, 1] bcast_S850000x1_S850000x128_0_1 : (⟨S850000x1, .f32⟩ : BufTy).Contents (Elt F) → (⟨S850000x128, .f32⟩ : BufTy).Contents (Elt F)),
    binary main_v69 main_v71 main_v72 (mulf : (⟨S850000x128, .f32⟩ : BufTy).Contents (Elt F) → (⟨S850000x128, .f32⟩ : BufTy).Contents (Elt F) → (⟨S850000x128, .f32⟩ : BufTy).Contents (Elt F)),
    nullary main_cst_15 (constant S_ .f32 0x00000000#32),
    unary main_cst_15 main_v73 (broadcastInDim S50000x128 ![] bcast_S_S50000x128 : (⟨S_, .f32⟩ : BufTy).Contents (Elt F) → (⟨S50000x128, .f32⟩ : BufTy).Contents (Elt F)),
    unary main_v6 main_v74 (broadcastInDim S850000x1 ![0] bcast_S850000_S850000x1_0 : (⟨S850000, .i32⟩ : BufTy).Contents (Elt F) → (⟨S850000x1, .i32⟩ : BufTy).Contents (Elt F)),
    ternary main_v73 main_v74 main_v72 main_v75 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg3 main_v76 (broadcastInDim S1x128 ![1] bcast_S128_S1x128_1 : (⟨S128, .f32⟩ : BufTy).Contents (Elt F) → (⟨S1x128, .f32⟩ : BufTy).Contents (Elt F)),
    unary main_v76 main_v77 (broadcastInDim S50000x128 ![0, 1] bcast_S1x128_S50000x128_0_1 : (⟨S1x128, .f32⟩ : BufTy).Contents (Elt F) → (⟨S50000x128, .f32⟩ : BufTy).Contents (Elt F)),
    binary main_v75 main_v77 main_v78 (addf : (⟨S50000x128, .f32⟩ : BufTy).Contents (Elt F) → (⟨S50000x128, .f32⟩ : BufTy).Contents (Elt F) → (⟨S50000x128, .f32⟩ : BufTy).Contents (Elt F)),
    nullary main_call1_cst ((constant S_ .f32 0x00000000#32) : (⟨S_, .f32⟩ : BufTy).Contents (Elt F)),
    unary main_call1_cst main_call1_v0 ((broadcastInDim S50000x128 ![] bcast_S_S50000x128) : (⟨S_, .f32⟩ : BufTy).Contents (Elt F) → (⟨S50000x128, .f32⟩ : BufTy).Contents (Elt F)),
    binary main_v78 main_call1_v0 main_v79 (maximumf : (⟨S50000x128, .f32⟩ : BufTy).Contents (Elt F) → (⟨S50000x128, .f32⟩ : BufTy).Contents (Elt F) → (⟨S50000x128, .f32⟩ : BufTy).Contents (Elt F)) ]

/-- The third layer. -/
abbrev opsB3 : List (HloOp τ sig (Elt F)) :=
  [ binary main_v79 main_arg4 main_v80 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    nullary main_c_16 (constantI S_ 32 0#32),
    unary main_c_16 main_v81 (broadcastInDim S850000 ![] bcast_S_S850000 : (⟨S_, .i32⟩ : BufTy).Contents (Elt F) → (⟨S850000, .i32⟩ : BufTy).Contents (Elt F)),
    binary main_v3 main_v81 main_v82 (cmpi .slt : (⟨S850000, .i32⟩ : BufTy).Contents (Elt F) → (⟨S850000, .i32⟩ : BufTy).Contents (Elt F) → (⟨S850000, .i1⟩ : BufTy).Contents (Elt F)),
    nullary main_c_17 (constantI S_ 32 50000#32),
    unary main_c_17 main_v83 (broadcastInDim S850000 ![] bcast_S_S850000 : (⟨S_, .i32⟩ : BufTy).Contents (Elt F) → (⟨S850000, .i32⟩ : BufTy).Contents (Elt F)),
    binary main_v3 main_v83 main_v84 (addi : (⟨S850000, .i32⟩ : BufTy).Contents (Elt F) → (⟨S850000, .i32⟩ : BufTy).Contents (Elt F) → (⟨S850000, .i32⟩ : BufTy).Contents (Elt F)),
    ternary main_v82 main_v84 main_v3 main_v85 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v85 main_v86 (broadcastInDim S850000x1 ![0] bcast_S850000_S850000x1_0 : (⟨S850000, .i32⟩ : BufTy).Contents (Elt F) → (⟨S850000x1, .i32⟩ : BufTy).Contents (Elt F)),
    binary main_v14 main_v86 main_v87 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_18 (constantI S_ 32 0#32),
    unary main_c_18 main_v88 (broadcastInDim S850000 ![] bcast_S_S850000 : (⟨S_, .i32⟩ : BufTy).Contents (Elt F) → (⟨S850000, .i32⟩ : BufTy).Contents (Elt F)),
    binary main_v6 main_v88 main_v89 (cmpi .slt : (⟨S850000, .i32⟩ : BufTy).Contents (Elt F) → (⟨S850000, .i32⟩ : BufTy).Contents (Elt F) → (⟨S850000, .i1⟩ : BufTy).Contents (Elt F)),
    nullary main_c_19 (constantI S_ 32 50000#32),
    unary main_c_19 main_v90 (broadcastInDim S850000 ![] bcast_S_S850000 : (⟨S_, .i32⟩ : BufTy).Contents (Elt F) → (⟨S850000, .i32⟩ : BufTy).Contents (Elt F)),
    binary main_v6 main_v90 main_v91 (addi : (⟨S850000, .i32⟩ : BufTy).Contents (Elt F) → (⟨S850000, .i32⟩ : BufTy).Contents (Elt F) → (⟨S850000, .i32⟩ : BufTy).Contents (Elt F)),
    ternary main_v89 main_v91 main_v6 main_v92 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v92 main_v93 (broadcastInDim S850000x1 ![0] bcast_S850000_S850000x1_0 : (⟨S850000, .i32⟩ : BufTy).Contents (Elt F) → (⟨S850000x1, .i32⟩ : BufTy).Contents (Elt F)),
    binary main_v14 main_v93 main_v94 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v87 main_v94 main_v95 (mulf : (⟨S850000, .f32⟩ : BufTy).Contents (Elt F) → (⟨S850000, .f32⟩ : BufTy).Contents (Elt F) → (⟨S850000, .f32⟩ : BufTy).Contents (Elt F)),
    nullary main_c_20 (constantI S_ 32 0#32),
    unary main_c_20 main_v96 (broadcastInDim S850000 ![] bcast_S_S850000 : (⟨S_, .i32⟩ : BufTy).Contents (Elt F) → (⟨S850000, .i32⟩ : BufTy).Contents (Elt F)),
    binary main_v3 main_v96 main_v97 (cmpi .slt : (⟨S850000, .i32⟩ : BufTy).Contents (Elt F) → (⟨S850000, .i32⟩ : BufTy).Contents (Elt F) → (⟨S850000, .i1⟩ : BufTy).Contents (Elt F)),
    nullary main_c_21 (constantI S_ 32 50000#32),
    unary main_c_21 main_v98 (broadcastInDim S850000 ![] bcast_S_S850000 : (⟨S_, .i32⟩ : BufTy).Contents (Elt F) → (⟨S850000, .i32⟩ : BufTy).Contents (Elt F)),
    binary main_v3 main_v98 main_v99 (addi : (⟨S850000, .i32⟩ : BufTy).Contents (Elt F) → (⟨S850000, .i32⟩ : BufTy).Contents (Elt F) → (⟨S850000, .i32⟩ : BufTy).Contents (Elt F)),
    ternary main_v97 main_v99 main_v3 main_v100 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v100 main_v101 (broadcastInDim S850000x1 ![0] bcast_S850000_S850000x1_0 : (⟨S850000, .i32⟩ : BufTy).Contents (Elt F) → (⟨S850000x1, .i32⟩ : BufTy).Contents (Elt F)),
    binary main_v80 main_v101 main_v102 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    unary main_v95 main_v103 (broadcastInDim S850000x1 ![0] bcast_S850000_S850000x1_0 : (⟨S850000, .f32⟩ : BufTy).Contents (Elt F) → (⟨S850000x1, .f32⟩ : BufTy).Contents (Elt F)),
    unary main_v103 main_v104 (broadcastInDim S850000x64 ![0, 1] bcast_S850000x1_S850000x64_0_1 : (⟨S850000x1, .f32⟩ : BufTy).Contents (Elt F) → (⟨S850000x64, .f32⟩ : BufTy).Contents (Elt F)),
    binary main_v102 main_v104 main_v105 (mulf : (⟨S850000x64, .f32⟩ : BufTy).Contents (Elt F) → (⟨S850000x64, .f32⟩ : BufTy).Contents (Elt F) → (⟨S850000x64, .f32⟩ : BufTy).Contents (Elt F)),
    nullary main_cst_22 (constant S_ .f32 0x00000000#32),
    unary main_cst_22 main_v106 (broadcastInDim S50000x64 ![] bcast_S_S50000x64 : (⟨S_, .f32⟩ : BufTy).Contents (Elt F) → (⟨S50000x64, .f32⟩ : BufTy).Contents (Elt F)),
    unary main_v6 main_v107 (broadcastInDim S850000x1 ![0] bcast_S850000_S850000x1_0 : (⟨S850000, .i32⟩ : BufTy).Contents (Elt F) → (⟨S850000x1, .i32⟩ : BufTy).Contents (Elt F)),
    ternary main_v106 main_v107 main_v105 main_v108 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    unary main_arg5 main_v109 (broadcastInDim S1x64 ![1] bcast_S64_S1x64_1 : (⟨S64, .f32⟩ : BufTy).Contents (Elt F) → (⟨S1x64, .f32⟩ : BufTy).Contents (Elt F)),
    unary main_v109 main_v110 (broadcastInDim S50000x64 ![0, 1] bcast_S1x64_S50000x64_0_1 : (⟨S1x64, .f32⟩ : BufTy).Contents (Elt F) → (⟨S50000x64, .f32⟩ : BufTy).Contents (Elt F)),
    binary main_v108 main_v110 main_v111 (addf : (⟨S50000x64, .f32⟩ : BufTy).Contents (Elt F) → (⟨S50000x64, .f32⟩ : BufTy).Contents (Elt F) → (⟨S50000x64, .f32⟩ : BufTy).Contents (Elt F)) ]

/-- The row-wise log-softmax. -/
abbrev opsC : List (HloOp τ sig (Elt F)) :=
  [ nullary main_call2_cst ((constant S_ .f32 0xFF800000#32) : (⟨S_, .f32⟩ : BufTy).Contents (Elt F)),
    binary main_v111 main_call2_cst main_call2_v0 ((fun x v => Host.reduce FloatOps.maximumf x v reducesTo_S50000x64_S50000_d1 h_S_) : (⟨S50000x64, .f32⟩ : BufTy).Contents (Elt F) → (⟨S_, .f32⟩ : BufTy).Contents (Elt F) → (⟨S50000, .f32⟩ : BufTy).Contents (Elt F)),
    nullary main_call2_cst_0 ((constant S_ .f32 0xFF800000#32) : (⟨S_, .f32⟩ : BufTy).Contents (Elt F)),
    unary main_call2_cst_0 main_call2_v1 ((broadcastInDim S50000 ![] bcast_S_S50000) : (⟨S_, .f32⟩ : BufTy).Contents (Elt F) → (⟨S50000, .f32⟩ : BufTy).Contents (Elt F)),
    binary main_call2_v1 main_call2_v0 main_call2_v2 (maximumf : (⟨S50000, .f32⟩ : BufTy).Contents (Elt F) → (⟨S50000, .f32⟩ : BufTy).Contents (Elt F) → (⟨S50000, .f32⟩ : BufTy).Contents (Elt F)),
    unary main_call2_v2 main_call2_v3 ((broadcastInDim S50000x1 ![0] bcast_S50000_S50000x1_0) : (⟨S50000, .f32⟩ : BufTy).Contents (Elt F) → (⟨S50000x1, .f32⟩ : BufTy).Contents (Elt F)),
    unary main_call2_v3 main_call2_v4 ((broadcastInDim S50000x64 ![0, 1] bcast_S50000x1_S50000x64_0_1) : (⟨S50000x1, .f32⟩ : BufTy).Contents (Elt F) → (⟨S50000x64, .f32⟩ : BufTy).Contents (Elt F)),
    binary main_v111 main_call2_v4 main_call2_v5 (subf : (⟨S50000x64, .f32⟩ : BufTy).Contents (Elt F) → (⟨S50000x64, .f32⟩ : BufTy).Contents (Elt F) → (⟨S50000x64, .f32⟩ : BufTy).Contents (Elt F)),
    unary main_call2_v5 main_call2_v6 (Host.exp : (⟨S50000x64, .f32⟩ : BufTy).Contents (Elt F) → (⟨S50000x64, .f32⟩ : BufTy).Contents (Elt F)),
    nullary main_call2_cst_1 ((constant S_ .f32 0x00000000#32) : (⟨S_, .f32⟩ : BufTy).Contents (Elt F)),
    binary main_call2_v6 main_call2_cst_1 main_call2_v7 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    unary main_call2_v7 main_call2_v8 ((broadcastInDim S50000x1 ![0] bcast_S50000_S50000x1_0) : (⟨S50000, .f32⟩ : BufTy).Contents (Elt F) → (⟨S50000x1, .f32⟩ : BufTy).Contents (Elt F)),
    unary main_call2_v8 main_call2_v9 (Host.log : (⟨S50000x1, .f32⟩ : BufTy).Contents (Elt F) → (⟨S50000x1, .f32⟩ : BufTy).Contents (Elt F)),
    unary main_call2_v9 main_call2_v10 ((broadcastInDim S50000x64 ![0, 1] bcast_S50000x1_S50000x64_0_1) : (⟨S50000x1, .f32⟩ : BufTy).Contents (Elt F) → (⟨S50000x64, .f32⟩ : BufTy).Contents (Elt F)),
    binary main_call2_v5 main_call2_v10 main_v112 (subf : (⟨S50000x64, .f32⟩ : BufTy).Contents (Elt F) → (⟨S50000x64, .f32⟩ : BufTy).Contents (Elt F) → (⟨S50000x64, .f32⟩ : BufTy).Contents (Elt F)) ]

/-- The second layer and the rectifier, the rectifier's three operations spelt at typed references as the program's
    inlined function spells them. -/
abbrev opsB2t : List (HloOp τ sig (Elt F)) :=
  [ binary main_v46 main_arg2 main_v47 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_9 (constantI S_ 32 0#32),
    unary main_c_9 main_v48 (broadcastInDim S850000 ![] bcast_S_S850000 : (⟨S_, .i32⟩ : BufTy).Contents (Elt F) → (⟨S850000, .i32⟩ : BufTy).Contents (Elt F)),
    binary main_v3 main_v48 main_v49 (cmpi .slt : (⟨S850000, .i32⟩ : BufTy).Contents (Elt F) → (⟨S850000, .i32⟩ : BufTy).Contents (Elt F) → (⟨S850000, .i1⟩ : BufTy).Contents (Elt F)),
    nullary main_c_10 (constantI S_ 32 50000#32),
    unary main_c_10 main_v50 (broadcastInDim S850000 ![] bcast_S_S850000 : (⟨S_, .i32⟩ : BufTy).Contents (Elt F) → (⟨S850000, .i32⟩ : BufTy).Contents (Elt F)),
    binary main_v3 main_v50 main_v51 (addi : (⟨S850000, .i32⟩ : BufTy).Contents (Elt F) → (⟨S850000, .i32⟩ : BufTy).Contents (Elt F) → (⟨S850000, .i32⟩ : BufTy).Contents (Elt F)),
    ternary main_v49 main_v51 main_v3 main_v52 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v52 main_v53 (broadcastInDim S850000x1 ![0] bcast_S850000_S850000x1_0 : (⟨S850000, .i32⟩ : BufTy).Contents (Elt F) → (⟨S850000x1, .i32⟩ : BufTy).Contents (Elt F)),
    binary main_v14 main_v53 main_v54 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_11 (constantI S_ 32 0#32),
    unary main_c_11 main_v55 (broadcastInDim S850000 ![] bcast_S_S850000 : (⟨S_, .i32⟩ : BufTy).Contents (Elt F) → (⟨S850000, .i32⟩ : BufTy).Contents (Elt F)),
    binary main_v6 main_v55 main_v56 (cmpi .slt : (⟨S850000, .i32⟩ : BufTy).Contents (Elt F) → (⟨S850000, .i32⟩ : BufTy).Contents (Elt F) → (⟨S850000, .i1⟩ : BufTy).Contents (Elt F)),
    nullary main_c_12 (constantI S_ 32 50000#32),
    unary main_c_12 main_v57 (broadcastInDim S850000 ![] bcast_S_S850000 : (⟨S_, .i32⟩ : BufTy).Contents (Elt F) → (⟨S850000, .i32⟩ : BufTy).Contents (Elt F)),
    binary main_v6 main_v57 main_v58 (addi : (⟨S850000, .i32⟩ : BufTy).Contents (Elt F) → (⟨S850000, .i32⟩ : BufTy).Contents (Elt F) → (⟨S850000, .i32⟩ : BufTy).Contents (Elt F)),
    ternary main_v56 main_v58 main_v6 main_v59 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v59 main_v60 (broadcastInDim S850000x1 ![0] bcast_S850000_S850000x1_0 : (⟨S850000, .i32⟩ : BufTy).Contents (Elt F) → (⟨S850000x1, .i32⟩ : BufTy).Contents (Elt F)),
    binary main_v14 main_v60 main_v61 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v54 main_v61 main_v62 (mulf : (⟨S850000, .f32⟩ : BufTy).Contents (Elt F) → (⟨S850000, .f32⟩ : BufTy).Contents (Elt F) → (⟨S850000, .f32⟩ : BufTy).Contents (Elt F)),
    nullary main_c_13 (constantI S_ 32 0#32),
    unary main_c_13 main_v63 (broadcastInDim S850000 ![] bcast_S_S850000 : (⟨S_, .i32⟩ : BufTy).Contents (Elt F) → (⟨S850000, .i32⟩ : BufTy).Contents (Elt F)),
    binary main_v3 main_v63 main_v64 (cmpi .slt : (⟨S850000, .i32⟩ : BufTy).Contents (Elt F) → (⟨S850000, .i32⟩ : BufTy).Contents (Elt F) → (⟨S850000, .i1⟩ : BufTy).Contents (Elt F)),
    nullary main_c_14 (constantI S_ 32 50000#32),
    unary main_c_14 main_v65 (broadcastInDim S850000 ![] bcast_S_S850000 : (⟨S_, .i32⟩ : BufTy).Contents (Elt F) → (⟨S850000, .i32⟩ : BufTy).Contents (Elt F)),
    binary main_v3 main_v65 main_v66 (addi : (⟨S850000, .i32⟩ : BufTy).Contents (Elt F) → (⟨S850000, .i32⟩ : BufTy).Contents (Elt F) → (⟨S850000, .i32⟩ : BufTy).Contents (Elt F)),
    ternary main_v64 main_v66 main_v3 main_v67 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v67 main_v68 (broadcastInDim S850000x1 ![0] bcast_S850000_S850000x1_0 : (⟨S850000, .i32⟩ : BufTy).Contents (Elt F) → (⟨S850000x1, .i32⟩ : BufTy).Contents (Elt F)),
    binary main_v47 main_v68 main_v69 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v62 main_v70 (broadcastInDim S850000x1 ![0] bcast_S850000_S850000x1_0 : (⟨S850000, .f32⟩ : BufTy).Contents (Elt F) → (⟨S850000x1, .f32⟩ : BufTy).Contents (Elt F)),
    unary main_v70 main_v71 (broadcastInDim S850000x128 ![0, 1] bcast_S850000x1_S850000x128_0_1 : (⟨S850000x1, .f32⟩ : BufTy).Contents (Elt F) → (⟨S850000x128, .f32⟩ : BufTy).Contents (Elt F)),
    binary main_v69 main_v71 main_v72 (mulf : (⟨S850000x128, .f32⟩ : BufTy).Contents (Elt F) → (⟨S850000x128, .f32⟩ : BufTy).Contents (Elt F) → (⟨S850000x128, .f32⟩ : BufTy).Contents (Elt F)),
    nullary main_cst_15 (constant S_ .f32 0x00000000#32),
    unary main_cst_15 main_v73 (broadcastInDim S50000x128 ![] bcast_S_S50000x128 : (⟨S_, .f32⟩ : BufTy).Contents (Elt F) → (⟨S50000x128, .f32⟩ : BufTy).Contents (Elt F)),
    unary main_v6 main_v74 (broadcastInDim S850000x1 ![0] bcast_S850000_S850000x1_0 : (⟨S850000, .i32⟩ : BufTy).Contents (Elt F) → (⟨S850000x1, .i32⟩ : BufTy).Contents (Elt F)),
    ternary main_v73 main_v74 main_v72 main_v75 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg3 main_v76 (broadcastInDim S1x128 ![1] bcast_S128_S1x128_1 : (⟨S128, .f32⟩ : BufTy).Contents (Elt F) → (⟨S1x128, .f32⟩ : BufTy).Contents (Elt F)),
    unary main_v76 main_v77 (broadcastInDim S50000x128 ![0, 1] bcast_S1x128_S50000x128_0_1 : (⟨S1x128, .f32⟩ : BufTy).Contents (Elt F) → (⟨S50000x128, .f32⟩ : BufTy).Contents (Elt F)),
    binary main_v75 main_v77 main_v78 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v78) (TRef.of (T := ⟨S50000x128, .f32⟩) main_call1_v0) (TRef.of (T := ⟨S50000x128, .f32⟩) main_v79) maximumf ]

/-- The row-wise log-softmax, spelt at typed references as the program's inlined function spells it. -/
abbrev opsCt : List (HloOp τ sig (Elt F)) :=
  [ TRef.nullary (TRef.of (T := ⟨S_, .f32⟩) main_call2_cst) (constant S_ .f32 0xFF800000#32),
    TRef.binary (TRef.of (T := ⟨S50000x64, .f32⟩) main_v111) (TRef.of (T := ⟨S_, .f32⟩) main_call2_cst) (TRef.of (T := ⟨S50000, .f32⟩) main_call2_v0) (fun x v => Host.reduce FloatOps.maximumf x v reducesTo_S50000x64_S50000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S50000, .f32⟩) main_call2_v1) (broadcastInDim S50000 ![] bcast_S_S50000),
    TRef.binary (TRef.of (T := ⟨S50000, .f32⟩) main_call2_v1) (TRef.of (T := ⟨S50000, .f32⟩) main_call2_v0) (TRef.of (T := ⟨S50000, .f32⟩) main_call2_v2) maximumf,
    TRef.unary (TRef.of (T := ⟨S50000, .f32⟩) main_call2_v2) (TRef.of (T := ⟨S50000x1, .f32⟩) main_call2_v3) (broadcastInDim S50000x1 ![0] bcast_S50000_S50000x1_0),
    TRef.unary (TRef.of (T := ⟨S50000x1, .f32⟩) main_call2_v3) (TRef.of (T := ⟨S50000x64, .f32⟩) main_call2_v4) (broadcastInDim S50000x64 ![0, 1] bcast_S50000x1_S50000x64_0_1),
    TRef.binary (TRef.of (T := ⟨S50000x64, .f32⟩) main_v111) (TRef.of (T := ⟨S50000x64, .f32⟩) main_call2_v4) (TRef.of (T := ⟨S50000x64, .f32⟩) main_call2_v5) subf,
    TRef.unary (TRef.of (T := ⟨S50000x64, .f32⟩) main_call2_v5) (TRef.of (T := ⟨S50000x64, .f32⟩) main_call2_v6) Host.exp,
    TRef.nullary (TRef.of (T := ⟨S_, .f32⟩) main_call2_cst_1) (constant S_ .f32 0x00000000#32),
    TRef.binary (TRef.of (T := ⟨S50000x64, .f32⟩) main_call2_v6) (TRef.of (T := ⟨S_, .f32⟩) main_call2_cst_1) (TRef.of (T := ⟨S50000, .f32⟩) main_call2_v7) (fun x v => Host.reduceAdd x v reducesTo_S50000x64_S50000_d1 h_S_),
    TRef.unary (TRef.of (T := ⟨S50000, .f32⟩) main_call2_v7) (TRef.of (T := ⟨S50000x1, .f32⟩) main_call2_v8) (broadcastInDim S50000x1 ![0] bcast_S50000_S50000x1_0),
    TRef.unary (TRef.of (T := ⟨S50000x1, .f32⟩) main_call2_v8) (TRef.of (T := ⟨S50000x1, .f32⟩) main_call2_v9) Host.log,
    TRef.unary (TRef.of (T := ⟨S50000x1, .f32⟩) main_call2_v9) (TRef.of (T := ⟨S50000x64, .f32⟩) main_call2_v10) (broadcastInDim S50000x64 ![0, 1] bcast_S50000x1_S50000x64_0_1),
    TRef.binary (TRef.of (T := ⟨S50000x64, .f32⟩) main_call2_v5) (TRef.of (T := ⟨S50000x64, .f32⟩) main_call2_v10) (TRef.of (T := ⟨S50000x64, .f32⟩) main_v112) subf ]

set_option maxRecDepth 100000 in
/-- The five stretches, in order, are the program's line. -/
theorem ops_split_t : (ops : List (HloOp τ sig (Elt F))) = opsA ++ (opsB1 ++ (opsB2t ++ (opsB3 ++ opsCt))) := rfl

set_option maxRecDepth 100000 in
/-- An operation at typed references is the operation at the buffers: the transports are the identity. -/
theorem opsB2t_eq : (opsB2t : List (HloOp τ sig (Elt F))) = opsB2 := rfl

/-- The same for a two-operand operation whatever its function: the function is not looked into. -/
theorem max_reduce_op (f : (⟨S50000x64, .f32⟩ : BufTy).Contents (Elt F) → (⟨S_, .f32⟩ : BufTy).Contents (Elt F) → (⟨S50000, .f32⟩ : BufTy).Contents (Elt F)) :
    (TRef.binary (TRef.of (T := ⟨S50000x64, .f32⟩) main_v111) (TRef.of (T := ⟨S_, .f32⟩) main_call2_cst) (TRef.of (T := ⟨S50000, .f32⟩) main_call2_v0) f : HloOp τ sig (Elt F))
      = binary main_v111 main_call2_cst main_call2_v0 f := rfl

theorem sum_reduce_op (f : (⟨S50000x64, .f32⟩ : BufTy).Contents (Elt F) → (⟨S_, .f32⟩ : BufTy).Contents (Elt F) → (⟨S50000, .f32⟩ : BufTy).Contents (Elt F)) :
    (TRef.binary (TRef.of (T := ⟨S50000x64, .f32⟩) main_call2_v6) (TRef.of (T := ⟨S_, .f32⟩) main_call2_cst_1) (TRef.of (T := ⟨S50000, .f32⟩) main_call2_v7) f : HloOp τ sig (Elt F))
      = binary main_call2_v6 main_call2_cst_1 main_call2_v7 f := rfl

set_option maxRecDepth 100000 in
theorem opsCt_eq : (opsCt : List (HloOp τ sig (Elt F))) = opsC := by
  delta opsCt opsC
  rw [max_reduce_op, sum_reduce_op]
  rfl

theorem ops_split : (ops : List (HloOp τ sig (Elt F))) = opsA ++ (opsB1 ++ (opsB2 ++ (opsB3 ++ opsC))) := by
  rw [ops_split_t, opsB2t_eq, opsCt_eq]

/-- The contents after a line made of two stretches: the second's after the first's. -/
theorem after_append (l1 l2 : List (HloOp τ sig (Elt F))) (V : Valuation τ sig (Elt F)) :
    after (l1 ++ l2) V = after l2 (after l1 V) := by
  induction l1 generalizing V with
  | nil => rfl
  | cons op l ih => exact ih _

/-- A stretch of whole-array operations leaves a buffer none of them writes as it was. -/
macro "unwritten " ops:ident : tactic => `(tactic|
  exact StableHlo.after_of_forall_not_mem _ _ (List.forall_iff_forall_mem.mp (by
    simp only [$ops:ident, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

variable (U : Valuation τ sig (Elt F))

/-! ## What each stretch leaves -/

theorem stageA_src : after opsA U (Proc.devRef .tc main_v3) = val_main_v3 (F := F) (U (Proc.devRef .tc main_arg1)) := by
  after_results
  rfl

theorem stageA_dst : after opsA U (Proc.devRef .tc main_v6) = val_main_v6 (F := F) (U (Proc.devRef .tc main_arg1)) := by
  after_results
  rfl

theorem stageA_weight : after opsA U (Proc.devRef .tc main_v14) = val_main_v14 (F := F) (U (Proc.devRef .tc main_arg1)) := by
  after_results
  rfl

theorem stageA_kept_arg0 : after opsA U (Proc.devRef .tc main_arg0) = U (Proc.devRef .tc main_arg0) := by
  unwritten opsA
theorem stageA_kept_arg2 : after opsA U (Proc.devRef .tc main_arg2) = U (Proc.devRef .tc main_arg2) := by
  unwritten opsA
theorem stageA_kept_arg3 : after opsA U (Proc.devRef .tc main_arg3) = U (Proc.devRef .tc main_arg3) := by
  unwritten opsA
theorem stageA_kept_arg4 : after opsA U (Proc.devRef .tc main_arg4) = U (Proc.devRef .tc main_arg4) := by
  unwritten opsA
theorem stageA_kept_arg5 : after opsA U (Proc.devRef .tc main_arg5) = U (Proc.devRef .tc main_arg5) := by
  unwritten opsA

set_option maxHeartbeats 8000000 in
theorem stageB1 (x0 x1 x2 x3) (h0 : U (Proc.devRef .tc main_arg0) = x0) (h2 : U (Proc.devRef .tc main_arg2) = x2) (h3 : U (Proc.devRef .tc main_arg3) = x3)
    (hs : U (Proc.devRef .tc main_v3) = val_main_v3 (F := F) x1) (hd : U (Proc.devRef .tc main_v6) = val_main_v6 (F := F) x1)
    (hw : U (Proc.devRef .tc main_v14) = val_main_v14 (F := F) x1) :
    after opsB1 U (Proc.devRef .tc main_v46) = val_main_v46 (F := F) x0 x1 x2 x3 := by
  after_results_simp
  simp only [h0, h2, h3, hs, hd, hw]
  rfl

theorem stageB1_kept_v3 : after opsB1 U (Proc.devRef .tc main_v3) = U (Proc.devRef .tc main_v3) := by
  unwritten opsB1
theorem stageB1_kept_v6 : after opsB1 U (Proc.devRef .tc main_v6) = U (Proc.devRef .tc main_v6) := by
  unwritten opsB1
theorem stageB1_kept_v14 : after opsB1 U (Proc.devRef .tc main_v14) = U (Proc.devRef .tc main_v14) := by
  unwritten opsB1
theorem stageB1_kept_arg2 : after opsB1 U (Proc.devRef .tc main_arg2) = U (Proc.devRef .tc main_arg2) := by
  unwritten opsB1
theorem stageB1_kept_arg3 : after opsB1 U (Proc.devRef .tc main_arg3) = U (Proc.devRef .tc main_arg3) := by
  unwritten opsB1
theorem stageB1_kept_arg4 : after opsB1 U (Proc.devRef .tc main_arg4) = U (Proc.devRef .tc main_arg4) := by
  unwritten opsB1
theorem stageB1_kept_arg5 : after opsB1 U (Proc.devRef .tc main_arg5) = U (Proc.devRef .tc main_arg5) := by
  unwritten opsB1

set_option maxHeartbeats 8000000 in
theorem stageB2 (x0 x1 x2 x3) (h46 : U (Proc.devRef .tc main_v46) = val_main_v46 (F := F) x0 x1 x2 x3) (h2 : U (Proc.devRef .tc main_arg2) = x2)
    (h3 : U (Proc.devRef .tc main_arg3) = x3)
    (hs : U (Proc.devRef .tc main_v3) = val_main_v3 (F := F) x1) (hd : U (Proc.devRef .tc main_v6) = val_main_v6 (F := F) x1)
    (hw : U (Proc.devRef .tc main_v14) = val_main_v14 (F := F) x1) :
    after opsB2 U (Proc.devRef .tc main_v79) = val_main_v79 (F := F) x0 x1 x2 x3 := by
  after_results_simp
  simp only [h46, h2, h3, hs, hd, hw]
  rfl

theorem stageB2_kept_v3 : after opsB2 U (Proc.devRef .tc main_v3) = U (Proc.devRef .tc main_v3) := by
  unwritten opsB2
theorem stageB2_kept_v6 : after opsB2 U (Proc.devRef .tc main_v6) = U (Proc.devRef .tc main_v6) := by
  unwritten opsB2
theorem stageB2_kept_v14 : after opsB2 U (Proc.devRef .tc main_v14) = U (Proc.devRef .tc main_v14) := by
  unwritten opsB2
theorem stageB2_kept_arg4 : after opsB2 U (Proc.devRef .tc main_arg4) = U (Proc.devRef .tc main_arg4) := by
  unwritten opsB2
theorem stageB2_kept_arg5 : after opsB2 U (Proc.devRef .tc main_arg5) = U (Proc.devRef .tc main_arg5) := by
  unwritten opsB2

set_option maxHeartbeats 8000000 in
theorem stageB3 (x0 x1 x2 x3 x4 x5) (h79 : U (Proc.devRef .tc main_v79) = val_main_v79 (F := F) x0 x1 x2 x3) (h4 : U (Proc.devRef .tc main_arg4) = x4)
    (h5 : U (Proc.devRef .tc main_arg5) = x5)
    (hs : U (Proc.devRef .tc main_v3) = val_main_v3 (F := F) x1) (hd : U (Proc.devRef .tc main_v6) = val_main_v6 (F := F) x1)
    (hw : U (Proc.devRef .tc main_v14) = val_main_v14 (F := F) x1) :
    after opsB3 U (Proc.devRef .tc main_v111) = val_main_v111 (F := F) x0 x1 x2 x3 x4 x5 := by
  after_results_simp
  simp only [h79, h4, h5, hs, hd, hw]
  rfl

theorem stageC (x0 x1 x2 x3 x4 x5) (h111 : U (Proc.devRef .tc main_v111) = val_main_v111 (F := F) x0 x1 x2 x3 x4 x5) :
    after opsC U (Proc.devRef .tc main_v112) = val_main_v112 (F := F) x0 x1 x2 x3 x4 x5 := by
  after_results
  simp only [h111]
  rfl

/-! ## The whole line -/

/-- The result buffer after the whole line: the last stage of the composition, of the launch contents of the arguments. -/
theorem result_eq :
    after ops U (Proc.devRef .tc main_v112)
      = val_main_v112 (F := F) (U (Proc.devRef .tc main_arg0)) (U (Proc.devRef .tc main_arg1)) (U (Proc.devRef .tc main_arg2)) (U (Proc.devRef .tc main_arg3))
          (U (Proc.devRef .tc main_arg4)) (U (Proc.devRef .tc main_arg5)) := by
  rw [ops_split, after_append, after_append, after_append, after_append]
  have hsA := stageA_src U
  have hdA := stageA_dst U
  have hwA := stageA_weight U
  have hsB1 := (stageB1_kept_v3 (after opsA U)).trans hsA
  have hdB1 := (stageB1_kept_v6 (after opsA U)).trans hdA
  have hwB1 := (stageB1_kept_v14 (after opsA U)).trans hwA
  have hsB2 := (stageB2_kept_v3 (after opsB1 (after opsA U))).trans hsB1
  have hdB2 := (stageB2_kept_v6 (after opsB1 (after opsA U))).trans hdB1
  have hwB2 := (stageB2_kept_v14 (after opsB1 (after opsA U))).trans hwB1
  have h46 := stageB1 (after opsA U) _ _ _ _ (stageA_kept_arg0 U) (stageA_kept_arg2 U) (stageA_kept_arg3 U) hsA hdA hwA
  have h79 := stageB2 (after opsB1 (after opsA U)) _ _ _ _ h46 ((stageB1_kept_arg2 (after opsA U)).trans (stageA_kept_arg2 U))
    ((stageB1_kept_arg3 (after opsA U)).trans (stageA_kept_arg3 U)) hsB1 hdB1 hwB1
  have h111 := stageB3 (after opsB2 (after opsB1 (after opsA U))) _ _ _ _ _ _ h79
    ((stageB2_kept_arg4 (after opsB1 (after opsA U))).trans ((stageB1_kept_arg4 (after opsA U)).trans (stageA_kept_arg4 U)))
    ((stageB2_kept_arg5 (after opsB1 (after opsA U))).trans ((stageB1_kept_arg5 (after opsA U)).trans (stageA_kept_arg5 U)))
    hsB2 hdB2 hwB2
  exact stageC (after opsB3 (after opsB2 (after opsB1 (after opsA U)))) _ _ _ _ _ _ h111

/-- An argument's buffer is written by no operation of the line. -/
theorem arg0_kept : after ops U (Proc.devRef .tc main_arg0) = U (Proc.devRef .tc main_arg0) := by unwritten ops
theorem arg1_kept : after ops U (Proc.devRef .tc main_arg1) = U (Proc.devRef .tc main_arg1) := by unwritten ops
theorem arg2_kept : after ops U (Proc.devRef .tc main_arg2) = U (Proc.devRef .tc main_arg2) := by unwritten ops
theorem arg3_kept : after ops U (Proc.devRef .tc main_arg3) = U (Proc.devRef .tc main_arg3) := by unwritten ops
theorem arg4_kept : after ops U (Proc.devRef .tc main_arg4) = U (Proc.devRef .tc main_arg4) := by unwritten ops
theorem arg5_kept : after ops U (Proc.devRef .tc main_arg5) = U (Proc.devRef .tc main_arg5) := by unwritten ops

/-- On every device, from any memory with zero counters: every weakly fair execution of the reference terminates with
    the result at the last stage of the composition of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v112)
        = val_main_v112 (F := F) (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v112).trans (result_eq _),
      (h c main_arg0).trans (arg0_kept _),
      (h c main_arg1).trans (arg1_kept _),
      (h c main_arg2).trans (arg2_kept _),
      (h c main_arg3).trans (arg3_kept _),
      (h c main_arg4).trans (arg4_kept _),
      (h c main_arg5).trans (arg5_kept _)⟩)
    (run_seq scopedRefs_eq scopedSems_eq defs main (fun _ => ops) main_eq (fun _ => ops_sub) m ρ)

end Cert.ReferenceIdeal.Stages

end
-- ==== Proof.LibRowBias.lean ====
/-
  Adding one row to every row of a matrix, and clamping the sum below, read one entry at a time at the exact
  (extended-real) values.

  For an M×N array A and a length-N vector b the entry (p, q) of "A plus b on every row" is A(p, q) + b(q).  Two
  spellings of it occur: the vector unit's, which keeps b as a 1×N row and spreads that row over the M rows, and the
  host's, which first recasts b as a 1×N row by a broadcast along a new leading axis and then spreads it.  Both are the
  one function `addRow A (asRow b)`, where `asRow b` is b recast as a 1×N row (a reshape: the row-major order of
  [N] and [1, N] is the same).  Clamping below at a constant z is max(·, z) entry by entry; a splat of z and a
  rank-0 constant spread over the array are the same constant array.
-/
import Idealize.ShloMosaic.Lib.ValueIdx
import Idealize.ShloMosaic.Lib.Pipeline.Value
import Idealize.ShloMosaic.PureOps.Ideal

noncomputable section

namespace Cert.RowBias

open Idealize.ShloMosaic Idealize.ShloMosaic.ValueIdx

variable {M N : Nat}

/-- Entry (p, q) of A plus the row b on every row:  A(p, q) + b(0, q). -/
def addRow (A : (⟨2, ![M, N]⟩ : Shape).Idx → EReal) (b : (⟨2, ![1, N]⟩ : Shape).Idx → EReal) :
    (⟨2, ![M, N]⟩ : Shape).Idx → EReal := fun i => A i + b (ix2 0 (i 1))

/-- Entry by entry, max(Y, z). -/
def clampBelow {S : Shape} (z : EReal) (Y : S.Idx → EReal) : S.Idx → EReal := fun i => max (Y i) z

/-- A 1×N row spread over M rows reads, at (p, q), the row at (0, q). -/
theorem spreadRow_apply {α : Type} (b : (⟨2, ![1, N]⟩ : Shape).Idx → α)
    (h : (⟨2, ![1, N]⟩ : Shape).Broadcasts ⟨2, ![M, N]⟩) (j : (⟨2, ![M, N]⟩ : Shape).Idx) :
    broadcastTo ⟨2, ![M, N]⟩ b h j = b (ix2 0 (j 1)) :=
  broadcastTo_apply b h j (ix2 0 (j 1)) (fun a => match a with
    | ⟨0, _⟩ => by show (0 : Nat) = if (1 : Nat) = 1 then 0 else _; rw [if_pos rfl]
    | ⟨1, _⟩ => by
        show (j 1).val = if N = 1 then 0 else (j 1).val
        split
        · have := idx2_lt1 j; omega
        · rfl)

/-- The host's spread of a 1×N row over M rows (both axes kept) reads the row at (0, q). -/
theorem spreadRowInDim_apply {α : Type} (b : (⟨2, ![1, N]⟩ : Shape).Idx → α)
    (h : (⟨2, ![1, N]⟩ : Shape).BroadcastsInDim ⟨2, ![M, N]⟩ ![0, 1]) (j : (⟨2, ![M, N]⟩ : Shape).Idx) :
    broadcastInDim ⟨2, ![M, N]⟩ ![0, 1] h b j = b (ix2 0 (j 1)) :=
  broadcastInDim_apply ![0, 1] h b j (ix2 0 (j 1)) (fun a => match a with
    | ⟨0, _⟩ => by show (0 : Nat) = if (1 : Nat) = 1 then 0 else _; rw [if_pos rfl]
    | ⟨1, _⟩ => by
        show (j 1).val = if N = 1 then 0 else (j 1).val
        split
        · have := idx2_lt1 j; omega
        · rfl)

/-- A length-N vector placed along the second axis of a 1×N row reads, at (0, q), the vector at q. -/
theorem rowInDim_apply {α : Type} (x : (⟨1, ![N]⟩ : Shape).Idx → α)
    (h : (⟨1, ![N]⟩ : Shape).BroadcastsInDim ⟨2, ![1, N]⟩ ![1]) (q : Fin N) :
    broadcastInDim ⟨2, ![1, N]⟩ ![1] h x (ix2 0 q) = x (ix1 q) :=
  broadcastInDim_apply ![1] h x (ix2 0 q) (ix1 q) (fun a => match a with
    | ⟨0, _⟩ => by
        show q.val = if N = 1 then 0 else q.val
        split
        · have := q.isLt; omega
        · rfl)

/-- A length-N vector recast as a 1×N row reads, at (0, q), the vector at q. -/
theorem asRow_apply {α : Type} (x : (⟨1, ![N]⟩ : Shape).Idx → α)
    (h : (⟨1, ![N]⟩ : Shape).ShapeCasts ⟨2, ![1, N]⟩) (q : Fin N) :
    shapeCast ⟨2, ![1, N]⟩ x h (ix2 0 q) = x (ix1 q) := by
  rw [shapeCast_addUnit_apply ![N] x h (ix2 0 q)]
  exact congrArg x (funext fun a => match a with | ⟨0, _⟩ => rfl)

/-- The vector unit's "A plus the row b": the operands recast to their own shapes, the row spread, the sum. -/
theorem addf_spread_eq (A : FVec Ideal (⟨2, ![M, N]⟩ : Shape) .f32) (b : FVec Ideal (⟨2, ![1, N]⟩ : Shape) .f32)
    (hA : (⟨2, ![M, N]⟩ : Shape).ShapeCasts ⟨2, ![M, N]⟩) (hb : (⟨2, ![1, N]⟩ : Shape).ShapeCasts ⟨2, ![1, N]⟩)
    (hB : (⟨2, ![1, N]⟩ : Shape).Broadcasts ⟨2, ![M, N]⟩) :
    addf (shapeCast ⟨2, ![M, N]⟩ A hA) (broadcastTo ⟨2, ![M, N]⟩ (shapeCast ⟨2, ![1, N]⟩ b hb) hB) = addRow A b := by
  rw [shapeCast_self, shapeCast_self]
  funext j
  show FloatOps.addf (A j) (broadcastTo ⟨2, ![M, N]⟩ b hB j) = A j + b (ix2 0 (j 1))
  rw [spreadRow_apply]
  rfl

/-- The host's "A plus the vector x on every row" is "A plus the row" of x recast as a 1×N row. -/
theorem addf_hostSpread_eq (A : FVec Ideal (⟨2, ![M, N]⟩ : Shape) .f32) (x : FVec Ideal (⟨1, ![N]⟩ : Shape) .f32)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    addf A (broadcastInDim ⟨2, ![M, N]⟩ ![0, 1] h2 (broadcastInDim ⟨2, ![1, N]⟩ ![1] h1 x))
      = addRow A (shapeCast ⟨2, ![1, N]⟩ x hc) := by
  funext j
  obtain ⟨p, q, rfl⟩ : ∃ (p : Fin M) (q : Fin N), j = ix2 p q := ⟨j 0, j 1, eq_ix2 j⟩
  show FloatOps.addf (A (ix2 p q))
      (broadcastInDim ⟨2, ![M, N]⟩ ![0, 1] h2 (broadcastInDim ⟨2, ![1, N]⟩ ![1] h1 x) (ix2 p q))
    = A (ix2 p q) + shapeCast ⟨2, ![1, N]⟩ x hc (ix2 0 q)
  rw [spreadRowInDim_apply]
  show FloatOps.addf (A (ix2 p q)) (broadcastInDim ⟨2, ![1, N]⟩ ![1] h1 x (ix2 0 q))
    = A (ix2 p q) + shapeCast ⟨2, ![1, N]⟩ x hc (ix2 0 q)
  rw [rowInDim_apply, asRow_apply]
  rfl

/-- The vector unit's clamp: the maximum with a splat of the constant. -/
theorem maximumf_splat_eq {S : Shape} (Y : FVec Ideal S .f32) (bits : BitVec 32) :
    maximumf Y (broadcast S (Scalar.ofBits (F := Ideal) .f32 bits)) = clampBelow (Ideal.ofBits .f32 bits) Y := rfl

/-- The host's clamp: the maximum with the rank-0 constant spread over the array. -/
theorem maximumf_hostSplat_eq {S : Shape} (Y : FVec Ideal S .f32) (bits : BitVec 32)
    (h : (⟨0, ![]⟩ : Shape).BroadcastsInDim S ![]) :
    maximumf Y (broadcastInDim S ![] h (constant (F := Ideal) ⟨0, ![]⟩ .f32 bits)) = clampBelow (Ideal.ofBits .f32 bits) Y := rfl

end Cert.RowBias

end
-- ==== Proof.RefValue.lean ====
/-
  The reference program's result, one entry at a time: the network's output on the graph the edge list gives.

  Entry (n, q) of the result is the logarithm of the softmax of node n's logits at q.  The node weights, the source
  and destination node of each edge and the edges landing on each node are read off the arrays the program derives
  from the edge list; each layer is the normalized neighbourhood sum of a product with a weight matrix, plus a bias.
-/
import proofs.«139803_j23648089931788_2_alg».proof.Proof.RefRead
import proofs.«139803_j23648089931788_2_alg».proof.Proof.LibGraphConv
import proofs.«139803_j23648089931788_2_alg».proof.Proof.LibRowBias
import proofs.«139803_j23648089931788_2_alg».proof.Proof.Network

set_option maxRecDepth 16384

noncomputable section

open scoped BigOperators

namespace Cert.ReferenceIdeal.RefValue

open Cert.ReferenceIdeal Cert.ReferenceIdeal.Gen Cert.ReferenceIdeal.Read
open Idealize.ShloMosaic Idealize.ShloMosaic.ValueIdx
open Cert.RowDot Cert.GraphConv Cert.Gcn Cert.Layers

theorem h50000 : 0 < 50000 := by decide

variable (x0 : FVec Ideal S50000x128 .f32) (x1 : IVec S2x800000 32) (x2 : FVec Ideal S128x128 .f32)
  (x3 : FVec Ideal S128 .f32) (x4 : FVec Ideal S128x64 .f32) (x5 : FVec Ideal S64 .f32)

/-! ## The graph and the biases -/

/-- The weight of node j. -/
def wt (j : Fin 50000) : EReal := val_main_v14 (F := Ideal) x1 (ix1 j)
/-- The source node of edge e. -/
def gs (e : Fin 850000) : Fin 50000 := nodeOf h50000 (val_main_v21 (F := Ideal) x1 (ix2 e (0 : Fin 1)))
/-- The destination node of edge e, as the weights are gathered at it. -/
def gd (e : Fin 850000) : Fin 50000 := nodeOf h50000 (val_main_v28 (F := Ideal) x1 (ix2 e (0 : Fin 1)))
/-- Edge e lands on node n. -/
def hit (e : Fin 850000) (n : Fin 50000) : Prop := lands (val_main_v42 (F := Ideal) x1 (ix2 e (0 : Fin 1))) n
instance (e : Fin 850000) (n : Fin 50000) : Decidable (hit x1 e n) :=
  inferInstanceAs (Decidable (lands (val_main_v42 (F := Ideal) x1 (ix2 e (0 : Fin 1))) n))
def bias1 (k : Fin 128) : EReal := x3 (ix1 k)
def bias2 (k : Fin 64) : EReal := x5 (ix1 k)

/-! ## The products -/

theorem prod1_apply (j : Fin 50000) (q : Fin 128) :
    val_main_v15 (F := Ideal) x0 x2 (ix2 j q) = rowDot (rowOf x0 j) x2 q := by
  unfold val_main_v15
  exact dotGeneral_plain_apply none _ x0 x2 (ix2 j q)

/-- A bias spread over the node rows reads, at (n, k), the bias at k. -/
theorem bias128_apply (n : Fin 50000) (k : Fin 128) : val_main_v45 (F := Ideal) x3 (ix2 n k) = bias1 x3 k := by
  unfold val_main_v45 val_main_v44
  exact (Cert.RowBias.spreadRowInDim_apply _ _ (ix2 n k)).trans (Cert.RowBias.rowInDim_apply x3 _ k)

theorem bias128'_apply (n : Fin 50000) (k : Fin 128) : val_main_v77 (F := Ideal) x3 (ix2 n k) = bias1 x3 k := by
  unfold val_main_v77 val_main_v76
  exact (Cert.RowBias.spreadRowInDim_apply _ _ (ix2 n k)).trans (Cert.RowBias.rowInDim_apply x3 _ k)

theorem bias64_apply (n : Fin 50000) (k : Fin 64) : val_main_v110 (F := Ideal) x5 (ix2 n k) = bias2 x5 k := by
  unfold val_main_v110 val_main_v109
  exact (Cert.RowBias.spreadRowInDim_apply _ _ (ix2 n k)).trans (Cert.RowBias.rowInDim_apply x5 _ k)

/-! ## The index columns: the program spells each of them once per use -/

theorem col36 : val_main_v36 (F := Ideal) x1 = val_main_v21 (F := Ideal) x1 := rfl
theorem col53 : val_main_v53 (F := Ideal) x1 = val_main_v21 (F := Ideal) x1 := rfl
theorem col68 : val_main_v68 (F := Ideal) x1 = val_main_v21 (F := Ideal) x1 := rfl
theorem col86 : val_main_v86 (F := Ideal) x1 = val_main_v21 (F := Ideal) x1 := rfl
theorem col101 : val_main_v101 (F := Ideal) x1 = val_main_v21 (F := Ideal) x1 := rfl
theorem col60 : val_main_v60 (F := Ideal) x1 = val_main_v28 (F := Ideal) x1 := rfl
theorem col93 : val_main_v93 (F := Ideal) x1 = val_main_v28 (F := Ideal) x1 := rfl
theorem col74 : val_main_v74 (F := Ideal) x1 = val_main_v42 (F := Ideal) x1 := rfl
theorem col107 : val_main_v107 (F := Ideal) x1 = val_main_v42 (F := Ideal) x1 := rfl

/-! ## The per-edge weights -/

theorem norm30 (e : Fin 850000) : val_main_v30 (F := Ideal) x1 (ix1 e) = wt x1 (gs x1 e) * wt x1 (gd x1 e) := by
  unfold val_main_v30 val_main_v22 val_main_v29
  exact edge_weight_apply h50000 gather_S50000_S850000x1_S850000_n_0_n_n_0_1_1 gather_S50000_S850000x1_S850000_n_0_n_n_0_1_1_wf rfl (val_main_v14 (F := Ideal) x1) (val_main_v21 (F := Ideal) x1) (val_main_v28 (F := Ideal) x1) e

theorem norm62 : val_main_v62 (F := Ideal) x1 = val_main_v30 (F := Ideal) x1 := by
  unfold val_main_v62 val_main_v54 val_main_v61 val_main_v30 val_main_v22 val_main_v29
  rw [col53, col60]

theorem norm95 : val_main_v95 (F := Ideal) x1 = val_main_v30 (F := Ideal) x1 := by
  unfold val_main_v95 val_main_v87 val_main_v94 val_main_v30 val_main_v22 val_main_v29
  rw [col86, col93]

theorem spread1 (e : Fin 850000) (k : Fin 128) : val_main_v39 (F := Ideal) x1 (ix2 e k) = wt x1 (gs x1 e) * wt x1 (gd x1 e) := by
  unfold val_main_v39 val_main_v38
  exact ((Cert.LogSoftmax.spread_col_apply _ _ e k).trans (Cert.LogSoftmax.spread_vec_col_apply _ _ e 0)).trans (norm30 x1 e)

theorem spread2 (e : Fin 850000) (k : Fin 128) : val_main_v71 (F := Ideal) x1 (ix2 e k) = wt x1 (gs x1 e) * wt x1 (gd x1 e) := by
  unfold val_main_v71 val_main_v70
  exact ((Cert.LogSoftmax.spread_col_apply _ _ e k).trans (Cert.LogSoftmax.spread_vec_col_apply _ _ e 0)).trans
    ((congrFun (norm62 x1) (ix1 e)).trans (norm30 x1 e))

theorem spread3 (e : Fin 850000) (k : Fin 64) : val_main_v104 (F := Ideal) x1 (ix2 e k) = wt x1 (gs x1 e) * wt x1 (gd x1 e) := by
  unfold val_main_v104 val_main_v103
  exact ((Cert.LogSoftmax.spread_col_apply _ _ e k).trans (Cert.LogSoftmax.spread_vec_col_apply _ _ e 0)).trans
    ((congrFun (norm95 x1) (ix1 e)).trans (norm30 x1 e))

/-! ## The first layer -/

theorem gathered1 (e : Fin 850000) (k : Fin 128) :
    val_main_v37 (F := Ideal) x0 x1 x2 (ix2 e k) = val_main_v15 (F := Ideal) x0 x2 (ix2 (gs x1 e) k) := by
  unfold val_main_v37
  rw [col36]
  exact Cert.Rows.gather2_apply h50000 gather_S50000x128_S850000x1_S850000x128_1_0_n_n_0_1_1128_wf (val_main_v15 (F := Ideal) x0 x2) (val_main_v21 (F := Ideal) x1) e k

theorem sum1_apply (n : Fin 50000) (k : Fin 128) :
    val_main_v43 (F := Ideal) x0 x1 x2 (ix2 n k)
      = collectNorm (wt x1) (gs x1) (gd x1) (hit x1) (fun j q => val_main_v15 (F := Ideal) x0 x2 (ix2 j q)) n k := by
  unfold val_main_v43 val_main_v40
  exact norm_layer_apply scatter_S50000x128_S850000x1_S850000x128_1_0_0_1 scatter_S50000x128_S850000x1_S850000x128_1_0_0_1_wf rfl (val_main_v41 (F := Ideal)) (fun i => Ideal.ofBits_zero_f32) (val_main_v42 (F := Ideal) x1)
    (wt x1) (gs x1) (gd x1) (fun j q => val_main_v15 (F := Ideal) x0 x2 (ix2 j q)) (val_main_v37 (F := Ideal) x0 x1 x2) (val_main_v39 (F := Ideal) x1)
    (gathered1 x0 x1 x2) (spread1 x1) n k

theorem layer1_apply (n : Fin 50000) (k : Fin 128) :
    val_main_v46 (F := Ideal) x0 x1 x2 x3 (ix2 n k)
      = layer1 (wt x1) (gs x1) (gd x1) (hit x1) x0 x2 (bias1 x3) n k := by
  unfold val_main_v46 layer1 conv
  rw [addf_apply, sum1_apply, bias128_apply]
  have e : (fun (j : Fin 50000) (q : Fin 128) => val_main_v15 (F := Ideal) x0 x2 (ix2 j q)) = fun j q => rowDot (rowOf x0 j) x2 q :=
    funext fun j => funext fun q => prod1_apply x0 x2 j q
  rw [e]

/-! ## The second layer and the rectifier -/

theorem prod2_apply (j : Fin 50000) (q : Fin 128) :
    val_main_v47 (F := Ideal) x0 x1 x2 x3 (ix2 j q)
      = rowDot (layer1 (wt x1) (gs x1) (gd x1) (hit x1) x0 x2 (bias1 x3) j) x2 q := by
  unfold val_main_v47
  refine (dotGeneral_plain_apply none _ (val_main_v46 (F := Ideal) x0 x1 x2 x3) x2 (ix2 j q)).trans ?_
  exact congrArg (fun r => rowDot r x2 q) (funext fun k => layer1_apply x0 x1 x2 x3 j k)

theorem gathered2 (e : Fin 850000) (k : Fin 128) :
    val_main_v69 (F := Ideal) x0 x1 x2 x3 (ix2 e k) = val_main_v47 (F := Ideal) x0 x1 x2 x3 (ix2 (gs x1 e) k) := by
  unfold val_main_v69
  rw [col68]
  exact Cert.Rows.gather2_apply h50000 gather_S50000x128_S850000x1_S850000x128_1_0_n_n_0_1_1128_wf (val_main_v47 (F := Ideal) x0 x1 x2 x3) (val_main_v21 (F := Ideal) x1) e k

theorem sum2_apply (n : Fin 50000) (k : Fin 128) :
    val_main_v75 (F := Ideal) x0 x1 x2 x3 (ix2 n k)
      = collectNorm (wt x1) (gs x1) (gd x1) (hit x1) (fun j q => val_main_v47 (F := Ideal) x0 x1 x2 x3 (ix2 j q)) n k := by
  unfold val_main_v75 val_main_v72
  rw [col74]
  exact norm_layer_apply scatter_S50000x128_S850000x1_S850000x128_1_0_0_1 scatter_S50000x128_S850000x1_S850000x128_1_0_0_1_wf rfl (val_main_v73 (F := Ideal)) (fun i => Ideal.ofBits_zero_f32) (val_main_v42 (F := Ideal) x1)
    (wt x1) (gs x1) (gd x1) (fun j q => val_main_v47 (F := Ideal) x0 x1 x2 x3 (ix2 j q)) (val_main_v69 (F := Ideal) x0 x1 x2 x3)
    (val_main_v71 (F := Ideal) x1) (gathered2 x0 x1 x2 x3) (spread2 x1) n k

theorem layer2_apply (n : Fin 50000) (k : Fin 128) :
    val_main_v78 (F := Ideal) x0 x1 x2 x3 (ix2 n k)
      = layer2 (wt x1) (gs x1) (gd x1) (hit x1) x0 x2 (bias1 x3) n k := by
  unfold val_main_v78 layer2 conv
  rw [addf_apply, sum2_apply, bias128'_apply]
  have e : (fun (j : Fin 50000) (q : Fin 128) => val_main_v47 (F := Ideal) x0 x1 x2 x3 (ix2 j q))
      = fun j q => rowDot (layer1 (wt x1) (gs x1) (gd x1) (hit x1) x0 x2 (bias1 x3) j) x2 q :=
    funext fun j => funext fun q => prod2_apply x0 x1 x2 x3 j q
  rw [e]

theorem relu2_apply (n : Fin 50000) (k : Fin 128) :
    val_main_v79 (F := Ideal) x0 x1 x2 x3 (ix2 n k)
      = reluRow (layer2 (wt x1) (gs x1) (gd x1) (hit x1) x0 x2 (bias1 x3) n) k := by
  unfold val_main_v79
  rw [maximumf_apply, layer2_apply]
  rfl

/-! ## The third layer -/

theorem prod3_apply (j : Fin 50000) (q : Fin 64) :
    val_main_v80 (F := Ideal) x0 x1 x2 x3 x4 (ix2 j q)
      = rowDot (reluRow (layer2 (wt x1) (gs x1) (gd x1) (hit x1) x0 x2 (bias1 x3) j)) x4 q := by
  unfold val_main_v80
  refine (dotGeneral_plain_apply none _ (val_main_v79 (F := Ideal) x0 x1 x2 x3) x4 (ix2 j q)).trans ?_
  exact congrArg (fun r => rowDot r x4 q) (funext fun k => relu2_apply x0 x1 x2 x3 j k)

theorem gathered3 (e : Fin 850000) (k : Fin 64) :
    val_main_v102 (F := Ideal) x0 x1 x2 x3 x4 (ix2 e k) = val_main_v80 (F := Ideal) x0 x1 x2 x3 x4 (ix2 (gs x1 e) k) := by
  unfold val_main_v102
  rw [col101]
  exact Cert.Rows.gather2_apply h50000 gather_S50000x64_S850000x1_S850000x64_1_0_n_n_0_1_164_wf (val_main_v80 (F := Ideal) x0 x1 x2 x3 x4) (val_main_v21 (F := Ideal) x1) e k

theorem sum3_apply (n : Fin 50000) (k : Fin 64) :
    val_main_v108 (F := Ideal) x0 x1 x2 x3 x4 (ix2 n k)
      = collectNorm (wt x1) (gs x1) (gd x1) (hit x1) (fun j q => val_main_v80 (F := Ideal) x0 x1 x2 x3 x4 (ix2 j q)) n k := by
  unfold val_main_v108 val_main_v105
  rw [col107]
  exact norm_layer_apply scatter_S50000x64_S850000x1_S850000x64_1_0_0_1 scatter_S50000x64_S850000x1_S850000x64_1_0_0_1_wf rfl (val_main_v106 (F := Ideal)) (fun i => Ideal.ofBits_zero_f32) (val_main_v42 (F := Ideal) x1)
    (wt x1) (gs x1) (gd x1) (fun j q => val_main_v80 (F := Ideal) x0 x1 x2 x3 x4 (ix2 j q)) (val_main_v102 (F := Ideal) x0 x1 x2 x3 x4)
    (val_main_v104 (F := Ideal) x1) (gathered3 x0 x1 x2 x3 x4) (spread3 x1) n k

theorem logits_apply (n : Fin 50000) (k : Fin 64) :
    val_main_v111 (F := Ideal) x0 x1 x2 x3 x4 x5 (ix2 n k)
      = logits (wt x1) (gs x1) (gd x1) (hit x1) x0 x2 (bias1 x3) x4 (bias2 x5) n k := by
  unfold val_main_v111 logits conv
  rw [addf_apply, sum3_apply, bias64_apply]
  have e : (fun (j : Fin 50000) (q : Fin 64) => val_main_v80 (F := Ideal) x0 x1 x2 x3 x4 (ix2 j q))
      = fun j q => rowDot (reluRow (layer2 (wt x1) (gs x1) (gd x1) (hit x1) x0 x2 (bias1 x3) j)) x4 q :=
    funext fun j => funext fun q => prod3_apply x0 x1 x2 x3 x4 j q
  rw [e]

/-! ## The result -/

/-- The last stage is the host's spelling of the row-wise log-softmax of the logits. -/
theorem result_form : val_main_v112 (F := Ideal) x0 x1 x2 x3 x4 x5
    = Cert.LogSoftmax.hostForm (val_main_v111 (F := Ideal) x0 x1 x2 x3 x4 x5) reducesTo_S50000x64_S50000_d1 h_S_
        bcast_S_S50000 bcast_S50000_S50000x1_0 bcast_S50000x1_S50000x64_0_1 := by
  unfold val_main_v112 val_main_call2_v10 val_main_call2_v9 val_main_call2_v8 val_main_call2_v7 val_main_call2_v6
    val_main_call2_v5 val_main_call2_v4 val_main_call2_v3 val_main_call2_v2 val_main_call2_v1 val_main_call2_v0
    val_main_call2_cst val_main_call2_cst_0 val_main_call2_cst_1 Cert.LogSoftmax.hostForm Cert.LogSoftmax.hostShift
  rfl

theorem result_apply (n : Fin 50000) (q : Fin 64) :
    val_main_v112 (F := Ideal) x0 x1 x2 x3 x4 x5 (ix2 n q)
      = out (wt x1) (gs x1) (gd x1) (hit x1) x0 x2 (bias1 x3) x4 (bias2 x5) n q := by
  rw [result_form]
  refine (Cert.LogSoftmax.hostForm_apply (val_main_v111 (F := Ideal) x0 x1 x2 x3 x4 x5) reducesTo_S50000x64_S50000_d1
    (by decide) h_S_ bcast_S_S50000 bcast_S50000_S50000x1_0 bcast_S50000x1_S50000x64_0_1 n q).trans ?_
  unfold out
  exact congrArg (fun f => Cert.LogSoftmax.logSoftmax f q) (funext fun k => logits_apply x0 x1 x2 x3 x4 x5 n k)

end Cert.ReferenceIdeal.RefValue

end
-- ==== Proof.lean ====
/-
  A three-layer graph convolution network with a row-wise log-softmax: the kernel and its reference compute the same
  function at the exact (extended-real) values.

  The graph has 50000 nodes and 850000 edges: the 800000 listed ones and a self loop at every node.  With d(n) the
  inverse square root of the number of edges landing on n (zero where there is none), a layer is
      conv T b (n, k) = Σ_{e lands on n} T(src e, k) · (d(src e) · d(dst e)) + b(k),
  and the network is  log_softmax (conv (relu (conv (conv (X·W1) b1 · W1) b1) · W2) b2)  row by row.

  The reference computes each layer as written: products with the per-edge weight d(src e) · d(dst e), summed where the
  edges land.  The kernel scales the rows of T by d before they are gathered and scales the collected row by d(n)
  after: its four grid sweeps do the products with W1, W1, W2 and the final log-softmax, each fused with the scaling by
  d on the way in and on the way out, and plain gathers and scatter-adds move the rows along the edges in between.
  The two agree because d(n) is a nonnegative real, which distributes over the sum on the extended reals, and an edge
  that lands on n has destination n; no finiteness of the inputs is used.  A start word is read the same way in both
  programs: signed and clamped by a gather, signed and dropped when out of range by a scatter.

  The kernel's run is the generated frame's, with the result buffer named; each sweep's result array is its row-wise
  map of whole arrays (the five blocks of 10000 rows tile the 50000 nodes); the reference's run is read stretch by
  stretch.  Nothing was rewritten by the idealization, so there is nothing to preserve.
-/
import proofs.«139803_j23648089931788_2_alg».proof.Defs
import proofs.«139803_j23648089931788_2_alg».proof.Proof.Gen.Kernel
import proofs.«139803_j23648089931788_2_alg».proof.Proof.Gen.Kernel.Skeleton
import proofs.«139803_j23648089931788_2_alg».proof.Proof.Gen.Kernel.Launch
import proofs.«139803_j23648089931788_2_alg».proof.Proof.Gen.Kernel.Points
import proofs.«139803_j23648089931788_2_alg».proof.Proof.Gen.Kernel.Frame
import proofs.«139803_j23648089931788_2_alg».proof.Proof.Gen.KernelIdeal
import proofs.«139803_j23648089931788_2_alg».proof.Proof.Gen.KernelIdeal.Skeleton
import proofs.«139803_j23648089931788_2_alg».proof.Proof.Gen.KernelIdeal.Launch
import proofs.«139803_j23648089931788_2_alg».proof.Proof.Gen.KernelIdeal.Points
import proofs.«139803_j23648089931788_2_alg».proof.Proof.Gen.KernelIdeal.Frame
import proofs.«139803_j23648089931788_2_alg».proof.Proof.Gen.ReferenceIdeal
import proofs.«139803_j23648089931788_2_alg».proof.Proof.Gen.Pre_finite_inputs
import proofs.«139803_j23648089931788_2_alg».proof.Proof.KernelRun
import proofs.«139803_j23648089931788_2_alg».proof.Proof.Chase
import proofs.«139803_j23648089931788_2_alg».proof.Proof.RefStages
import proofs.«139803_j23648089931788_2_alg».proof.Proof.RefValue
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

/-- The two programs derive the same graph and biases from the same arguments, so their networks are one function. -/
theorem same_network (a0 : FVec Ideal Cert.KernelIdeal.S50000x128 .f32) (a1 : IVec Cert.KernelIdeal.S2x800000 32)
    (a2 : FVec Ideal Cert.KernelIdeal.S128x128 .f32) (a3 : FVec Ideal Cert.KernelIdeal.S128 .f32)
    (a4 : FVec Ideal Cert.KernelIdeal.S128x64 .f32) (a5 : FVec Ideal Cert.KernelIdeal.S64 .f32) (n : Fin 50000) (q : Fin 64) :
    Cert.Gcn.out (Cert.KernelIdeal.Chase.wt a1) (Cert.KernelIdeal.Chase.gs a1) (Cert.KernelIdeal.Chase.gd a1)
        (Cert.KernelIdeal.Chase.hit a1) a0 a2 (Cert.KernelIdeal.Chase.bias1 a3) a4 (Cert.KernelIdeal.Chase.bias2 a5) n q
      = Cert.Gcn.out (Cert.ReferenceIdeal.RefValue.wt a1) (Cert.ReferenceIdeal.RefValue.gs a1) (Cert.ReferenceIdeal.RefValue.gd a1)
        (Cert.ReferenceIdeal.RefValue.hit a1) a0 a2 (Cert.ReferenceIdeal.RefValue.bias1 a3) a4
        (Cert.ReferenceIdeal.RefValue.bias2 a5) n q := rfl

/-- The kernel's result array is the reference's composed term of the same arguments, entry by entry. -/
theorem result_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.ReferenceIdeal.Read.val_main_v112 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
        (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      = Cert.KernelIdeal.Gen.W10 m ρ c (Proc.devRef .tc Cert.KernelIdeal.main_v51) := by
  funext i
  obtain ⟨n, q, rfl⟩ : ∃ (n : Fin 50000) (q : Fin 64), i = ix2 n q := ⟨i 0, i 1, eq_ix2 i⟩
  rw [Cert.ReferenceIdeal.RefValue.result_apply]
  refine Eq.trans ?_ (Cert.KernelIdeal.Chase.result_apply m ρ c n q).symm
  exact (same_network _ _ _ _ _ _ n q).symm

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Stages.run (F := Ideal) m ρ)

theorem preserves : Cert.preserves_Kernel_KernelIdeal := trivial

/-- From memories that agree on the arguments both programs run, and the reference's result is the kernel's. -/
theorem algebraic : Cert.algebraic_KernelIdeal_ReferenceIdeal := by
  intro m ρ m' ρ' _ hagree
  refine ⟨fun c => Cert.KernelIdeal.Gen.W10 m ρ c (Proc.devRef .tc Cert.KernelIdeal.main_v51),
    Cert.KernelIdeal.Run.run_result m ρ, ?_⟩
  refine (θ_run Cert.ReferenceIdeal.defs _ _).mono (fun _ h c => ⟨(h c).1.trans ?_, (h c).2⟩)
    (Cert.ReferenceIdeal.Stages.run (F := Ideal) m' ρ')
  rw [(hagree c).1, (hagree c).2.1, (hagree c).2.2.1, (hagree c).2.2.2.1, (hagree c).2.2.2.2.1, (hagree c).2.2.2.2.2]
  exact result_eq m ρ c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
